-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000000x128 : Shape := ⟨2, ![1000000, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S1000000x128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 999999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S1000000x128 : Shape := ⟨2, ![1000000, 128]⟩
abbrev S32x200x128 : Shape := ⟨3, ![32, 200, 128]⟩
abbrev S32x200x128x128 : Shape := ⟨4, ![32, 200, 128, 128]⟩
abbrev S200x128 : Shape := ⟨2, ![200, 128]⟩
abbrev S128x128 : Shape := ⟨2, ![128, 128]⟩
abbrev S_ : Shape := ⟨0, ![]⟩
abbrev S1x200x128 : Shape := ⟨3, ![1, 200, 128]⟩
abbrev S1x128 : Shape := ⟨2, ![1, 128]⟩
abbrev S128 : Shape := ⟨1, ![128]⟩
abbrev S1x1x128x128 : Shape := ⟨4, ![1, 1, 128, 128]⟩
abbrev S4096x200x128 : Shape := ⟨3, ![4096, 200, 128]⟩

abbrev nBuf : Table → Nat
  | .hbm => 5
  | .local .scVector .vmem => 3
  | _ => 0

abbrev bufTy : (tb : Table) → Fin (nBuf tb) → BufTy
  | .hbm, ⟨0, _⟩ => ⟨S4096x200, .i32⟩
  | .hbm, ⟨1, _⟩ => ⟨S1000000x128, .f32⟩
  | .hbm, ⟨2, _⟩ => ⟨S32x200x128, .i32⟩
  | .hbm, ⟨3, _⟩ => ⟨S32x200x128x128, .f32⟩
  | .hbm, ⟨4, _⟩ => ⟨S4096x200x128, .f32⟩
  | .local .scVector .vmem, ⟨0, _⟩ => ⟨S200x128, .i32⟩
  | .local .scVector .vmem, ⟨1, _⟩ => ⟨S128x128, .f32⟩
  | .local .scVector .vmem, ⟨2, _⟩ => ⟨S128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r0 : BitVec 32 := 0#32
  let c0_i32_7_r0 : BitVec 32 := 0#32
  ![v1.toNat, 0, 0]
@[reducible] def k0_t1_loop : Scf.Loop 32 :=
  let c0_i32_4 : BitVec 32 := 0#32
  let c100_i32 : BitVec 32 := 100#32
  let v5 : BitVec 32 := Scalar.addi c0_i32_4 c100_i32
  let c1_i32 : BitVec 32 := 1#32
  ⟨c0_i32_4, v5, c1_i32⟩
def k0_off2 (k0_t1 : Fin k0_t1_loop.trips) : Fin 2 → Nat :=
  let c2_i32_6 : BitVec 32 := 2#32
  let c0_i32_4 : BitVec 32 := 0#32
  let c1_i32 : BitVec 32 := 1#32
  let arg10 : BitVec 32 := Scf.iv c0_i32_4 c1_i32 k0_t1
  let v7 : BitVec 32 := Scalar.muli c2_i32_6 arg10
  let c1_i32_7 : BitVec 32 := 1#32
  let v8 : BitVec 32 := Scalar.addi v7 c1_i32_7
  let c0_i32_8 : BitVec 32 := 0#32
  ![v8.toNat, 0]
def k0_off3 (k0_t1 : Fin k0_t1_loop.trips) : Fin 2 → Nat :=
  let c2_i32_6 : BitVec 32 := 2#32
  let c0_i32_4 : BitVec 32 := 0#32
  let c1_i32 : BitVec 32 := 1#32
  let arg10 : BitVec 32 := Scf.iv c0_i32_4 c1_i32 k0_t1
  let v7 : BitVec 32 := Scalar.muli c2_i32_6 arg10
  let c0_i32_11 : BitVec 32 := 0#32
  ![v7.toNat, 0]
def k0_off4 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_6 : BitVec 32 := 2#32
  let c0_i32_4 : BitVec 32 := 0#32
  let c1_i32 : BitVec 32 := 1#32
  let arg10 : BitVec 32 := Scf.iv c0_i32_4 c1_i32 k0_t1
  let v7 : BitVec 32 := Scalar.muli c2_i32_6 arg10
  let c0_i32_22_r1 : BitVec 32 := 0#32
  let c0_i32_23_r1 : BitVec 32 := 0#32
  ![v1.toNat, v7.toNat, 0, 0]
def k0_cond1 (k0_t1 : Fin k0_t1_loop.trips) : BitVec 1 :=
  let c0_i32_4 : BitVec 32 := 0#32
  let c1_i32 : BitVec 32 := 1#32
  let arg10 : BitVec 32 := Scf.iv c0_i32_4 c1_i32 k0_t1
  let c1_i32_14 : BitVec 32 := 1#32
  let v15 : BitVec 32 := Scalar.addi arg10 c1_i32_14
  let c100_i32_15 : BitVec 32 := 100#32
  let v16 : BitVec 1 := Scalar.cmpi .slt v15 c100_i32_15
  let v17 : BitVec 32 := Scalar.extui v16
  let c0_i32_16 : BitVec 32 := 0#32
  let v18 : BitVec 1 := Scalar.cmpi .ne v17 c0_i32_16
  v18

def k0_off5 (k0_t1 : Fin k0_t1_loop.trips) : Fin 2 → Nat :=
  let c2_i32_6 : BitVec 32 := 2#32
  let c0_i32_4 : BitVec 32 := 0#32
  let c1_i32 : BitVec 32 := 1#32
  let arg10 : BitVec 32 := Scf.iv c0_i32_4 c1_i32 k0_t1
  let v7 : BitVec 32 := Scalar.muli c2_i32_6 arg10
  let c2_i32_22 : BitVec 32 := 2#32
  let v23 : BitVec 32 := Scalar.addi v7 c2_i32_22
  let c0_i32_23 : BitVec 32 := 0#32
  ![v23.toNat, 0]
def k0_off6 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_6 : BitVec 32 := 2#32
  let c0_i32_4 : BitVec 32 := 0#32
  let c1_i32 : BitVec 32 := 1#32
  let arg10 : BitVec 32 := Scf.iv c0_i32_4 c1_i32 k0_t1
  let v7 : BitVec 32 := Scalar.muli c2_i32_6 arg10
  let c1_i32_17 : BitVec 32 := 1#32
  let v19 : BitVec 32 := Scalar.addi v7 c1_i32_17
  let c0_i32_22_r2 : BitVec 32 := 0#32
  let c0_i32_23_r2 : BitVec 32 := 0#32
  ![v1.toNat, v19.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S32x200x128 : S4096x200.ShapeCasts S32x200x128
  squeezes_S1x200x128_S200x128 : S1x200x128.Squeezes S200x128
  inb_S200x128_S1x128_0_0 : ∀ a, (![0, 0] : Fin 2 → Nat) a + S1x128.size a ≤ S200x128.size a
  squeezes_S1x128_S128 : S1x128.Squeezes S128
  inb_S1000000x128_S1000000x128_0_0 : ∀ a, (![0, 0] : Fin 2 → Nat) a + S1000000x128.size a ≤ S1000000x128.size a
  gathers_S1000000x128_S128x128 : S1000000x128.Gathers 0 S128x128
  squeezes_S1x1x128x128_S128x128 : S1x1x128x128.Squeezes S128x128
  shapeCasts_S32x200x128x128_S4096x200x128 : S32x200x128x128.ShapeCasts S4096x200x128
  hcc0_scratch3 : 0 + S_.numel ≤ 5
  hcc0_scratch4 : 1 + S_.numel ≤ 5
  hcc0_scoped0 : 2 + S_.numel ≤ 5
  hcc0_scoped1 : 3 + S_.numel ≤ 5
  hcc0_scoped2 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x200x128.size a ≤ S32x200x128.size a
  k0_t1_ok : k0_t1_loop.OK
  k0_off2_inb : ∀ k0_t1 : Fin k0_t1_loop.trips, ∀ a, (k0_off2 k0_t1) a + S1x128.size a ≤ S200x128.size a
  k0_off3_inb : ∀ k0_t1 : Fin k0_t1_loop.trips, ∀ a, (k0_off3 k0_t1) a + S1x128.size a ≤ S200x128.size a
  k0_off4_inb : ∀ (i : grid0.Coords) (k0_t1 : Fin k0_t1_loop.trips), ∀ a, (k0_off4 i k0_t1) a + S1x1x128x128.size a ≤ S32x200x128x128.size a
  k0_off5_inb : ∀ k0_t1 : Fin k0_t1_loop.trips, ∀ (k0_h1 : k0_cond1 k0_t1 = 1#1), ∀ a, (k0_off5 k0_t1) a + S1x128.size a ≤ S200x128.size a
  k0_off6_inb : ∀ (i : grid0.Coords) (k0_t1 : Fin k0_t1_loop.trips), ∀ a, (k0_off6 i k0_t1) a + S1x1x128x128.size a ≤ S32x200x128x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2

class Facts : Prop extends Facts₀ where

variable [Facts]
-- ==== ReferenceIdeal.lean ====
abbrev S4096x200 : Shape := ⟨2, ![4096, 200]⟩
abbrev S1000000x128 : Shape := ⟨2, ![1000000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S1000000x128_S4096x200x1_S4096x200x128_2_0_n_n_0_2_1128_wf : GatherDims.WF S1000000x128 S4096x200x1 S4096x200x128 [2] [0] [] [0] [] 2 ![1, 128]

variable [Facts₀]

def gather_S1000000x128_S4096x200x1_S4096x200x128_2_0_n_n_0_2_1128 : GatherDims S1000000x128 S4096x200x1 S4096x200x128 where
  offsetDims := [2]
  collapsedSliceDims := [0]
  operandBatchingDims := []
  startIndicesBatchingDims := []
  startIndexMap := [0]
  indexVectorDim := 2
  sliceSizes := ![1, 128]
  wf := gather_S1000000x128_S4096x200x1_S4096x200x128_2_0_n_n_0_2_1128_wf

class Facts : Prop extends Facts₀ where

variable [Facts]
-- ==== Proof.Spec.lean ====
/-
  The specification both programs meet. The kernel and the reference each compute an embedding lookup: the result's
  entry (i, j, l) is entry l of the table's row named by the index word at (i, j). Everything here is pure: no program
  is imported.

  * `InRange idx`: every index word, read unsigned, names one of the table's 1 000 000 rows.
  * `row n`: the row a word names. It is total (a word out of range names row `n mod 1000000`); under `InRange` the
    reduction is the identity, so no proof is carried inside an index.
  * `G idx w`: the looked-up array over the result's own shape [4096, 200, 128].
  * `G4 idx3 w`: the same rows as the vector subcores write them, over [32, 200, 128, 128], from the index array as they
    read it, [32, 200, 128]: worker a's chunk b holds, at lane c, the table's row named by the word at (a, b, c).
-/
import Idealize.ShloMosaic.Lib.ValueIdx
import Idealize.ShloMosaic.PureOps

noncomputable section

namespace Cert.Spec

open Idealize.ShloMosaic Idealize.ShloMosaic.ValueIdx

/-- The index array's shape. -/
abbrev SI : Shape := ⟨2, ![4096, 200]⟩
/-- The table's shape. -/
abbrev SW : Shape := ⟨2, ![1000000, 128]⟩
/-- The result's shape. -/
abbrev SO : Shape := ⟨3, ![4096, 200, 128]⟩
/-- The index array as the 32 workers read it: worker, chunk, lane. -/
abbrev SI3 : Shape := ⟨3, ![32, 200, 128]⟩
/-- The rows as the 32 workers write them: worker, chunk, lane, entry. -/
abbrev SO4 : Shape := ⟨4, ![32, 200, 128, 128]⟩

/-- Every index word, read unsigned, names a row of the table. -/
def InRange (idx : SI.Idx → BitVec 32) : Prop := ∀ j, (idx j).toNat < 1000000

/-- The row a word names (total: out of range it is reduced modulo the number of rows, which `InRange` never meets). -/
def row (n : BitVec 32) : Fin 1000000 := ⟨n.toNat % 1000000, Nat.mod_lt _ (by decide)⟩

theorem row_val_of_lt (n : BitVec 32) (h : n.toNat < 1000000) : (row n).val = n.toNat := Nat.mod_eq_of_lt h

/-- The lookup over the result's shape: entry (i, j, l) is entry l of the row the word at (i, j) names. -/
def G {α : Type} (idx : SI.Idx → BitVec 32) (w : SW.Idx → α) : SO.Idx → α :=
  fun y => w (ix2 (n0 := 1000000) (n1 := 128) (row (idx (ix2 (n0 := 4096) (n1 := 200) (y 0) (y 1)))) (y 2))

/-- The lookup as the workers lay it out: entry (a, b, c, l) is entry l of the row the word at (a, b, c) names. -/
def G4 {α : Type} (idx3 : SI3.Idx → BitVec 32) (w : SW.Idx → α) : SO4.Idx → α :=
  fun x => w (ix2 (n0 := 1000000) (n1 := 128) (row (idx3 (ix3 (n0 := 32) (n1 := 200) (n2 := 128) (x 0) (x 1) (x 2)))) (x 3))

end Cert.Spec

end
-- ==== Proof.SideIdeal.Common.lean ====
/-
  The embedding lookup's SparseCore program as its launch sees it, and the buffers in the body's own spelling.

  Thirty-two workers (two SparseCores of sixteen vector subcores; worker number 2·subcore + core) each copy their
  [200, 128] slab of the index array into their own memory and then fetch, chunk by chunk, the 128 table rows a chunk's
  words name, writing each fetched [128, 128] block to the worker's place in the result. This module fixes the names:
  the threads' configuration, the ghost state (the handshakes' rounds beside the local transfers' counters), the arrays
  as each thread addresses them, and the closed forms of the worker's slab and chunk rectangles.
-/
import proofs.«203453_g50448685858838_cont_8to1c4_102_16_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203453_g50448685858838_cont_8to1c4_102_16_alg».proof.Proof.Gen.KernelIdeal
import proofs.«203453_g50448685858838_cont_8to1c4_102_16_alg».proof.Proof.Gen.KernelIdeal.Skeleton
import proofs.«203453_g50448685858838_cont_8to1c4_102_16_alg».proof.Proof.Spec

noncomputable section

namespace Cert.Proof.SideIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the local transfers' counters -/

abbrev UH : Type := URounds (GSem nD τ sig) ℕ
abbrev UU : Type := UH × Counters

abbrev 𝕄T (F : FTy → Type) : Type := MT nD τ sig (HIx 1) (Elt F) ℕ UU ℕ

abbrev EH : Emb UH (MT nD τ sig (HIx 1) (Elt F) ℕ UU ℕ) := embL

/-! ## The arrays, as the TensorCore and as a vector subcore name them -/

abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The index array as the workers read it, whole. -/
abbrev iV : Memref sig .scVector .hbm S32x200x128 .i32 := Memref.whole main_v0_scv
/-- The table, whole. -/
abbrev xV : Memref sig .scVector .hbm S1000000x128 .f32 := Memref.whole main_arg1_scv
/-- The result as the workers write it, whole. -/
abbrev oV : Memref sig .scVector .hbm S32x200x128x128 .f32 := Memref.whole main_v1_scv
/-- A worker's copy of its index slab. -/
abbrev sV : Memref sig .scVector .vmem S200x128 .i32 := Memref.whole cc0_scratch0
/-- The two row buffers. -/
abbrev r0V : Memref sig .scVector .vmem S128x128 .f32 := Memref.whole cc0_scratch1
abbrev r1V : Memref sig .scVector .vmem S128x128 .f32 := Memref.whole cc0_scratch2

/-! ## A worker's coordinates -/

abbrev cV (L : grid0.Coords) : Fin τ.nSC := (L 0).castLE hcore0
abbrev jV (L : grid0.Coords) : Fin τ.nSub := (L 1).castLE hsub0
/-- The vector subcore that runs worker `L`. -/
abbrev VT (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

/-- Worker `L`'s number: twice the subcore plus the core. -/
def wid (L : grid0.Coords) : Fin 32 := ⟨2 * (L 1).val + (L 0).val, by have h1 : (L 1).val < 16 := (L 1).isLt; have h0 : (L 0).val < 2 := (L 0).isLt; omega⟩

/-! ## The worker's slab of the index array and its chunks of the result, in the body's spelling -/

/-- Worker `L`'s slab of the index array, as the body slices it. -/
abbrev iSlab (L : grid0.Coords) : Memref sig .scVector .hbm S200x128 .i32 :=
  ((iV).slice (Rect.unit (s := S32x200x128) (k0_off1 L) S1x200x128.size (k0_off1_inb L)) (fun _ => rfl)).squeeze S200x128 squeezes_S1x200x128_S200x128
/-- The table, as the body slices it (the whole of it). -/
abbrev xAll : Memref sig .scVector .hbm S1000000x128 .f32 :=
  (xV).slice (Rect.unit (s := S1000000x128) ![0, 0] S1000000x128.size inb_S1000000x128_S1000000x128_0_0) (fun _ => rfl)
/-- Worker `L`'s even chunk of trip `k` in the result. -/
abbrev oEven (L : grid0.Coords) (k : Fin k0_t1_loop.trips) : Memref sig .scVector .hbm S128x128 .f32 :=
  ((oV).slice (Rect.unit (s := S32x200x128x128) (k0_off4 L k) S1x1x128x128.size (k0_off4_inb L k)) (fun _ => rfl)).squeeze S128x128 squeezes_S1x1x128x128_S128x128
/-- Worker `L`'s odd chunk of trip `k` in the result. -/
abbrev oOdd (L : grid0.Coords) (k : Fin k0_t1_loop.trips) : Memref sig .scVector .hbm S128x128 .f32 :=
  ((oV).slice (Rect.unit (s := S32x200x128x128) (k0_off6 L k) S1x1x128x128.size (k0_off6_inb L k)) (fun _ => rfl)).squeeze S128x128 squeezes_S1x1x128x128_S128x128

/-- The worker's whole slab of the result: its 200 chunks. -/
def oSlabOff (L : grid0.Coords) : Fin 4 → Nat := ![(wid L).val, 0, 0, 0]
abbrev S1x200x128x128 : Shape := ⟨4, ![1, 200, 128, 128]⟩
theorem oSlabOff_inb (L : grid0.Coords) : ∀ a, oSlabOff L a + S1x200x128x128.size a ≤ S32x200x128x128.size a := by
  have := (wid L).isLt
  intro a; match a with
  | 0 => show (wid L).val + 1 ≤ 32; omega
  | 1 => show 0 + 200 ≤ 200; omega
  | 2 => show 0 + 128 ≤ 128; omega
  | 3 => show 0 + 128 ≤ 128; omega
abbrev oSlabRect (L : grid0.Coords) : Rect S32x200x128x128 := Rect.unit (s := S32x200x128x128) (oSlabOff L) S1x200x128x128.size (oSlabOff_inb L)
/-- The elements of the worker's slab of the result. -/
abbrev oSlabSet (L : grid0.Coords) : Finset S32x200x128x128.Idx := ((oV).view.slice (oSlabRect L)).set

end Cert.Proof.SideIdeal

end
-- ==== Proof.SideIdeal.Pay.lean ====
/-
  What the one SparseCore call carries, and the values the certificate names.

  `I3 m d` is the index array as the workers read it (the first reshape's result), `G4m m d` the rows every worker
  will have written (the lookup laid out worker, chunk, lane, entry), `RES m d` the result after the second reshape.
  Worker w (w = 2·subcore + core) is handed its slab of the index array, two read shares of the table (one per row
  buffer's semaphore), and its slab of the result at whatever it holds; it hands the same back with its slab of the
  result at the lookup. A SparseCore's operands are already its sixteen workers' side by side, so the split among the
  workers is the identity.
-/
import proofs.«203453_g50448685858838_cont_8to1c4_102_16_alg».proof.Proof.SideIdeal.Common

noncomputable section

namespace Cert.Proof.SideIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The values -/

/-- The index array as the workers read it: the launch's index array under the first reshape. -/
def I3 (d : Dev nD) : Buf (Elt F) (iLoc d) :=
  fun i => shapeCast S32x200x128 (m (aLoc d)) shapeCasts_S4096x200_S32x200x128 i
/-- The rows the workers write: the lookup, laid out worker, chunk, lane, entry. -/
def G4m (d : Dev nD) : Buf (Elt F) (oLoc d) := Cert.Spec.G4 (I3 m d) (m (xLoc d))
/-- The program's result: those rows under the second reshape. -/
def RES (d : Dev nD) : Buf (Elt F) (rLoc d) :=
  fun i => shapeCast S4096x200x128 (G4m m d) shapeCasts_S32x200x128x128_S4096x200x128 i

/-- What the proof asks of the launch memory: every index word names a row of the table. -/
def PreOK : Prop := ∀ d : Dev nD, Cert.Spec.InRange (m (aLoc d))

/-! ## The workers' slabs and shares -/

theorem idiv : 32 ∣ S32x200x128.size 0 := ⟨1, rfl⟩
theorem odiv : 32 ∣ S32x200x128x128.size 0 := ⟨1, rfl⟩
/-- Worker `w`'s slab of the index array, and of the result. -/
abbrev iPart (w : Fin 32) : Finset S32x200x128.Idx := ((iV).view.slice (Rect.part (s := S32x200x128) (a₀ := 0) idiv w)).set
abbrev oPart (w : Fin 32) : Finset S32x200x128x128.Idx := ((oV).view.slice (Rect.part (s := S32x200x128x128) (a₀ := 0) odiv w)).set
/-- The table's read shares: two per worker. -/
abbrev xTok (n : ℕ) : PosShare TreeShare := Transfers.shareTokN fullShare n

/-- The worker on subcore `s` of SparseCore `c`. -/
def wOf (c : Fin 2) (s : Fin 16) : Fin 32 := ⟨2 * s.val + c.val, by omega⟩

/-- What worker `w` is handed: its index slab, its two shares of the table, its slab of the result at some contents. -/
def GO (d : Dev nD) (w : Fin 32) : sProp 𝕄 :=
  iprop((iLoc d ↦[iPart w]{fullShare} I3 m d) ∗ (xLoc d ↦{xTok (2 * w.val)} m (xLoc d)) ∗ (xLoc d ↦{xTok (2 * w.val + 1)} m (xLoc d))
    ∗ ∃ f, oLoc d ↦[oPart w]{fullShare} f)
/-- What worker `w` hands back: the same, its slab of the result at the lookup. -/
def TD (d : Dev nD) (w : Fin 32) : sProp 𝕄 :=
  iprop((iLoc d ↦[iPart w]{fullShare} I3 m d) ∗ (xLoc d ↦{xTok (2 * w.val)} m (xLoc d)) ∗ (xLoc d ↦{xTok (2 * w.val + 1)} m (xLoc d))
    ∗ oLoc d ↦[oPart w]{fullShare} G4m m d)

/-- The one call: a SparseCore is handed its sixteen workers' pieces side by side and hands them back so. -/
def P : (K (F := F)).Pay (nD := nD) (Val := Elt F) (Name := ℕ) (U := UU) where
  st := fun q d c => match q with | 0 => bigSep Finset.univ fun s : Fin 16 => GO m d (wOf (Fin.cast nCore_zero c) s)
  dn := fun q d c => match q with | 0 => bigSep Finset.univ fun s : Fin 16 => TD m d (wOf (Fin.cast nCore_zero c) s)
  go := fun q d c i => match q with | 0 => GO m d (wOf (Fin.cast nCore_zero c) (Fin.cast nSub_zero i))
  td := fun q d c i => match q with | 0 => TD m d (wOf (Fin.cast nCore_zero c) (Fin.cast nSub_zero i))
  x := fun _ _ => iprop(emp)

end Cert.Proof.SideIdeal

end
-- ==== Proof.SideIdeal.Launch.lean ====
/-
  The launch of the lookup's SparseCore program: from one vector subcore's task (a hypothesis here) to the run of the
  whole program, at any float arithmetic.

  @main on a device's TensorCore reshapes the index array [4096, 200] to [32, 200, 128], calls the two SparseCores,
  and reshapes the rows [32, 200, 128, 128] to the result [4096, 200, 128]. Around the call the three arrays the
  vector subcores touch are dealt out and collected again:

  * the reshaped index array and the rows are each the disjoint union of thirty-two slabs along their first axis, so a
    points-to of the whole array is the separating conjunction of the slabs' (the rows' slabs before the call at
    whatever they hold, after it all at the one lookup function, so they join to the whole array at the lookup);
  * the table, which every vector subcore reads whole, goes out as sixty-four read shares, two per vector subcore
    (shares 2w and 2w + 1 to number w), a remainder staying with the TensorCore; sixty-four in a row are thirty-two
    pairs because (w, b) ↦ 2w + b is a bijection from [0, 32) × [0, 2) onto [0, 64);
  * the thirty-two vector subcores are the sixteen of SparseCore 0 and the sixteen of SparseCore 1, number 2s + c for
    subcore s of SparseCore c: (s, c) ↦ 2s + c is a bijection from [0, 16) × [0, 2) onto [0, 32), so a separating
    conjunction over the numbers is one over the SparseCores of one over their subcores. A SparseCore's operands are
    already its sixteen tasks' side by side, so its own split among its tasks is the identity.

  The two reshapes are host operations over the TensorCore's five arrays held whole; each leaves every array but its
  result as it was. At the end the two arguments are at their launch contents and the result holds the lookup laid out
  [32, 200, 128, 128] and reshaped; the final memory agrees with these points-tos.
-/
import proofs.«203453_g50448685858838_cont_8to1c4_102_16_alg».proof.Proof.SideIdeal.Pay

noncomputable section

namespace Cert.Proof.SideIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The payload is storable -/

omit [FloatOps F] in
instance GO_storable (d : Dev nD) (w : Fin 32) : BI.Storable (upEmb : UEmb _ 𝕄) (GO m d w) := by
  unfold GO; infer_instance
omit [FloatOps F] in
instance TD_storable (d : Dev nD) (w : Fin 32) : BI.Storable (upEmb : UEmb _ 𝕄) (TD m d w) := by
  unfold TD; infer_instance

omit [FloatOps F] in
instance P_storable : (P (F := F) m).IsStorable where
  st q d c := match q with
    | 0 => (inferInstance : BI.Storable (upEmb : UEmb _ 𝕄) (bigSep Finset.univ fun s : Fin 16 => GO m d (wOf (Fin.cast nCore_zero c) s)))
  dn q d c := match q with
    | 0 => (inferInstance : BI.Storable (upEmb : UEmb _ 𝕄) (bigSep Finset.univ fun s : Fin 16 => TD m d (wOf (Fin.cast nCore_zero c) s)))
  go q d c i := match q with
    | 0 => (inferInstance : BI.Storable (upEmb : UEmb _ 𝕄) (GO m d (wOf (Fin.cast nCore_zero c) (Fin.cast nSub_zero i))))
  td q d c i := match q with
    | 0 => (inferInstance : BI.Storable (upEmb : UEmb _ 𝕄) (TD m d (wOf (Fin.cast nCore_zero c) (Fin.cast nSub_zero i))))

/-! ## A SparseCore's operands are its sixteen tasks' side by side -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem vecSplit : (K (F := F)).VecSplit' (P m) 0 := by
  intro d c
  show (bigSep Finset.univ fun s : Fin 16 => GO m d (wOf (Fin.cast nCore_zero c) s)) ⊢ |={Set.univ}=> iprop(
      (bigSep Finset.univ fun i : Fin ((K (F := F)).nSub 0) => GO m d (wOf (Fin.cast nCore_zero c) (Fin.cast nSub_zero i)))
      ∗ ((bigSep Finset.univ fun i : Fin ((K (F := F)).nSub 0) => TD m d (wOf (Fin.cast nCore_zero c) (Fin.cast nSub_zero i)))
          -∗ (bigSep Finset.univ fun s : Fin 16 => TD m d (wOf (Fin.cast nCore_zero c) s))))
  rw [bigSep_tasks (F := F) (fun s => GO m d (wOf (Fin.cast nCore_zero c) s)),
    bigSep_tasks (F := F) (fun s => TD m d (wOf (Fin.cast nCore_zero c) s))]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The slabs split and join; the table's read shares; the vector subcores regrouped by SparseCore -/

omit [FloatOps F] in
theorem iPart_eq (w : Fin 32) : iPart w = (Rect.part (s := S32x200x128) (a₀ := 0) idiv w).set := by
  show ((View.whole (main_v0_scv : Ref sig .scVector)).slice (Rect.part (s := S32x200x128) (a₀ := 0) idiv w)).set = _
  rw [View.set_slice]; exact Finset.map_refl
omit [FloatOps F] in
theorem oPart_eq (w : Fin 32) : oPart w = (Rect.part (s := S32x200x128x128) (a₀ := 0) odiv w).set := by
  show ((View.whole (main_v1_scv : Ref sig .scVector)).slice (Rect.part (s := S32x200x128x128) (a₀ := 0) odiv w)).set = _
  rw [View.set_slice]; exact Finset.map_refl
omit [FloatOps F] in
theorem iParts_disjoint : ∀ i ∈ (Finset.univ : Finset (Fin 32)), ∀ j ∈ (Finset.univ : Finset (Fin 32)), i ≠ j → Disjoint (iPart i) (iPart j) :=
  fun i _ j _ h => by rw [iPart_eq, iPart_eq]; exact Rect.part_disjoint idiv h
omit [FloatOps F] in
theorem oParts_disjoint : ∀ i ∈ (Finset.univ : Finset (Fin 32)), ∀ j ∈ (Finset.univ : Finset (Fin 32)), i ≠ j → Disjoint (oPart i) (oPart j) :=
  fun i _ j _ h => by rw [oPart_eq, oPart_eq]; exact Rect.part_disjoint odiv h
omit [FloatOps F] in
theorem iParts_cover : (Finset.univ : Finset (Fin 32)).biUnion iPart = Finset.univ :=
  (Finset.biUnion_congr rfl fun i _ => iPart_eq i).trans (Rect.biUnion_part idiv)
omit [FloatOps F] in
theorem oParts_cover : (Finset.univ : Finset (Fin 32)).biUnion oPart = Finset.univ :=
  (Finset.biUnion_congr rfl fun i _ => oPart_eq i).trans (Rect.biUnion_part odiv)

omit [FloatOps F] in
/-- The index array whole is its thirty-two slabs. -/
theorem iPts_parts (d : Dev nD) (f : Buf (Elt F) (iLoc d)) :
    (iLoc d ↦{fullShare} f : sProp 𝕄) = bigSep Finset.univ fun w : Fin 32 => iLoc d ↦[iPart w]{fullShare} f := by
  rw [← pointsTo_biUnion Finset.univ (ℓ := iLoc d) iPart iParts_disjoint, iParts_cover]; try rfl
omit [FloatOps F] in
/-- The result whole is its thirty-two slabs. -/
theorem oPts_parts (d : Dev nD) (f : Buf (Elt F) (oLoc d)) :
    (oLoc d ↦{fullShare} f : sProp 𝕄) = bigSep Finset.univ fun w : Fin 32 => oLoc d ↦[oPart w]{fullShare} f := by
  rw [← pointsTo_biUnion Finset.univ (ℓ := oLoc d) oPart oParts_disjoint, oParts_cover]; try rfl

omit [FloatOps F] in
/-- Sixty-four things in a row are thirty-two pairs. -/
theorem bigSep_pairs (Ψ : ℕ → sProp 𝕄) :
    (bigSep Finset.univ fun i : Fin 64 => Ψ i.val)
      = iprop((bigSep Finset.univ fun w : Fin 32 => Ψ (2 * w.val)) ∗ bigSep Finset.univ fun w : Fin 32 => Ψ (2 * w.val + 1)) := by
  rw [← bigSep_sep', bigSep_univ_equiv (finProdFinEquiv : Fin 32 × Fin 2 ≃ Fin 64) (fun i => Ψ i.val), bigSep_univ_prod]
  refine bigSep_congr fun w _ => ?_
  rw [bigSep_univ_two]
  congr 1 <;> congr 1 <;> simp [finProdFinEquiv] <;> omega

omit [FloatOps F] in
/-- The thirty-two vector subcores, by SparseCore and subcore. -/
theorem bigSep_byCore (Φ : Fin 32 → sProp 𝕄) :
    (bigSep Finset.univ fun c : Fin 2 => bigSep Finset.univ fun s : Fin 16 => Φ (wOf c s)) = bigSep Finset.univ Φ := by
  rw [bigSep_univ_comm, bigSep_univ_equiv (finProdFinEquiv : Fin 16 × Fin 2 ≃ Fin 32) Φ, bigSep_univ_prod]
  refine bigSep_congr fun s _ => bigSep_congr fun c _ => congrArg Φ (Fin.ext ?_)
  simp [wOf, finProdFinEquiv]; omega

omit [FloatOps F] in
/-- What the call hands the two SparseCores is what the thirty-two vector subcores are handed. -/
theorem st_all (d : Dev nD) :
    (bigSep Finset.univ fun c : Fin ((K (F := F)).nCore 0) => (P m).st 0 d c) = bigSep Finset.univ fun w : Fin 32 => GO m d w := by
  show (bigSep Finset.univ fun c : Fin ((K (F := F)).nCore 0) => bigSep Finset.univ fun s : Fin 16 => GO m d (wOf (Fin.cast nCore_zero c) s)) = _
  rw [bigSep_cores (F := F) (fun c => bigSep Finset.univ fun s : Fin 16 => GO m d (wOf c s)), bigSep_byCore (fun w => GO m d w)]
omit [FloatOps F] in
/-- What the two SparseCores hand back is what the thirty-two vector subcores hand back. -/
theorem dn_all (d : Dev nD) :
    (bigSep Finset.univ fun c : Fin ((K (F := F)).nCore 0) => (P m).dn 0 d c) = bigSep Finset.univ fun w : Fin 32 => TD m d w := by
  show (bigSep Finset.univ fun c : Fin ((K (F := F)).nCore 0) => bigSep Finset.univ fun s : Fin 16 => TD m d (wOf (Fin.cast nCore_zero c) s)) = _
  rw [bigSep_cores (F := F) (fun c => bigSep Finset.univ fun s : Fin 16 => TD m d (wOf c s)), bigSep_byCore (fun w => TD m d w)]

/-- The table's share that stays with the TensorCore while the sixty-four read shares are out. -/
abbrev xRest : PosShare TreeShare := Transfers.shareDrop fullShare 64

omit [FloatOps F] in
/-- The table whole is the share that stays and two read shares per vector subcore. -/
theorem xPts_toks (d : Dev nD) (f : Buf (Elt F) (xLoc d)) :
    (xLoc d ↦{fullShare} f : sProp 𝕄) ⊣⊢ iprop((xLoc d ↦{xRest} f) ∗ (bigSep Finset.univ fun w : Fin 32 => xLoc d ↦{xTok (2 * w.val)} f)
      ∗ bigSep Finset.univ fun w : Fin 32 => xLoc d ↦{xTok (2 * w.val + 1)} f) := by
  rw [← bigSep_pairs (fun n => (xLoc d ↦{xTok n} f : sProp 𝕄))]
  exact Transfers.pointsTo_toks fullShare 64

omit [FloatOps F] in
/-- The vector subcores' pieces, family by family. -/
theorem GO_all (d : Dev nD) :
    (bigSep Finset.univ fun w : Fin 32 => GO m d w)
      = iprop((iLoc d ↦{fullShare} I3 m d) ∗ (bigSep Finset.univ fun w : Fin 32 => xLoc d ↦{xTok (2 * w.val)} m (xLoc d))
        ∗ (bigSep Finset.univ fun w : Fin 32 => xLoc d ↦{xTok (2 * w.val + 1)} m (xLoc d))
        ∗ bigSep Finset.univ fun w : Fin 32 => iprop(∃ f, oLoc d ↦[oPart w]{fullShare} f)) := by
  unfold GO
  rw [bigSep_sep', bigSep_sep', bigSep_sep', ← iPts_parts]
omit [FloatOps F] in
theorem TD_all (d : Dev nD) :
    (bigSep Finset.univ fun w : Fin 32 => TD m d w)
      = iprop((iLoc d ↦{fullShare} I3 m d) ∗ (bigSep Finset.univ fun w : Fin 32 => xLoc d ↦{xTok (2 * w.val)} m (xLoc d))
        ∗ (bigSep Finset.univ fun w : Fin 32 => xLoc d ↦{xTok (2 * w.val + 1)} m (xLoc d))
        ∗ (oLoc d ↦{fullShare} G4m m d)) := by
  unfold TD
  rw [bigSep_sep', bigSep_sep', bigSep_sep', ← iPts_parts, ← oPts_parts]

omit [FloatOps F] in
/-- Before the call: the three arrays whole, the result at anything, are the share of the table that stays and the
    vector subcores' pieces. -/
theorem deal (d : Dev nD) :
    iprop((iLoc d ↦{fullShare} I3 m d) ∗ (xLoc d ↦{fullShare} m (xLoc d)) ∗ ∃ f, oLoc d ↦{fullShare} f)
      ⊢ (iprop((xLoc d ↦{xRest} m (xLoc d)) ∗ bigSep Finset.univ fun w : Fin 32 => GO m d w) : sProp 𝕄) := by
  rw [GO_all]
  iintro ⟨Hi, Hx, ⟨%f, Ho⟩⟩
  ihave Hx' := (xPts_toks (F := F) d (m (xLoc d))).1 $$ Hx
  icases Hx' with ⟨Hr, H0, H1⟩
  isplitl [Hr]; · iexact Hr
  isplitl [Hi]; · iexact Hi
  isplitl [H0]; · iexact H0
  isplitl [H1]; · iexact H1
  ihave Ho' := (Entails.of_eq (oPts_parts (F := F) d f)) $$ Ho
  have hone : ∀ w : Fin 32, (oLoc d ↦[oPart w]{fullShare} f : sProp 𝕄) ⊢ iprop(∃ f, oLoc d ↦[oPart w]{fullShare} f) := by
    intro w; iintro H; iexists f; iexact H
  have hmono : (bigSep Finset.univ fun w : Fin 32 => (oLoc d ↦[oPart w]{fullShare} f : sProp 𝕄))
      ⊢ bigSep Finset.univ fun w : Fin 32 => iprop(∃ f, oLoc d ↦[oPart w]{fullShare} f) :=
    bigSep_mono fun w _ => hone w
  iapply hmono; iexact Ho'

omit [FloatOps F] in
/-- After the call: the share that stayed and the vector subcores' pieces are the three arrays whole, the result at the lookup. -/
theorem collect (d : Dev nD) :
    (iprop((xLoc d ↦{xRest} m (xLoc d)) ∗ bigSep Finset.univ fun w : Fin 32 => TD m d w) : sProp 𝕄)
      ⊢ iprop((iLoc d ↦{fullShare} I3 m d) ∗ (xLoc d ↦{fullShare} m (xLoc d)) ∗ oLoc d ↦{fullShare} G4m m d) := by
  rw [TD_all]
  iintro ⟨Hr, Hi, H0, H1, Ho⟩
  isplitl [Hi]; · iexact Hi
  isplitr [Ho]
  · iapply (xPts_toks (F := F) d (m (xLoc d))).2
    isplitl [Hr]; · iexact Hr
    isplitl [H0]; · iexact H0
    iexact H1
  iexact Ho

/-! ## @main on the TensorCore -/

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two reshapes. -/
abbrev opIn : HloOp τ sig (Elt F) := StableHlo.reshape main_arg0 main_v0 rfl shapeCasts_S4096x200_S32x200x128
abbrev opOut : HloOp τ sig (Elt F) := StableHlo.reshape main_v1 main_v2 rfl shapeCasts_S32x200x128x128_S4096x200x128

/-- The TensorCore's arrays, all unscoped. -/
abbrev S5 : Finset (DevRef τ sig) := {a', x', i', o', r'}

omit [FloatOps F] in
theorem held_S5 (d : Dev nD) (W : Valuation τ sig (Elt F)) :
    (held (T d) S5 W : sProp 𝕄)
      = iprop((aLoc d ↦{fullShare} W a') ∗ (xLoc d ↦{fullShare} W x') ∗ (iLoc d ↦{fullShare} W i')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_arg1) ∗ (iLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first reshape; after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (G4m m d)

omit [FloatOps F] in
theorem unscoped_held (d : Dev nD) : (unscopedBufs d (fun b => m ((SparseCore.T d).loc b)) : sProp 𝕄) = held (T d) S5 (V0 m d) := by
  rw [unscopedBufs_eq, held_S5]; rfl

omit [FloatOps F] in
theorem V1_a (d : Dev nD) : V1 m d a' = m (aLoc d) :=
  (opIn (F := F)).result_of_not_mem _ (show a' ∉ ({i'} : Finset (DevRef τ sig)) by decide)
omit [FloatOps F] in
theorem V1_x (d : Dev nD) : V1 m d x' = m (xLoc d) :=
  (opIn (F := F)).result_of_not_mem _ (show x' ∉ ({i'} : Finset (DevRef τ sig)) by decide)
omit [FloatOps F] in
theorem V1_o (d : Dev nD) : V1 m d o' = m (oLoc d) :=
  (opIn (F := F)).result_of_not_mem _ (show o' ∉ ({i'} : Finset (DevRef τ sig)) by decide)
omit [FloatOps F] in
theorem V1_r (d : Dev nD) : V1 m d r' = m (rLoc d) :=
  (opIn (F := F)).result_of_not_mem _ (show r' ∉ ({i'} : Finset (DevRef τ sig)) by decide)
omit [FloatOps F] in
theorem V1_i (d : Dev nD) : V1 m d i' = I3 m d :=
  (StableHlo.reshape_result main_arg0 main_v0 rfl shapeCasts_S4096x200_S32x200x128 ⟨by decide, rfl⟩ ⟨by decide, rfl⟩ (V0 m d)).trans rfl

omit [FloatOps F] in
theorem V2_a (d : Dev nD) : V2 m d a' = m (aLoc d) := (Function.update_of_ne (show a' ≠ o' by decide) _ _).trans (V1_a m d)
omit [FloatOps F] in
theorem V2_x (d : Dev nD) : V2 m d x' = m (xLoc d) := (Function.update_of_ne (show x' ≠ o' by decide) _ _).trans (V1_x m d)
omit [FloatOps F] in
theorem V2_i (d : Dev nD) : V2 m d i' = I3 m d := (Function.update_of_ne (show i' ≠ o' by decide) _ _).trans (V1_i m d)
omit [FloatOps F] in
theorem V2_o (d : Dev nD) : V2 m d o' = G4m m d := Function.update_self _ _ _
omit [FloatOps F] in
theorem V2_r (d : Dev nD) : V2 m d r' = m (rLoc d) := (Function.update_of_ne (show r' ≠ o' by decide) _ _).trans (V1_r m d)

omit [FloatOps F] in
/-- The five arrays after the first reshape: the index array reshaped, the rest at their launch contents. -/
theorem held_V1 (d : Dev nD) :
    (held (T d) S5 ((opIn (F := F)).result (V0 m d)) : sProp 𝕄)
      = iprop((aLoc d ↦{fullShare} m (aLoc d)) ∗ (xLoc d ↦{fullShare} m (xLoc d)) ∗ (iLoc d ↦{fullShare} I3 m d)
          ∗ (oLoc d ↦{fullShare} m (oLoc d)) ∗ rLoc d ↦{fullShare} m (rLoc d)) := by
  show held (SparseCore.T d) S5 (V1 m d) = _
  rw [held_S5, V1_a, V1_x, V1_i, V1_o, V1_r]

omit [FloatOps F] in
theorem V3_a (d : Dev nD) : (opOut (F := F)).result (V2 m d) a' = m (aLoc d) :=
  ((opOut (F := F)).result_of_not_mem _ (show a' ∉ ({r'} : Finset (DevRef τ sig)) by decide)).trans (V2_a m d)
omit [FloatOps F] in
theorem V3_x (d : Dev nD) : (opOut (F := F)).result (V2 m d) x' = m (xLoc d) :=
  ((opOut (F := F)).result_of_not_mem _ (show x' ∉ ({r'} : Finset (DevRef τ sig)) by decide)).trans (V2_x m d)
omit [FloatOps F] in
theorem V3_r (d : Dev nD) : (opOut (F := F)).result (V2 m d) r' = RES m d := by
  refine (StableHlo.reshape_result main_v1 main_v2 rfl shapeCasts_S32x200x128x128_S4096x200x128 ⟨by decide, rfl⟩ ⟨by decide, rfl⟩ (V2 m d)).trans ?_
  show (fun i => shapeCast S4096x200x128 (V2 m d o') shapeCasts_S32x200x128x128_S4096x200x128 i) = RES m d
  rw [V2_o]; rfl

omit [FloatOps F] in
/-- The five arrays after the second reshape. -/
theorem held_V3 (d : Dev nD) :
    (held (T d) S5 ((opOut (F := F)).result (V2 m d)) : sProp 𝕄)
      = iprop((aLoc d ↦{fullShare} m (aLoc d)) ∗ (xLoc d ↦{fullShare} m (xLoc d)) ∗ (iLoc d ↦{fullShare} (opOut (F := F)).result (V2 m d) i')
          ∗ (oLoc d ↦{fullShare} (opOut (F := F)).result (V2 m d) o') ∗ rLoc d ↦{fullShare} RES m d) := by
  rw [held_S5, V3_a, V3_x, V3_r]

omit [FloatOps F] in
theorem hIn : (opIn (F := F)).bufs ⊆ S5 := show ({a', i'} : Finset (DevRef τ sig)) ⊆ S5 by decide
omit [FloatOps F] in
theorem hOut : (opOut (F := F)).bufs ⊆ S5 := show ({o', r'} : Finset (DevRef τ sig)) ⊆ S5 by decide

/-- What @main leaves the claim: the two arguments at their launch contents, the result at the lookup reshaped. -/
abbrev FIN (d : Dev nD) : sProp 𝕄 :=
  iprop((aLoc d ↦{fullShare} m (aLoc d)) ∗ (xLoc d ↦{fullShare} m (xLoc d)) ∗ (rLoc d ↦{fullShare} RES m d))

set_option maxRecDepth 16384 in
/-- @main on device `d`'s TensorCore: the first reshape, the call (the index array's and the result's slabs and the
    table's read shares dealt to the vector subcores and collected again), the second reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hx, Hi, Ho, Hr⟩
  -- the call: the vector subcores' pieces out, and back
  ihave Hd := (deal m d) $$ [Hi Hx Ho]
  · isplitl [Hi]; · iexact Hi
    isplitl [Hx]; · iexact Hx
    iexists _; iexact Ho
  icases Hd with ⟨Hxr, Hgo⟩
  iapply ((K (F := F)).wp_run (D (F := F)) 𝒱 (EH := EH) (P := P m) κ d 0) $$ [Hst Hgo Hb Ha Hxr Hr]
  isplitr; · iexact Hctx
  isplitl [Hst]; · iexact Hst
  isplitl [Hgo]
  · rw [st_all]; iexact Hgo
  iintro ⟨Hst, Hdn⟩
  ihave Hdn' := (Entails.of_eq (dn_all m d)) $$ Hdn
  ihave Hc := (collect m d) $$ [Hxr Hdn']
  · isplitl [Hxr] <;> iassumption
  icases Hc with ⟨Hi, Hx, Ho⟩
  -- the second reshape
  iapply (wp_hlo_within 𝒱 (SparseCore.T d) none Set.univ (op := opOut) (S := S5) hOut (V := V2 m d)) $$ [Hb Ha Hx Hi Ho Hr]
  · isplitl [Hb]; · iexact Hb
    rw [held_S5, V2_a, V2_x, V2_i, V2_o, V2_r]
    isplitl [Ha]; · iexact Ha
    isplitl [Hx]; · iexact Hx
    isplitl [Hi]; · iexact Hi
    isplitl [Ho]; · iexact Ho
    iexact Hr
  iintro ⟨Hb, Hheld⟩
  ihave Hh := (Entails.of_eq (held_V3 (F := F) m d)) $$ Hheld
  icases Hh with ⟨Ha, Hx, -, -, Hr⟩
  rw [wp_ret]; imodintro; imodintro
  isplitl [Hst]; · iexact Hst
  isplitl [Ha]; · iexact Ha
  isplitl [Hx]; · iexact Hx
  iexact Hr

/-! ## The final memory, read -/

def fq (d : Dev nD) (s' : Phys nD τ sig (Elt F)) : Prop :=
  s'.mem.mem (aLoc d) = m (aLoc d) ∧ s'.mem.mem (xLoc d) = m (xLoc d) ∧ s'.mem.mem (rLoc d) = RES m d

set_option maxRecDepth 16384 in
omit [FloatOps F] in
theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (rLoc c) = RES m c ∧ r.2.mem (aLoc c) = m (aLoc c) ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun _ h c => ⟨(h c).2.2, (h c).1, (h c).2.1⟩)

end Cert.Proof.SideIdeal

end
-- ==== Proof.PreRead.lean ====
/-
  The precondition read back. The printed predicate is one bit: the conjunction of "every table entry is finite" and
  "every index word w satisfies 0 <= w <= 999999 (signed)", the second half an and-reduction over the whole index array
  of the pointwise conjunction of the two signed comparisons. When the bit is 1, the second half is 1, so every element
  of the reduced array is 1, so at each position both comparisons hold; a word that is signed-nonnegative reads the same
  signed and unsigned, hence its unsigned value is below 1 000 000. Only the integer half is opened: the statement is
  generic in the float arithmetic.
-/
import proofs.«203453_g50448685858838_cont_8to1c4_102_16_alg».proof.Pre_input_domain
import proofs.«203453_g50448685858838_cont_8to1c4_102_16_alg».proof.Proof.Gen.Pre_input_domain
import proofs.«203453_g50448685858838_cont_8to1c4_102_16_alg».proof.Proof.Spec
import Idealize.ShloMosaic.Lib.ReduceAll
import Idealize.ShloMosaic.Lib.ValueIdx

namespace Cert.PreRead

open Idealize.ShloMosaic

/-- The rank-0 shape has exactly one index. -/
instance subsingleton_scalar_idx : Subsingleton Cert.Pre_input_domain.S_.Idx := ⟨fun a b => funext fun d => d.elim0⟩

/-- A word for which both signed comparisons `0 <= v` and `v <= 999999` hold is, read unsigned, below 1 000 000. -/
theorem word_lt (v : BitVec 32)
    (h : IntOp.andi (IntOp.cmpi .sge v 0#32) (IntOp.cmpi .sle v 999999#32) = 1#1) : v.toNat < 1000000 := by
  obtain ⟨h0, h1⟩ := IntOp.andi_eq_one.1 h
  rw [IntOp.cmpi_sge, show (0#32 : BitVec 32).toInt = 0 from by decide] at h0
  rw [IntOp.cmpi_sle, show (999999#32 : BitVec 32).toInt = 999999 from by decide] at h1
  rw [BitVec.toInt_eq_toNat_cond] at h0 h1
  have hv := v.isLt
  split at h0 <;> omega

/-- The precondition gives the range of every index word. -/
theorem inRange_of_pre {F : FTy → Type} [FloatOps F] [Cert.Pre_input_domain.Facts]
    (idx : IVec Cert.Pre_input_domain.S4096x200 32) (w : FVec F Cert.Pre_input_domain.S1000000x128 .f32)
    (h : Cert.Pre_input_domain.fn (F := F) idx w = fun _ => 1#1) : Cert.Spec.InRange idx := by
  intro j
  have e := congrFun h ValueIdx.ix0
  dsimp only [Cert.Pre_input_domain.fn] at e
  have e2 := (IntOp.andi_eq_one.1 e).2
  exact word_lt _ (Host.reduce_andi_all _ _ _ _ _ e2 j)

end Cert.PreRead
-- ==== Proof.Reshape.lean ====
/-
  The two reshapes around the lookup cancel. Reshaping keeps the row-major order of the elements. The index array
  [4096, 200] is read as [32, 200, 128] and the rows written as [32, 200, 128, 128] are read back as [4096, 200, 128].
  Entry (i, j, l) of the result has row-major position (i*200 + j)*128 + l; with q = i*200 + j < 819200, the entry of the
  rank-4 array at that position is (a, b, c, l) where a = q / 25600, b = (q mod 25600) / 128, c = q mod 128, because
  ((a*200 + b)*128 + c)*128 + l = q*128 + l. That entry is entry l of the row named by the word at (a, b, c) of the
  reshaped index array, whose row-major position (a*200 + b)*128 + c = q is the position of (i, j) in the original index
  array. So both sides read entry l of the row named by the same word.
-/
import proofs.«203453_g50448685858838_cont_8to1c4_102_16_alg».proof.Proof.Spec
import Idealize.ShloMosaic.Lib.Pipeline.Value
import Idealize.ShloMosaic.Lib.ValueIdx

namespace Cert.Spec

open Idealize.ShloMosaic Idealize.ShloMosaic.ValueIdx

/-- [4096, 200] and [32, 200, 128] hold the same number of elements: one reshapes to the other. -/
theorem shapeCasts_SI_SI3 : SI.ShapeCasts SI3 := by decide

/-- [32, 200, 128, 128] and [4096, 200, 128] hold the same number of elements: one reshapes to the other. -/
theorem shapeCasts_SO4_SO : SO4.ShapeCasts SO := by decide

/-- The lookup laid out over [32, 200, 128, 128], taken over the reshaped index array and reshaped to the result's
    shape, is the lookup over the result's shape. -/
theorem G4_reshape {α : Type} (idx : SI.Idx → BitVec 32) (w : SW.Idx → α) (h1 : SI.ShapeCasts SI3) (h2 : SO4.ShapeCasts SO) :
    shapeCast SO (G4 (shapeCast SI3 idx h1) w) h2 = G idx w := by
  funext y
  obtain ⟨i, j, l, rfl⟩ : ∃ (i : Fin 4096) (j : Fin 200) (l : Fin 128), y = ix3 i j l := ⟨y 0, y 1, y 2, eq_ix3 y⟩
  have hi := i.isLt
  have hj := j.isLt
  have hl := l.isLt
  obtain ⟨a, ha⟩ : ∃ a : Fin 32, a.val = (i.val * 200 + j.val) / 25600 := ⟨⟨_, by omega⟩, rfl⟩
  obtain ⟨b, hb⟩ : ∃ b : Fin 200, b.val = ((i.val * 200 + j.val) % 25600) / 128 := ⟨⟨_, by omega⟩, rfl⟩
  obtain ⟨c, hc⟩ : ∃ c : Fin 128, c.val = (i.val * 200 + j.val) % 128 := ⟨⟨_, by omega⟩, rfl⟩
  -- the outer reshape: [4096, 200, 128] at (i, j, l) reads [32, 200, 128, 128] at (a, b, c, l)
  refine (shapeCast_apply _ h2 (ix3 i j l) (ix4 a b c l)
    (by rw [Shape.rowMajor_val_four, Shape.rowMajor_val_three]
        show ((a.val * 200 + b.val) * 128 + c.val) * 128 + l.val = (i.val * 200 + j.val) * 128 + l.val
        omega)).trans ?_
  -- the inner reshape: [32, 200, 128] at (a, b, c) reads [4096, 200] at (i, j)
  show w (ix2 (row (shapeCast SI3 idx h1 (ix3 a b c))) l) = w (ix2 (row (idx (ix2 i j))) l)
  rw [shapeCast_apply idx h1 (ix3 a b c) (ix2 i j)
    (by rw [Shape.rowMajor_val_two, Shape.rowMajor_val_three]
        show i.val * 200 + j.val = (a.val * 200 + b.val) * 128 + c.val
        omega)]

end Cert.Spec
-- ==== Proof.SideIdeal.Final.lean ====
/-
  The run of the lookup's SparseCore program with its result named as a term of the arguments, in the claim's own
  spelling of the buffers.

  * The printed precondition is one bit per device; when it is 1 everywhere every index word of every device, read
    unsigned, is below 1 000 000 (the integer half of the conjunction, read back element by element).
  * The program's result is the rows laid out [32, 200, 128, 128] over the index array reshaped to [32, 200, 128],
    reshaped to [4096, 200, 128]. Reshapes keep row-major order, so the two cancel around the lookup: entry (i, j, l)
    of the result is entry l of the table's row named by the index word at (i, j).
  * The launch's run gives the result buffer at the reshaped rows and the arguments kept; rewriting the result by the
    equation above gives the run the claims are read from.
-/
import proofs.«203453_g50448685858838_cont_8to1c4_102_16_alg».proof.Proof.SideIdeal.Launch
import proofs.«203453_g50448685858838_cont_8to1c4_102_16_alg».proof.Proof.PreRead
import proofs.«203453_g50448685858838_cont_8to1c4_102_16_alg».proof.Proof.Reshape
import proofs.«203453_g50448685858838_cont_8to1c4_102_16_alg».proof.Proof.Gen.Pre_input_domain

noncomputable section

namespace Cert.Proof.SideIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The precondition, read at the launch memory -/

/-- The printed precondition, all ones on every device, puts every index word of every device in range. -/
theorem preOK_of_pre
    (h : ∀ c : Dev nD, Cert.Pre_input_domain.fn (F := F) (m ((c.tc : Thread nD τ).loc main_arg0)) (m ((c.tc : Thread nD τ).loc main_arg1)) = fun _ => 1#1) :
    PreOK m :=
  fun d => Cert.PreRead.inRange_of_pre (F := F) _ _ (h d)

/-! ## The result, as a term of the arguments -/

omit [FloatOps F] in
/-- The rows laid out [32, 200, 128, 128] over the reshaped index array, reshaped to [4096, 200, 128], are the lookup. -/
theorem RES_eq (d : Dev nD) : RES m d = Cert.Spec.G (m (aLoc d)) (m (xLoc d)) := by
  unfold RES G4m I3
  exact Cert.Spec.G4_reshape (m (aLoc d)) (m (xLoc d)) _ _

/-! ## The program's run, in the claim's spelling -/

/-- The run: the result is the lookup of the launch arguments, which are kept. -/
theorem run_value [∀ e, Nonempty (Elt F e)] (hpre : PreOK m) (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD,
        r.2.mem ((c.tc : Thread nD τ).loc main_v2) = Cert.Spec.G (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono (fun _ h c => ⟨(h c).1.trans (RES_eq m c), (h c).2.1, (h c).2.2⟩) (run_main m ρ htile)

end Cert.Proof.SideIdeal

end
-- ==== Proof.SideIdeal.Pieces.lean ====
/-
  The pieces a worker's loop moves: the 200 rows of its copy of the index slab, and the 200 chunks of its slab of
  the result.

  Row r of the [200, 128] copy is the rectangle at offset (r, 0) of extent (1, 128); chunk j of worker w's slab of the
  [32, 200, 128, 128] result is the rectangle at offset (w, j, 0, 0) of extent (1, 1, 128, 128). An index lies in row r
  exactly when its first coordinate is r, and in chunk j of worker w exactly when its first two coordinates are (w, j);
  so the rows are pairwise disjoint and cover the copy, and a worker's chunks are pairwise disjoint and cover its slab.
  Trip k of the loop names rows 2k (in flight into the first row buffer), 2k + 1 and 2k + 2, and chunks 2k and 2k + 1;
  the program's own offset chains equal these by their closed forms.
-/
import proofs.«203453_g50448685858838_cont_8to1c4_102_16_alg».proof.Proof.SideIdeal.Common
import Idealize.ShloMosaic.Lib.Ring

noncomputable section

namespace Cert.Proof.SideIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Rows of the index slab's copy -/

def rowOff (r : Fin 200) : Fin 2 → Nat := ![r.val, 0]
theorem rowOff_inb (r : Fin 200) : ∀ a, rowOff r a + S1x128.size a ≤ S200x128.size a := by
  have := r.isLt
  intro a; match a with
  | 0 => show r.val + 1 ≤ 200; omega
  | 1 => show 0 + 128 ≤ 128; omega
/-- Row `r` of the copy, as the body slices it. -/
def winR (r : Fin 200) : Memref sig .scVector .vmem S128 .i32 :=
  ((sV).slice (Rect.unit (s := S200x128) (rowOff r) S1x128.size (rowOff_inb r)) (fun _ => rfl)).squeeze S128 squeezes_S1x128_S128
/-- A slice of the copy at offsets equal to row `r`'s is row `r`. -/
theorem win_congr {off : Fin 2 → Nat} {r : Fin 200} (e : off = rowOff r) (hh hs) :
    ((sV).slice (Rect.unit (s := S200x128) off S1x128.size hh) hs).squeeze S128 squeezes_S1x128_S128 = winR r :=
  congrArg (fun M : Memref sig .scVector .vmem S1x128 .i32 => M.squeeze S128 squeezes_S1x128_S128) (Memref.slice_unit_congr _ e _ _ _ _)

abbrev rowSet (r : Fin 200) : Finset S200x128.Idx := (Rect.unit (s := S200x128) (rowOff r) S1x128.size (rowOff_inb r)).set
theorem set_winR (r : Fin 200) : (winR r).view.set = rowSet r := (View.set_reshape _ _).trans (View.set_slice_whole _ _)

theorem mem_rowSet (r : Fin 200) (y : S200x128.Idx) : y ∈ rowSet r ↔ (y 0).val = r.val := by
  rw [Rect.mem_set_unit]
  have h1 : (y 1).val < 128 := (y 1).isLt
  constructor
  · intro H; have a0 : r.val ≤ (y 0).val ∧ (y 0).val < r.val + 1 := H 0; omega
  · intro H i; fin_cases i
    · show r.val ≤ (y 0).val ∧ (y 0).val < r.val + 1; omega
    · show 0 ≤ (y 1).val ∧ (y 1).val < 0 + 128; omega
theorem rowSet_disjoint : ∀ r r' : Fin 200, r ≠ r' → Disjoint (rowSet r) (rowSet r') := by
  intro r r' hne; rw [Finset.disjoint_left]; intro y hy hy'; rw [mem_rowSet] at hy hy'; exact hne (Fin.ext (hy.symm.trans hy'))
theorem rowSet_cover : (Finset.univ : Finset (Fin 200)).biUnion rowSet = Finset.univ := by
  ext y; simp only [Finset.mem_biUnion, Finset.mem_univ, true_and, iff_true]; exact ⟨(y 0).cast (by decide), by rw [mem_rowSet]; rfl⟩

/-! ## Chunks of a worker's slab of the result -/

def chOff (L : grid0.Coords) (j : Fin 200) : Fin 4 → Nat := ![2 * (L 1).val + (L 0).val, j.val, 0, 0]
theorem chOff_inb (L : grid0.Coords) (j : Fin 200) : ∀ a, chOff L j a + S1x1x128x128.size a ≤ S32x200x128x128.size a := by
  have h1 : (L 1).val < 16 := (L 1).isLt
  have h0 : (L 0).val < 2 := (L 0).isLt
  have := j.isLt
  intro a; match a with
  | 0 => show 2 * (L 1).val + (L 0).val + 1 ≤ 32; omega
  | 1 => show j.val + 1 ≤ 200; omega
  | 2 => show 0 + 128 ≤ 128; omega
  | 3 => show 0 + 128 ≤ 128; omega
/-- Chunk `j` of worker `L`'s slab of the result, as the body slices it. -/
def oCh (L : grid0.Coords) (j : Fin 200) : Memref sig .scVector .hbm S128x128 .f32 :=
  ((oV).slice (Rect.unit (s := S32x200x128x128) (chOff L j) S1x1x128x128.size (chOff_inb L j)) (fun _ => rfl)).squeeze S128x128 squeezes_S1x1x128x128_S128x128
theorem ch_congr {L : grid0.Coords} {off : Fin 4 → Nat} {j : Fin 200} (e : off = chOff L j) (hh hs) :
    ((oV).slice (Rect.unit (s := S32x200x128x128) off S1x1x128x128.size hh) hs).squeeze S128x128 squeezes_S1x1x128x128_S128x128 = oCh L j :=
  congrArg (fun M : Memref sig .scVector .hbm S1x1x128x128 .f32 => M.squeeze S128x128 squeezes_S1x1x128x128_S128x128) (Memref.slice_unit_congr _ e _ _ _ _)

abbrev chSet (L : grid0.Coords) (j : Fin 200) : Finset S32x200x128x128.Idx :=
  (Rect.unit (s := S32x200x128x128) (chOff L j) S1x1x128x128.size (chOff_inb L j)).set
theorem set_oCh (L : grid0.Coords) (j : Fin 200) : (oCh L j).view.set = chSet L j := (View.set_reshape _ _).trans (View.set_slice_whole _ _)

theorem mem_chSet (L : grid0.Coords) (j : Fin 200) (y : S32x200x128x128.Idx) :
    y ∈ chSet L j ↔ (y 0).val = 2 * (L 1).val + (L 0).val ∧ (y 1).val = j.val := by
  rw [Rect.mem_set_unit]
  have h2 : (y 2).val < 128 := (y 2).isLt
  have h3 : (y 3).val < 128 := (y 3).isLt
  constructor
  · intro H
    have a0 : 2 * (L 1).val + (L 0).val ≤ (y 0).val ∧ (y 0).val < 2 * (L 1).val + (L 0).val + 1 := H 0
    have a1 : j.val ≤ (y 1).val ∧ (y 1).val < j.val + 1 := H 1
    omega
  · intro H i; fin_cases i
    · show 2 * (L 1).val + (L 0).val ≤ (y 0).val ∧ (y 0).val < 2 * (L 1).val + (L 0).val + 1; omega
    · show j.val ≤ (y 1).val ∧ (y 1).val < j.val + 1; omega
    · show 0 ≤ (y 2).val ∧ (y 2).val < 0 + 128; omega
    · show 0 ≤ (y 3).val ∧ (y 3).val < 0 + 128; omega

/-- The worker's slab of the result: first coordinate the worker's number. -/
abbrev slabSet (L : grid0.Coords) : Finset S32x200x128x128.Idx := (oSlabRect L).set
theorem mem_slabSet (L : grid0.Coords) (y : S32x200x128x128.Idx) : y ∈ slabSet L ↔ (y 0).val = 2 * (L 1).val + (L 0).val := by
  rw [Rect.mem_set_unit]
  have h1 : (y 1).val < 200 := (y 1).isLt
  have h2 : (y 2).val < 128 := (y 2).isLt
  have h3 : (y 3).val < 128 := (y 3).isLt
  constructor
  · intro H
    have a0 : 2 * (L 1).val + (L 0).val ≤ (y 0).val ∧ (y 0).val < 2 * (L 1).val + (L 0).val + 1 := H 0
    omega
  · intro H i; fin_cases i
    · show 2 * (L 1).val + (L 0).val ≤ (y 0).val ∧ (y 0).val < 2 * (L 1).val + (L 0).val + 1; omega
    · show 0 ≤ (y 1).val ∧ (y 1).val < 0 + 200; omega
    · show 0 ≤ (y 2).val ∧ (y 2).val < 0 + 128; omega
    · show 0 ≤ (y 3).val ∧ (y 3).val < 0 + 128; omega

theorem chSet_disjoint (L : grid0.Coords) : ∀ j ∈ (Finset.univ : Finset (Fin 200)), ∀ j' ∈ (Finset.univ : Finset (Fin 200)), j ≠ j' → Disjoint (chSet L j) (chSet L j') := by
  intro j _ j' _ hne; rw [Finset.disjoint_left]; intro y hy hy'; rw [mem_chSet] at hy hy'; exact hne (Fin.ext (hy.2.symm.trans hy'.2))
theorem chSet_cover (L : grid0.Coords) : (Finset.univ : Finset (Fin 200)).biUnion (chSet L) = slabSet L := by
  ext y; simp only [Finset.mem_biUnion, Finset.mem_univ, true_and]
  constructor
  · rintro ⟨j, hj⟩; rw [mem_chSet] at hj; rw [mem_slabSet]; exact hj.1
  · intro hy; rw [mem_slabSet] at hy; exact ⟨(y 1).cast (by decide), by rw [mem_chSet]; exact ⟨hy, rfl⟩⟩

/-! ## Trip k's rows and chunks -/

/-- The even row `2k`, the odd row `2k + 1` (reduced into range: the identity for the loop's trips). -/
def ev (k : ℕ) : Fin 200 := ⟨(2 * k) % 200, Nat.mod_lt _ (by decide)⟩
def od (k : ℕ) : Fin 200 := ⟨(2 * k + 1) % 200, Nat.mod_lt _ (by decide)⟩

theorem trips_eq : k0_t1_loop.trips = 100 := by decide
theorem trip_lt (k : Fin k0_t1_loop.trips) : k.val < 100 := trips_eq ▸ k.isLt

theorem off2_row (k : Fin k0_t1_loop.trips) : k0_off2 k = rowOff (od k.val) := by
  have := trip_lt k
  rw [k0_off2_eq]; unfold rowOff od
  have e : (2 * k.val + 1) % 200 = 2 * k.val + 1 := Nat.mod_eq_of_lt (by omega)
  simp only [e]
theorem off3_row (k : Fin k0_t1_loop.trips) : k0_off3 k = rowOff (ev k.val) := by
  have := trip_lt k
  rw [k0_off3_eq]; unfold rowOff ev
  have e : (2 * k.val) % 200 = 2 * k.val := Nat.mod_eq_of_lt (by omega)
  simp only [e]
theorem off5_row (k : Fin k0_t1_loop.trips) (h : k.val + 1 < 100) : k0_off5 k = rowOff (ev (k.val + 1)) := by
  rw [k0_off5_eq]; unfold rowOff ev
  have e : (2 * (k.val + 1)) % 200 = 2 * k.val + 2 := by rw [Nat.mod_eq_of_lt (by omega)]; omega
  simp only [e]
theorem lit0_row : (![0, 0] : Fin 2 → Nat) = rowOff (ev 0) := by decide
theorem off4_ch (L : grid0.Coords) (k : Fin k0_t1_loop.trips) : k0_off4 L k = chOff L (ev k.val) := by
  have := trip_lt k
  rw [k0_off4_eq]; unfold chOff ev
  have e : (2 * k.val) % 200 = 2 * k.val := Nat.mod_eq_of_lt (by omega)
  simp only [e]
theorem off6_ch (L : grid0.Coords) (k : Fin k0_t1_loop.trips) : k0_off6 L k = chOff L (od k.val) := by
  have := trip_lt k
  rw [k0_off6_eq]; unfold chOff od
  have e : (2 * k.val + 1) % 200 = 2 * k.val + 1 := Nat.mod_eq_of_lt (by omega)
  simp only [e]

/-- The conditional of the loop: the next even row is fetched exactly when another trip follows. -/
theorem cond_iff (k : Fin k0_t1_loop.trips) : k0_cond1 k = 1#1 ↔ k.val + 1 < 100 := by
  revert k; decide +kernel

theorem ev_ne_od (k k' : ℕ) : ev k ≠ od k' := by
  intro h; have := congrArg Fin.val h; simp only [ev, od] at this; omega
theorem ev_inj {k k' : ℕ} (h : k < 100) (h' : k' < 100) (e : ev k = ev k') : k = k' := by
  have := congrArg Fin.val e; simp only [ev] at this; omega
theorem od_inj {k k' : ℕ} (h : k < 100) (h' : k' < 100) (e : od k = od k') : k = k' := by
  have := congrArg Fin.val e; simp only [od] at this; omega
theorem ev_val {k : ℕ} (h : k < 100) : (ev k).val = 2 * k := Nat.mod_eq_of_lt (by omega)
theorem od_val {k : ℕ} (h : k < 100) : (od k).val = 2 * k + 1 := Nat.mod_eq_of_lt (by omega)

end Cert.Proof.SideIdeal

end
-- ==== Proof.SideIdeal.Loop.lean ====
/-
  The worker's loop, by its invariant.

  Before trip k (k < 100) the fetch of row 2k into the first row buffer is in flight on the first semaphore: the row
  of the index copy it reads and the worker's first read share of the table travel with it. Every other row of the
  copy is home; chunks 0 … 2k − 1 of the worker's slab of the result hold the looked-up rows and the others what they
  held; the second row buffer, the second semaphore and the two copy-out semaphores are free. One trip starts the fetch
  of row 2k + 1, waits for row 2k and copies it out to chunk 2k, starts the fetch of row 2k + 2 if another trip
  follows, waits for row 2k + 1 and copies it out to chunk 2k + 1. After the last trip nothing is in flight.
-/
import proofs.«203453_g50448685858838_cont_8to1c4_102_16_alg».proof.Proof.SideIdeal.Pieces
import proofs.«203453_g50448685858838_cont_8to1c4_102_16_alg».proof.Proof.Spec

noncomputable section

namespace Cert.Proof.SideIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]

local notation "𝕄" => MT nD τ sig (HIx 1) (Elt F) ℕ UU ℕ

section Loop

variable (d : Dev nD) (L : grid0.Coords) (O : CellTallies nD τ sig (HIx 1)) (W : Waits sig (HIx 1))
variable (qA qB : PosShare TreeShare)
variable (fx : Buf (Elt F) ((xV).view.loc (VT d L))) (fS : Buf (Elt F) ((sV).view.loc (VT d L)))
variable (G fo : Buf (Elt F) ((oV).view.loc (VT d L)))

abbrev cellOf (s : DmaSems sig S_) : GSem nD τ sig := (VT d L, .dma s.sem)

/-- Row `r` of the copy, held by exactly its elements. -/
abbrev rowP (r : Fin 200) : sProp 𝕄 := (winR r).view.loc (VT d L) ↦[(winR r).view.set]{fullShare} fS
/-- Chunk `j` of the worker's slab, held by exactly its elements at `f`. -/
abbrev chP (j : Fin 200) (f : Buf (Elt F) ((oV).view.loc (VT d L))) : sProp 𝕄 :=
  (oCh L j).view.loc (VT d L) ↦[(oCh L j).view.set]{fullShare} f
/-- Before trip `k`: chunks below `2k` at the lookup, the others at what they held. -/
abbrev chK (k : ℕ) (j : Fin 200) : sProp 𝕄 := chP d L j (if j.val < 2 * k then G else fo)

/-- The 128 table rows that row `r` of the copy names, as a [128, 128] block. -/
def rowsOf (r : Fin 200) : S128x128.Idx → Elt F .f32 :=
  fun y => fx (ix2 (n0 := 1000000) (n1 := 128) (Cert.Spec.row (fS (ix2 (n0 := 200) (n1 := 128) r (y 0)))) (y 1))

/-- The fetch of row `r` into the first row buffer, in flight: the buffer as it will land, the row of the copy and
    the table's share travel with it. -/
abbrev flight0 (r : Fin 200) (t : Buf (Elt F) ((r0V).view.loc (VT d L))) (pay : S128x128.Idx → Elt F .f32) : sProp 𝕄 :=
  Transfers.Flight countersEmb (VT d L) (SemLoc.dma cc0_scratch3.sem) (default : HIx 1) 524288
    iprop((((r0V).view.loc (VT d L) ↦[(r0V).view.set]{fullShare} (r0V).view.writes (Elt F) t [⟨Rect.whole S128x128, pay⟩])
        ∗ rowP d L fS r) ∗ ((xV).view.loc (VT d L) ↦[(xAll).view.set]{qA} fx))

/-- What is in flight or home before trip `k`. -/
def invHead (k : ℕ) : sProp 𝕄 :=
  if k < 100 then
    iprop(((xV).view.loc (VT d L) ↦[Finset.univ \ (xAll).view.set]{qA} fx)
      ∗ bigSep (Finset.univ.erase (ev k)) (rowP d L fS)
      ∗ ∃ t pay, ⌜pay = rowsOf d L fx fS (ev k)⌝ ∗ flight0 d L qA fx fS (ev k) t pay)
  else
    iprop(((xV).view.loc (VT d L) ↦{qA} fx) ∗ bigSep Finset.univ (rowP d L fS)
      ∗ (∃ t, (r0V).view.loc (VT d L) ↦[(r0V).view.set]{fullShare} t) ∗ semVal (cellOf d L cc0_scratch3) 0)

/-- The loop's invariant before trip `k`. -/
def inv (k : ℕ) (_ : BitVec 32) : sProp 𝕄 :=
  iprop(Transfers.MayWaits (VT d L) (default : HIx 1) O
    ∗ ((xV).view.loc (VT d L) ↦{qB} fx)
    ∗ bigSep Finset.univ (chK d L G fo k)
    ∗ (∃ t1, (r1V).view.loc (VT d L) ↦[(r1V).view.set]{fullShare} t1)
    ∗ semVal (cellOf d L cc0_scratch4) 0 ∗ semVal (cellOf d L cc0_scoped1) 0 ∗ semVal (cellOf d L cc0_scoped2) 0
    ∗ (∃ W', ⌜∀ p ∈ W', p ∈ W ∨ p.2 = none⌝ ∗ owes (VT d L) O W')
    ∗ invHead d L qA fx fS k)

end Loop

end Cert.Proof.SideIdeal

end
-- ==== Proof.SideIdeal.Trip.lean ====
/-
  One trip of the worker's loop carries the invariant from k to k + 1.
-/
import proofs.«203453_g50448685858838_cont_8to1c4_102_16_alg».proof.Proof.SideIdeal.Loop

noncomputable section

namespace Cert.Proof.SideIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]

local notation "𝕄" => MT nD τ sig (HIx 1) (Elt F) ℕ UU ℕ

section Trip

variable (d : Dev nD) (L : grid0.Coords) (O : CellTallies nD τ sig (HIx 1)) (W : Waits sig (HIx 1))
variable (qA qB : PosShare TreeShare)
variable (fx : Buf (Elt F) ((xV).view.loc (VT d L))) (fS : Buf (Elt F) ((sV).view.loc (VT d L)))
variable (G fo : Buf (Elt F) ((oV).view.loc (VT d L)))

/-- A row of the copy at the body's own offsets. -/
abbrev winAt (off : Fin 2 → Nat) (hh : ∀ a, off a + S1x128.size a ≤ S200x128.size a) : Memref sig .scVector .vmem S128 .i32 :=
  ((sV).slice (Rect.unit (s := S200x128) off S1x128.size hh) (fun _ => rfl)).squeeze S128 squeezes_S1x128_S128
/-- A chunk of the result at the body's own offsets. -/
abbrev chAt (off : Fin 4 → Nat) (hh : ∀ a, off a + S1x1x128x128.size a ≤ S32x200x128x128.size a) : Memref sig .scVector .hbm S128x128 .f32 :=
  ((oV).slice (Rect.unit (s := S32x200x128x128) off S1x1x128x128.size hh) (fun _ => rfl)).squeeze S128x128 squeezes_S1x1x128x128_S128x128

omit [FloatOps F] in
theorem rowP_at {off : Fin 2 → Nat} {r : Fin 200} (e : off = rowOff r) (hh) :
    rowP d L fS r = ((winAt off hh).view.loc (VT d L) ↦[(winAt off hh).view.set]{fullShare} fS : sProp 𝕄) := by
  subst e; rfl
omit [FloatOps F] in
theorem chP_at {off : Fin 4 → Nat} {j : Fin 200} (e : off = chOff L j) (hh) (f : Buf (Elt F) ((oV).view.loc (VT d L))) :
    chP d L j f = ((chAt off hh).view.loc (VT d L) ↦[(chAt off hh).view.set]{fullShare} f : sProp 𝕄) := by
  subst e; rfl

variable (hin : ∀ (row : Fin 2 → Nat) (hk : ∀ a, row a + S1x128.size a ≤ S200x128.size a) (hq : (Rect.unit (s := S200x128) row S1x128.size hk).shape.Squeezes S128) x,
    (View.read (Elt F) (((sV).slice (Rect.unit (s := S200x128) row S1x128.size hk) (fun _ => rfl)).squeeze S128 hq).view fS x).toNat < 1000000)

/-- The block a fetch through the row at offsets `off` delivers: the table read at the rows the row's words name. -/
def gPay (off : Fin 2 → Nat) (hh : ∀ a, off a + S1x128.size a ≤ S200x128.size a) : S128x128.Idx → Elt F .f32 :=
  SparseCore.gatherPayload gathers_S1000000x128_S128x128 (View.read (Elt F) (xAll).view fx)
    (SparseCore.rows (View.read (Elt F) (winAt off hh).view fS) rfl (fun x => hin off hh squeezes_S1x128_S128 x))

/-- The value facts the trip uses (each a fact about views and payloads). -/
structure ValueFacts : Prop where
  back0 : ∀ (t : Buf (Elt F) ((r0V).view.loc (VT d L))) (pay : S128x128.Idx → Elt F .f32),
    ReadAs.same.apply (View.read (Elt F) (r0V).view ((r0V).view.writes (Elt F) t [⟨Rect.whole S128x128, pay⟩])) = pay
  back1 : ∀ (t : Buf (Elt F) ((r1V).view.loc (VT d L))) (pay : S128x128.Idx → Elt F .f32),
    ReadAs.same.apply (View.read (Elt F) (r1V).view ((r1V).view.writes (Elt F) t [⟨Rect.whole S128x128, pay⟩])) = pay
  chunk : ∀ (j : Fin 200) (fo' : Buf (Elt F) ((oV).view.loc (VT d L))) (P : S128x128.Idx → Elt F .f32),
    (∀ l h : Fin 128, P (ix2 l h) = G (ix4 (n0 := 32) (n1 := 200) (n2 := 128) (n3 := 128) (wid L) j l h)) →
      ∀ i ∈ (oCh L j).view.set, ((oCh L j).view.writes (Elt F) fo' [⟨Rect.whole S128x128, P⟩]) i = G i
  gather : ∀ (off : Fin 2 → Nat) (hh) (r : Fin 200) (_ : off = rowOff r), gPay d L fx fS hin off hh = rowsOf d L fx fS r
  look : ∀ (r : Fin 200) (l h : Fin 128),
    G (ix4 (n0 := 32) (n1 := 200) (n2 := 128) (n3 := 128) (wid L) r l h) = fx (ix2 (n0 := 1000000) (n1 := 128) (Cert.Spec.row (fS (ix2 (n0 := 200) (n1 := 128) r l))) h)

variable (hV : ValueFacts d L fx fS G hin)
include hV

theorem chunk_at {off : Fin 4 → Nat} {j : Fin 200} (e : off = chOff L j) (hh) (fo' : Buf (Elt F) ((oV).view.loc (VT d L))) (P : S128x128.Idx → Elt F .f32)
    (hP : ∀ l h : Fin 128, P (ix2 l h) = G (ix4 (n0 := 32) (n1 := 200) (n2 := 128) (n3 := 128) (wid L) j l h)) :
    ∀ i ∈ (chAt off hh).view.set, ((chAt off hh).view.writes (Elt F) fo' [⟨Rect.whole S128x128, P⟩]) i = G i := by
  subst e; exact hV.chunk j fo' P hP

/-- A block fetched through row `r` and copied out through the first row buffer lands as the lookup's chunk `r`. -/
theorem settle0 (r : Fin 200) (t : Buf (Elt F) ((r0V).view.loc (VT d L))) (pay : S128x128.Idx → Elt F .f32) (hpay : pay = rowsOf d L fx fS r) (l h : Fin 128) :
    (ReadAs.same.apply (View.read (Elt F) (r0V).view ((r0V).view.writes (Elt F) t [⟨Rect.whole S128x128, pay⟩]))) (ix2 l h)
      = G (ix4 (n0 := 32) (n1 := 200) (n2 := 128) (n3 := 128) (wid L) r l h) := by
  rw [hV.back0, hpay, hV.look]; rfl
theorem settle1 (r : Fin 200) (t : Buf (Elt F) ((r1V).view.loc (VT d L))) (pay : S128x128.Idx → Elt F .f32) (hpay : pay = rowsOf d L fx fS r) (l h : Fin 128) :
    (ReadAs.same.apply (View.read (Elt F) (r1V).view ((r1V).view.writes (Elt F) t [⟨Rect.whole S128x128, pay⟩]))) (ix2 l h)
      = G (ix4 (n0 := 32) (n1 := 200) (n2 := 128) (n3 := 128) (wid L) r l h) := by
  rw [hV.back1, hpay, hV.look]; rfl
omit hV

omit [FloatOps F] in
/-- The flight the trip issues, as the run states it, is the invariant's at the next even row. -/
theorem flight_at {off : Fin 2 → Nat} {r : Fin 200} (e : off = rowOff r) (hh) (t : Buf (Elt F) ((r0V).view.loc (VT d L))) (pay pay' : S128x128.Idx → Elt F .f32) :
    (Transfers.Flight countersEmb (VT d L) (SemLoc.dma cc0_scratch3.sem) (default : HIx 1) 524288
      iprop((((r0V).view.loc (VT d L) ↦[(r0V).view.set]{fullShare} (r0V).view.writes (Elt F) t [⟨Rect.whole S128x128, pay'⟩, ⟨Rect.whole S128x128, pay⟩])
          ∗ ((winAt off hh).view.loc (VT d L) ↦[(winAt off hh).view.set]{fullShare} fS)) ∗ ((xV).view.loc (VT d L) ↦[(xAll).view.set]{qA} fx)) : sProp 𝕄)
      = flight0 d L qA fx fS r ((r0V).view.writes (Elt F) t [⟨Rect.whole S128x128, pay⟩]) pay' := by
  subst e; rfl

omit [FloatOps F] in
/-- The rows home before trip `k + 1`: rows `2k` and `2k + 1` back, row `2k + 2` out. -/
theorem rows_fold (Φ : Fin 200 → sProp 𝕄) (k : ℕ) (hk1 : k + 1 < 100) :
    bigSep (Finset.univ.erase (ev (k + 1))) Φ
      = iprop(Φ (ev k) ∗ Φ (od k) ∗ bigSep (((Finset.univ.erase (ev k)).erase (od k)).erase (ev (k + 1))) Φ) := by
  have hk : k < 100 := by omega
  have h1 : ev k ∈ (Finset.univ.erase (ev (k + 1)) : Finset (Fin 200)) :=
    Finset.mem_erase.mpr ⟨fun e => by have := ev_inj hk hk1 e; omega, Finset.mem_univ _⟩
  have h2 : od k ∈ ((Finset.univ.erase (ev (k + 1))).erase (ev k) : Finset (Fin 200)) :=
    Finset.mem_erase.mpr ⟨(ev_ne_od _ _).symm, Finset.mem_erase.mpr ⟨(ev_ne_od _ _).symm, Finset.mem_univ _⟩⟩
  rw [SparseCore.bigSep_erase' h1, SparseCore.bigSep_erase' h2]
  have e : (((Finset.univ.erase (ev (k + 1))).erase (ev k)).erase (od k) : Finset (Fin 200)) = ((Finset.univ.erase (ev k)).erase (od k)).erase (ev (k + 1)) := by
    ext x; simp only [Finset.mem_erase, Finset.mem_univ, and_true]; tauto
  rw [e]
omit [FloatOps F] in
/-- After the last trip every row is home. -/
theorem rows_all (Φ : Fin 200 → sProp 𝕄) (k : ℕ) :
    bigSep Finset.univ Φ = iprop(Φ (ev k) ∗ Φ (od k) ∗ bigSep ((Finset.univ.erase (ev k)).erase (od k)) Φ) := by
  have h2 : od k ∈ (Finset.univ.erase (ev k) : Finset (Fin 200)) := Finset.mem_erase.mpr ⟨(ev_ne_od _ _).symm, Finset.mem_univ _⟩
  rw [SparseCore.bigSep_erase' (Finset.mem_univ (ev k)), SparseCore.bigSep_erase' h2]

omit [FloatOps F] in
/-- The chunks before trip `k + 1`: chunks `2k` and `2k + 1` at the lookup, the others as before trip `k`. -/
theorem chunks_fold (k : ℕ) (hk : k < 100) :
    bigSep Finset.univ (chK d L G fo (k + 1))
      = iprop(chP d L (ev k) G ∗ chP d L (od k) G ∗ bigSep ((Finset.univ.erase (ev k)).erase (od k)) (chK d L G fo k)) := by
  rw [rows_all (chK d L G fo (k + 1)) k]
  have e1 : chK d L G fo (k + 1) (ev k) = chP d L (ev k) G := by
    show chP d L (ev k) (if (ev k).val < 2 * (k + 1) then G else fo) = _
    rw [if_pos (by rw [ev_val hk]; omega)]
  have e2 : chK d L G fo (k + 1) (od k) = chP d L (od k) G := by
    show chP d L (od k) (if (od k).val < 2 * (k + 1) then G else fo) = _
    rw [if_pos (by rw [od_val hk]; omega)]
  have e3 : bigSep ((Finset.univ.erase (ev k)).erase (od k)) (chK d L G fo (k + 1)) = bigSep ((Finset.univ.erase (ev k)).erase (od k)) (chK d L G fo k) :=
    bigSep_congr fun j hj => by
      have hj' := hj
      simp only [Finset.mem_erase, Finset.mem_univ, and_true] at hj'
      have n1 : j.val ≠ 2 * k + 1 := fun h => hj'.1 (Fin.ext (h.trans (od_val hk).symm))
      have n0 : j.val ≠ 2 * k := fun h => hj'.2 (Fin.ext (h.trans (ev_val hk).symm))
      show chP d L j (if j.val < 2 * (k + 1) then G else fo) = chP d L j (if j.val < 2 * k then G else fo)
      by_cases h : j.val < 2 * k
      · rw [if_pos h, if_pos (by omega)]
      · rw [if_neg h, if_neg (by omega)]
  rw [e1, e2, e3]

omit [FloatOps F] in
theorem waits_grow {p : SemLoc sig × HIx 1} {a b c e : SemLoc sig} {W W' : Waits sig (HIx 1)} (hW' : ∀ p ∈ W', p ∈ W ∨ p.2 = none)
    (hp : p ∈ insert (a, (default : HIx 1)) (insert (b, (default : HIx 1)) (insert (c, (default : HIx 1)) (insert (e, (default : HIx 1)) W')))) : p ∈ W ∨ p.2 = none := by
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

include hin hV in
set_option maxHeartbeats 4000000 in
/-- A trip that is followed by another: the fetch of row 2k + 2 is started. -/
theorem trip_more (k : Fin k0_t1_loop.trips) (acc : BitVec 32) (hc : k0_cond1 k = 1#1) :
    inv d L O W qA qB fx fS G fo k.val acc
      ⊢ wp frame (wpE (defs₀ (F := F)) 𝒱₀ (VT d L) none) Set.univ
          (k0_t1_body L iV (Memref.isWhole_whole _) xV (Memref.isWhole_whole _) oV (Memref.isWhole_whole _)
            sV (Memref.isWhole_whole _) r0V (Memref.isWhole_whole _) r1V (Memref.isWhole_whole _) cc0_scratch3 cc0_scratch4 cc0_scoped0 cc0_scoped1 cc0_scoped2 k acc)
          (inv d L O W qA qB fx fS G fo (k.val + 1)) := by
  have hk : k.val < 100 := trip_lt k
  have hk1 : k.val + 1 < 100 := (cond_iff k).mp hc
  have hb : od k.val ∈ (Finset.univ.erase (ev k.val) : Finset (Fin 200)) := Finset.mem_erase.mpr ⟨(ev_ne_od _ _).symm, Finset.mem_univ _⟩
  have hcm : ev (k.val + 1) ∈ ((Finset.univ.erase (ev k.val)).erase (od k.val) : Finset (Fin 200)) :=
    Finset.mem_erase.mpr ⟨ev_ne_od _ _, Finset.mem_erase.mpr ⟨fun e => by have := ev_inj hk1 hk e; omega, Finset.mem_univ _⟩⟩
  have hfe : (if (ev k.val).val < 2 * k.val then G else fo) = fo := if_neg (by rw [ev_val hk]; omega)
  have hfo : (if (od k.val).val < 2 * k.val then G else fo) = fo := if_neg (by rw [od_val hk]; omega)
  unfold inv invHead
  rw [if_pos hk, if_pos hk1]
  iintro ⟨#Hmw, HXB, Hch, ⟨%t1, HR1⟩, Hc4, Hs1, Hs2, ⟨%W', %hW', HW⟩, HXA, Hrows, %t0, %pay0, %hpay, HF0⟩
  -- the trip's two rows and two chunks, in the body's spelling
  ihave Hr := (Entails.of_eq (SparseCore.bigSep_erase' hb (Φ := rowP d L fS))) $$ Hrows
  icases Hr with ⟨HRO, Hrows⟩
  ihave Hr := (Entails.of_eq (SparseCore.bigSep_erase' hcm (Φ := rowP d L fS))) $$ Hrows
  icases Hr with ⟨HRE, Hrows⟩
  ihave Hc := (Entails.of_eq (SparseCore.bigSep_erase' (Finset.mem_univ (ev k.val)) (Φ := chK d L G fo k.val))) $$ Hch
  icases Hc with ⟨HOE, Hch⟩
  ihave Hc := (Entails.of_eq (SparseCore.bigSep_erase' hb (Φ := chK d L G fo k.val))) $$ Hch
  icases Hc with ⟨HOO, Hch⟩
  ihave HRO := (Entails.of_eq (rowP_at d L fS (off2_row k) (k0_off2_inb k))) $$ HRO
  ihave HRE := (Entails.of_eq (rowP_at d L fS (off5_row k hk1) (k0_off5_inb k hc))) $$ HRE
  ihave HOE := (Entails.of_eq ((congrArg (chP d L (ev k.val)) hfe).trans (chP_at d L (off4_ch L k) (k0_off4_inb L k) fo))) $$ HOE
  ihave HOO := (Entails.of_eq ((congrArg (chP d L (od k.val)) hfo).trans (chP_at d L (off6_ch L k) (k0_off6_inb L k) fo))) $$ HOO
  clear hfe hfo hcm
  sl_unfold [k0_t1_body]
  sl_unfold [k0_part1]
  sl_exec
  sl_step
  rw [chunks_fold d L G fo k.val hk, rows_fold (rowP d L fS) k.val hk1]
  isplitr; · iexact Hmw
  isplitl [HXB]; · iexact HXB
  -- the two chunks written hold the lookup
  ihave HOE := (Entails.of_eq (pointsTo_congr (chunk_at d L fx fS G hin hV (off4_ch L k) (k0_off4_inb L k) fo
      (ReadAs.same.apply (View.read (Elt F) (r0V).view ((r0V).view.writes (Elt F) t0 [⟨Rect.whole S128x128, pay0⟩])))
      (settle0 d L fx fS G hin hV (ev k.val) t0 pay0 hpay)))) $$ HOE
  ihave HOE := (Entails.of_eq (chP_at d L (off4_ch L k) (k0_off4_inb L k) G).symm) $$ HOE
  ihave HOO := (Entails.of_eq (pointsTo_congr (chunk_at d L fx fS G hin hV (off6_ch L k) (k0_off6_inb L k) fo
      (ReadAs.same.apply (View.read (Elt F) (r1V).view ((r1V).view.writes (Elt F) t1 [⟨Rect.whole S128x128, gPay d L fx fS hin (k0_off2 k) (k0_off2_inb k)⟩])))
      (settle1 d L fx fS G hin hV (od k.val) t1 _ (hV.gather (k0_off2 k) (k0_off2_inb k) (od k.val) (off2_row k))))))  $$ HOO
  ihave HOO := (Entails.of_eq (chP_at d L (off6_ch L k) (k0_off6_inb L k) G).symm) $$ HOO
  isplitl [HOE HOO Hch]
  · isplitl [HOE]; · iexact HOE
    isplitl [HOO]; · iexact HOO
    iexact Hch
  isplitl [HR1]; · iexists _; iexact HR1
  isplitl [Hc4]; · iexact Hc4
  isplitl [Hs1]; · iexact Hs1
  isplitl [Hs2]; · iexact Hs2
  isplitl [HW]
  · iexists _; isplitr
    swap; · iexact HW
    ipureintro; exact fun p hp => waits_grow hW' hp
  isplitl [HXA]; · iexact HXA
  ihave HRO := (Entails.of_eq (rowP_at d L fS (off2_row k) (k0_off2_inb k)).symm) $$ HRO
  isplitl [HF0_dst_and HRO Hrows]
  · isplitl [HF0_dst_and]; · iexact HF0_dst_and
    isplitl [HRO]; · iexact HRO
    iexact Hrows
  iexists ((r0V).view.writes (Elt F) t0 [⟨Rect.whole S128x128, pay0⟩]), gPay d L fx fS hin (k0_off5 k) (k0_off5_inb k hc)
  isplitr
  · ipureintro; exact hV.gather (k0_off5 k) (k0_off5_inb k hc) (ev (k.val + 1)) (off5_row k hk1)
  · iapply (Entails.of_eq (flight_at d L qA fx fS (off5_row k hk1) (k0_off5_inb k hc) t0 pay0 (gPay d L fx fS hin (k0_off5 k) (k0_off5_inb k hc))))
    iexact HF0

include hin hV in
set_option maxHeartbeats 4000000 in
/-- The last trip: nothing more is fetched; at its end nothing is in flight. -/
theorem trip_last (k : Fin k0_t1_loop.trips) (acc : BitVec 32) (hc : ¬ k0_cond1 k = 1#1) :
    inv d L O W qA qB fx fS G fo k.val acc
      ⊢ wp frame (wpE (defs₀ (F := F)) 𝒱₀ (VT d L) none) Set.univ
          (k0_t1_body L iV (Memref.isWhole_whole _) xV (Memref.isWhole_whole _) oV (Memref.isWhole_whole _)
            sV (Memref.isWhole_whole _) r0V (Memref.isWhole_whole _) r1V (Memref.isWhole_whole _) cc0_scratch3 cc0_scratch4 cc0_scoped0 cc0_scoped1 cc0_scoped2 k acc)
          (inv d L O W qA qB fx fS G fo (k.val + 1)) := by
  have hk : k.val < 100 := trip_lt k
  have hk1 : ¬ k.val + 1 < 100 := fun h => hc ((cond_iff k).mpr h)
  have hb : od k.val ∈ (Finset.univ.erase (ev k.val) : Finset (Fin 200)) := Finset.mem_erase.mpr ⟨(ev_ne_od _ _).symm, Finset.mem_univ _⟩
  have hfe : (if (ev k.val).val < 2 * k.val then G else fo) = fo := if_neg (by rw [ev_val hk]; omega)
  have hfo : (if (od k.val).val < 2 * k.val then G else fo) = fo := if_neg (by rw [od_val hk]; omega)
  unfold inv invHead
  rw [if_pos hk, if_neg hk1]
  iintro ⟨#Hmw, HXB, Hch, ⟨%t1, HR1⟩, Hc4, Hs1, Hs2, ⟨%W', %hW', HW⟩, HXA, Hrows, %t0, %pay0, %hpay, HF0⟩
  ihave Hr := (Entails.of_eq (SparseCore.bigSep_erase' hb (Φ := rowP d L fS))) $$ Hrows
  icases Hr with ⟨HRO, Hrows⟩
  ihave Hc := (Entails.of_eq (SparseCore.bigSep_erase' (Finset.mem_univ (ev k.val)) (Φ := chK d L G fo k.val))) $$ Hch
  icases Hc with ⟨HOE, Hch⟩
  ihave Hc := (Entails.of_eq (SparseCore.bigSep_erase' hb (Φ := chK d L G fo k.val))) $$ Hch
  icases Hc with ⟨HOO, Hch⟩
  ihave HRO := (Entails.of_eq (rowP_at d L fS (off2_row k) (k0_off2_inb k))) $$ HRO
  ihave HOE := (Entails.of_eq ((congrArg (chP d L (ev k.val)) hfe).trans (chP_at d L (off4_ch L k) (k0_off4_inb L k) fo))) $$ HOE
  ihave HOO := (Entails.of_eq ((congrArg (chP d L (od k.val)) hfo).trans (chP_at d L (off6_ch L k) (k0_off6_inb L k) fo))) $$ HOO
  clear hfe hfo
  sl_unfold [k0_t1_body]
  sl_unfold [k0_part1]
  sl_exec
  sl_step
  rw [chunks_fold d L G fo k.val hk, rows_all (rowP d L fS) k.val]
  isplitr; · iexact Hmw
  isplitl [HXB]; · iexact HXB
  ihave HOE := (Entails.of_eq (pointsTo_congr (chunk_at d L fx fS G hin hV (off4_ch L k) (k0_off4_inb L k) fo
      (ReadAs.same.apply (View.read (Elt F) (r0V).view ((r0V).view.writes (Elt F) t0 [⟨Rect.whole S128x128, pay0⟩])))
      (settle0 d L fx fS G hin hV (ev k.val) t0 pay0 hpay)))) $$ HOE
  ihave HOE := (Entails.of_eq (chP_at d L (off4_ch L k) (k0_off4_inb L k) G).symm) $$ HOE
  ihave HOO := (Entails.of_eq (pointsTo_congr (chunk_at d L fx fS G hin hV (off6_ch L k) (k0_off6_inb L k) fo
      (ReadAs.same.apply (View.read (Elt F) (r1V).view ((r1V).view.writes (Elt F) t1 [⟨Rect.whole S128x128, gPay d L fx fS hin (k0_off2 k) (k0_off2_inb k)⟩])))
      (settle1 d L fx fS G hin hV (od k.val) t1 _ (hV.gather (k0_off2 k) (k0_off2_inb k) (od k.val) (off2_row k))))))  $$ HOO
  ihave HOO := (Entails.of_eq (chP_at d L (off6_ch L k) (k0_off6_inb L k) G).symm) $$ HOO
  isplitl [HOE HOO Hch]
  · isplitl [HOE]; · iexact HOE
    isplitl [HOO]; · iexact HOO
    iexact Hch
  isplitl [HR1]; · iexists _; iexact HR1
  isplitl [Hc4]; · iexact Hc4
  isplitl [Hs1]; · iexact Hs1
  isplitl [Hs2]; · iexact Hs2
  isplitl [HW]
  · iexists _; isplitr
    swap; · iexact HW
    ipureintro; exact fun p hp => waits_grow hW' hp
  isplitl [HXA]; · iexact HXA
  ihave HRO := (Entails.of_eq (rowP_at d L fS (off2_row k) (k0_off2_inb k)).symm) $$ HRO
  isplitl [HF0_dst_and HRO Hrows]
  · isplitl [HF0_dst_and]; · iexact HF0_dst_and
    isplitl [HRO]; · iexact HRO
    iexact Hrows
  isplitl [HF0_dst]; · iexists _; iexact HF0_dst
  iexact HF0

end Trip

end Cert.Proof.SideIdeal

end
-- ==== Proof.SideIdeal.Values.lean ====
/-
  The values a worker moves, read at an index.

  Row r of a worker's [200, 128] copy of its index slab places lane l at (r, l); the worker's slab of the
  [32, 200, 128] index array places (r, l) at (w, r, l), w the worker's number; chunk j of its slab of the
  [32, 200, 128, 128] result places (l, h) at (w, j, l, h); the table's slice is the whole table. Each placement is a
  unit-stride rectangle under a dropping of unit axes, and dropping unit axes keeps the row-major position, which
  fixes the coordinates.

  From the placements: a row's word at lane l is the copy's word at (r, l); the copy, once the slab is written over
  it whole, holds at (r, l) the index array's word at (w, r, l); a gather's payload at (l, h) is entry h of the table's
  row named by the copy's word at (r, l) (the word is in range, so reducing it modulo the number of rows changes
  nothing); a row buffer written whole reads back what was written; and a chunk written whole with a payload that is
  a function G of the result's indices, read through the chunk, holds G on the chunk's elements. The last is an
  instance of a fact about any view: one whole-view piece leaves, under the view's element at index y, the payload at y.
-/
import proofs.«203453_g50448685858838_cont_8to1c4_102_16_alg».proof.Proof.SideIdeal.Pieces
import proofs.«203453_g50448685858838_cont_8to1c4_102_16_alg».proof.Proof.Spec
import Idealize.ShloMosaic.Lib.ValueIdx
import Idealize.ShloMosaic.Lib.Writes
import Idealize.ShloMosaic.Lib.Exec.Geometry
import Idealize.ShloMosaic.Lib.Pipeline.Value
import Idealize.ShloMosaic.Lib.SparseCore.Stream

noncomputable section

namespace Cert.Proof.SideIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## One whole-view piece, under the view's elements -/

/-- What one whole-view piece leaves under the view's element at index `y`: the payload at `y`. -/
theorem writes_whole_emb {sig : RefSig} {κ : Kind} {sp : Space} {s : Shape} {e : EltTy} {Val : EltTy → Type}
    (v : View sig κ sp s e) (g : v.ty.Contents Val) (P : s.Idx → Val e) (y : s.Idx) :
    v.writes Val g [⟨Rect.whole s, P⟩] (v.emb y) = cast (congrArg Val v.elt_eq.symm) (P y) := by
  rw [← View.write_univ_eq_writes_whole v g [] P]
  exact View.write_emb_of_mem _ _ (Finset.mem_univ y)

/-- So a whole-view piece whose payload is a function `G` of the buffer's indices, read through the view, leaves `G`
    on the view's elements, whatever the buffer held. -/
theorem writes_whole_of_mem {sig : RefSig} {κ : Kind} {sp : Space} {s : Shape} {e : EltTy} {Val : EltTy → Type}
    (v : View sig κ sp s e) (g G : v.ty.Contents Val) (P : s.Idx → Val e)
    (hP : ∀ y, cast (congrArg Val v.elt_eq.symm) (P y) = G (v.emb y)) :
    ∀ i ∈ v.set, v.writes Val g [⟨Rect.whole s, P⟩] i = G i := by
  intro i hi
  obtain ⟨y, rfl⟩ := View.exists_emb_of_mem_set v hi
  rw [writes_whole_emb]; exact hP y

/-! ## A row buffer written whole reads back what was written -/

theorem read_back (d : Dev nD) (L : grid0.Coords) (t : Buf (Elt F) ((r0V).view.loc (VT d L))) (pay : S128x128.Idx → Elt F .f32) :
    ReadAs.same.apply (View.read (Elt F) (r0V).view ((r0V).view.writes (Elt F) t [⟨Rect.whole S128x128, pay⟩])) = pay :=
  View.read_writes_whole _ _ _

theorem read_back1 (d : Dev nD) (L : grid0.Coords) (t : Buf (Elt F) ((r1V).view.loc (VT d L))) (pay : S128x128.Idx → Elt F .f32) :
    ReadAs.same.apply (View.read (Elt F) (r1V).view ((r1V).view.writes (Elt F) t [⟨Rect.whole S128x128, pay⟩])) = pay :=
  View.read_writes_whole _ _ _

/-! ## A row of the copy -/

/-- Lane `l` of a [128] list is entry (0, l) of the [1, 128] row it was squeezed from: the same row-major position. -/
theorem squeeze_row (l : Fin 128) :
    Shape.reshapeEquiv (s := S1x128) (s' := S128) squeezes_S1x128_S128.numel_eq (ix1 l) = ix2 (0 : Fin 1) l := by
  apply Shape.reshapeEquiv_eq_of_rowMajor
  rw [Shape.rowMajor_val_two, Shape.rowMajor_val_one]
  show (0 : ℕ) * 128 + l.val = l.val
  omega

/-- Row `r` places lane `l` at (r, l). -/
theorem winR_emb (r : Fin 200) (l : Fin 128) : ((winR r).view.emb (ix1 l) : S200x128.Idx) = ix2 r l := by
  show (Rect.unit (s := S200x128) (rowOff r) S1x128.size (rowOff_inb r)).emb
      (Shape.reshapeEquiv (s := S1x128) (s' := S128) squeezes_S1x128_S128.numel_eq (ix1 l)) = ix2 r l
  rw [squeeze_row]
  funext a
  match a with
  | ⟨0, _⟩ => apply Fin.ext; show r.val + 1 * 0 = r.val; omega
  | ⟨1, _⟩ => apply Fin.ext; show 0 + 1 * l.val = l.val; omega

/-- A row's word at lane `l` is the copy's word at (r, l). -/
theorem row_read_lane (d : Dev nD) (L : grid0.Coords) (fS : Buf (Elt F) ((sV).view.loc (VT d L))) (r : Fin 200) (l : Fin 128) :
    View.read (Elt F) (winR r).view fS (ix1 l) = fS (ix2 r l) :=
  ((View.read_apply _ _).trans (cast_eq _ _)).trans (congrArg fS (winR_emb r l))

theorem row_read (d : Dev nD) (L : grid0.Coords) (fS : Buf (Elt F) ((sV).view.loc (VT d L))) (r : Fin 200) (x : S128.Idx) :
    View.read (Elt F) (winR r).view fS x = fS (ix2 r (x 0)) :=
  (congrArg (View.read (Elt F) (winR r).view fS) (eq_ix1 x)).trans (row_read_lane d L fS r (x 0))

/-! ## A gather's payload -/

/-- The table index a gather reads for the row buffer's entry (l, h): the row its list names at l, entry h. -/
theorem gidx_apply (rw : Fin (S128x128.size gathers_S1000000x128_S128x128.axis') → Fin (S1000000x128.size gathers_S1000000x128_S128x128.axis))
    (l h : Fin 128) :
    gathers_S1000000x128_S128x128.idx rw (ix2 l h) = ix2 (n0 := 1000000) (n1 := 128) (rw l) h := by
  funext b
  match b with
  | ⟨0, _⟩ => exact Shape.Gathers.idx_axis gathers_S1000000x128_S128x128 rw (ix2 l h)
  | ⟨1, hb⟩ => exact Fin.ext (Shape.Gathers.idx_of_ne gathers_S1000000x128_S128x128 rw (ix2 l h) ⟨1, hb⟩ Nat.one_ne_zero)

/-- The index of a [128] list at row-major position l is l. -/
theorem rowMajor_symm_S128 (l : Fin 128) (k : Fin S128.numel) (hk : k.val = l.val) : S128.rowMajor.symm k = ix1 l := by
  rw [Equiv.symm_apply_eq]
  apply Fin.ext
  rw [Shape.rowMajor_val_one]
  exact hk

/-- The table's slice is the whole table: it places (n, h) at (n, h). -/
theorem xAll_emb (n : Fin 1000000) (h : Fin 128) : ((xAll).view.emb (ix2 n h) : S1000000x128.Idx) = ix2 n h := by
  show (Rect.unit (s := S1000000x128) ![0, 0] S1000000x128.size inb_S1000000x128_S1000000x128_0_0).emb (ix2 n h) = ix2 n h
  funext a
  match a with
  | ⟨0, _⟩ => apply Fin.ext; show 0 + 1 * n.val = n.val; omega
  | ⟨1, _⟩ => apply Fin.ext; show 0 + 1 * h.val = h.val; omega

/-- The gather of row `r`'s words: entry (l, h) of its payload is entry h of the table's row named by the copy's word
    at (r, l). The word is below the number of rows (`hin`), so the row it names is the word itself. -/
theorem gather_apply (d : Dev nD) (L : grid0.Coords) (fx : Buf (Elt F) ((xV).view.loc (VT d L))) (fS : Buf (Elt F) ((sV).view.loc (VT d L)))
    (r : Fin 200) (hn : S128.numel = S128x128.size gathers_S1000000x128_S128x128.axis')
    (hin : ∀ x, (View.read (Elt F) (winR r).view fS x).toNat < S1000000x128.size gathers_S1000000x128_S128x128.axis) (l h : Fin 128) :
    SparseCore.gatherPayload gathers_S1000000x128_S128x128 (View.read (Elt F) (xAll).view fx)
        (SparseCore.rows (View.read (Elt F) (winR r).view fS) hn hin) (ix2 l h)
      = fx (ix2 (Cert.Spec.row (fS (ix2 r l))) h) := by
  have hword : View.read (Elt F) (winR r).view fS (S128.rowMajor.symm (Fin.cast hn.symm l)) = fS (ix2 r l) :=
    (congrArg (View.read (Elt F) (winR r).view fS) (rowMajor_symm_S128 l _ rfl)).trans (row_read_lane d L fS r l)
  have hlt : (fS (ix2 r l)).toNat < 1000000 := (congrArg BitVec.toNat (row_read_lane d L fS r l)).symm.trans_lt (hin (ix1 l))
  have hrow : SparseCore.rows (View.read (Elt F) (winR r).view fS) hn hin l = Cert.Spec.row (fS (ix2 r l)) :=
    Fin.ext ((congrArg BitVec.toNat hword).trans (Cert.Spec.row_val_of_lt _ hlt).symm)
  have hidx : gathers_S1000000x128_S128x128.idx (SparseCore.rows (View.read (Elt F) (winR r).view fS) hn hin) (ix2 l h)
      = ix2 (n0 := 1000000) (n1 := 128) (Cert.Spec.row (fS (ix2 r l))) h :=
    (gidx_apply _ l h).trans (congrArg (fun n : Fin 1000000 => ix2 (n0 := 1000000) (n1 := 128) n h) hrow)
  exact (congrArg (View.read (Elt F) (xAll).view fx) hidx).trans
    (((View.read_apply _ _).trans (cast_eq _ _)).trans (congrArg fx (xAll_emb _ h)))

/-! ## A chunk of the result -/

/-- Entry (l, h) of a [128, 128] block is entry (0, 0, l, h) of the [1, 1, 128, 128] chunk it was squeezed from. -/
theorem squeeze_chunk (l h : Fin 128) :
    Shape.reshapeEquiv (s := S1x1x128x128) (s' := S128x128) squeezes_S1x1x128x128_S128x128.numel_eq (ix2 l h)
      = ix4 (0 : Fin 1) (0 : Fin 1) l h := by
  apply Shape.reshapeEquiv_eq_of_rowMajor
  rw [Shape.rowMajor_val_four, Shape.rowMajor_val_two]
  show (((0 : ℕ) * 1 + 0) * 128 + l.val) * 128 + h.val = l.val * 128 + h.val
  omega

/-- Chunk `j` of worker `L`'s slab places (l, h) at (w, j, l, h), w the worker's number. -/
theorem oCh_emb (L : grid0.Coords) (j : Fin 200) (l h : Fin 128) :
    ((oCh L j).view.emb (ix2 l h) : S32x200x128x128.Idx) = ix4 (wid L) j l h := by
  show (Rect.unit (s := S32x200x128x128) (chOff L j) S1x1x128x128.size (chOff_inb L j)).emb
      (Shape.reshapeEquiv (s := S1x1x128x128) (s' := S128x128) squeezes_S1x1x128x128_S128x128.numel_eq (ix2 l h)) = ix4 (wid L) j l h
  rw [squeeze_chunk]
  funext a
  match a with
  | ⟨0, _⟩ => apply Fin.ext; show 2 * (L 1).val + (L 0).val + 1 * 0 = 2 * (L 1).val + (L 0).val; omega
  | ⟨1, _⟩ => apply Fin.ext; show j.val + 1 * 0 = j.val; omega
  | ⟨2, _⟩ => apply Fin.ext; show 0 + 1 * l.val = l.val; omega
  | ⟨3, _⟩ => apply Fin.ext; show 0 + 1 * h.val = h.val; omega

/-- A chunk written whole with a payload that is `G` read through the chunk holds `G` on the chunk's elements. -/
theorem chunk_written (d : Dev nD) (L : grid0.Coords) (j : Fin 200) (fo G : Buf (Elt F) ((oV).view.loc (VT d L)))
    (P : S128x128.Idx → Elt F .f32) (hP : ∀ l h : Fin 128, P (ix2 l h) = G (ix4 (wid L) j l h)) :
    ∀ i ∈ (oCh L j).view.set, ((oCh L j).view.writes (Elt F) fo [⟨Rect.whole S128x128, P⟩]) i = G i := by
  refine writes_whole_of_mem (oCh L j).view fo G P ?_
  intro y
  obtain ⟨l, h, rfl⟩ : ∃ l h : Fin 128, y = ix2 l h := ⟨y 0, y 1, eq_ix2 y⟩
  exact (cast_eq _ _).trans ((hP l h).trans (congrArg G (oCh_emb L j l h).symm))

/-! ## The copy of the index slab -/

/-- Entry (r, l) of a [200, 128] slab is entry (0, r, l) of the [1, 200, 128] slab it was squeezed from. -/
theorem squeeze_slab (r : Fin 200) (l : Fin 128) :
    Shape.reshapeEquiv (s := S1x200x128) (s' := S200x128) squeezes_S1x200x128_S200x128.numel_eq (ix2 r l) = ix3 (0 : Fin 1) r l := by
  apply Shape.reshapeEquiv_eq_of_rowMajor
  rw [Shape.rowMajor_val_three, Shape.rowMajor_val_two]
  show ((0 : ℕ) * 200 + r.val) * 128 + l.val = r.val * 128 + l.val
  omega

/-- Worker `L`'s slab of the index array places (r, l) at (w, r, l), w the worker's number. -/
theorem iSlab_emb (L : grid0.Coords) (r : Fin 200) (l : Fin 128) :
    ((iSlab L).view.emb (ix2 r l) : S32x200x128.Idx) = ix3 (wid L) r l := by
  show (Rect.unit (s := S32x200x128) (k0_off1 L) S1x200x128.size (k0_off1_inb L)).emb
      (Shape.reshapeEquiv (s := S1x200x128) (s' := S200x128) squeezes_S1x200x128_S200x128.numel_eq (ix2 r l)) = ix3 (wid L) r l
  rw [squeeze_slab]
  funext a
  match a with
  | ⟨0, _⟩ => apply Fin.ext; show k0_off1 L 0 + 1 * 0 = 2 * (L 1).val + (L 0).val; rw [k0_off1_eq]; rfl
  | ⟨1, _⟩ => apply Fin.ext; show k0_off1 L 1 + 1 * r.val = r.val; rw [k0_off1_eq]; show 0 + 1 * r.val = r.val; omega
  | ⟨2, _⟩ => apply Fin.ext; show k0_off1 L 2 + 1 * l.val = l.val; rw [k0_off1_eq]; show 0 + 1 * l.val = l.val; omega

/-- The copy, once the slab is written over it whole, holds at (r, l) the index array's word at (w, r, l). -/
theorem slab_copied (d : Dev nD) (L : grid0.Coords) (fi : Buf (Elt F) ((iV).view.loc (VT d L))) (g : Buf (Elt F) ((sV).view.loc (VT d L)))
    (r : Fin 200) (l : Fin 128) :
    ((sV).view.writes (Elt F) g [⟨Rect.whole S200x128, ReadAs.same.apply (View.read (Elt F) (iSlab L).view fi)⟩]) (ix2 r l)
      = fi (ix3 (wid L) r l) := by
  refine (writes_whole_emb (sV).view g _ (ix2 r l)).trans ?_
  refine (cast_eq _ _).trans ?_
  exact ((View.read_apply _ _).trans (cast_eq _ _)).trans (congrArg fi (iSlab_emb L r l))

end Cert.Proof.SideIdeal

end
-- ==== Proof.SideIdeal.Run.lean ====
/-
  A worker's whole run.

  The worker copies its slab of the index array into its own memory, splits that copy into its 200 rows, starts the
  fetch of row 0, runs the loop by its invariant, and is left with every row home, every chunk of its slab of the
  result at the looked-up rows, and every buffer and semaphore it was lent back as it found them. The values: the copy
  holds at (r, l) the index array's word at (w, r, l), so the block fetched through row r is the table's rows those
  words name, which is the lookup's chunk r of worker w.
-/
import proofs.«203453_g50448685858838_cont_8to1c4_102_16_alg».proof.Proof.SideIdeal.Trip
import proofs.«203453_g50448685858838_cont_8to1c4_102_16_alg».proof.Proof.SideIdeal.Values
import proofs.«203453_g50448685858838_cont_8to1c4_102_16_alg».proof.Proof.SideIdeal.Pay

noncomputable section

namespace Cert.Proof.SideIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]

local notation "𝕄" => MT nD τ sig (HIx 1) (Elt F) ℕ UU ℕ

section Run

variable (d : Dev nD) (L : grid0.Coords) (O : CellTallies nD τ sig (HIx 1)) (W : Waits sig (HIx 1))
variable (qA qB : PosShare TreeShare)
variable (fi : Buf (Elt F) ((iV).view.loc (VT d L))) (fx : Buf (Elt F) ((xV).view.loc (VT d L)))
variable (G fo : Buf (Elt F) ((oV).view.loc (VT d L)))

/-- The worker's copy of its index slab once the slab has landed in it, over whatever it held. -/
abbrev fSof (g : Buf (Elt F) ((sV).view.loc (VT d L))) : Buf (Elt F) ((sV).view.loc (VT d L)) :=
  (sV).view.writes (Elt F) g [⟨Rect.whole S200x128, ReadAs.same.apply (View.read (Elt F) (iSlab L).view fi)⟩]

omit [FloatOps F] in
theorem fS_lt (hfi : ∀ j : S32x200x128.Idx, (fi j).toNat < 1000000) (g : Buf (Elt F) ((sV).view.loc (VT d L))) (j : S200x128.Idx) :
    (fSof d L fi g j).toNat < 1000000 := by
  rw [eq_ix2 j]
  exact lt_of_eq_of_lt (congrArg BitVec.toNat (slab_copied d L fi g (j 0) (j 1))) (hfi _)

omit [FloatOps F] in
/-- Every row the body slices out of a copy whose words are all in range has its words in range. -/
theorem rows_in_range (fS : Buf (Elt F) ((sV).view.loc (VT d L))) (hS : ∀ j : S200x128.Idx, (fS j).toNat < 1000000) :
    ∀ (row : Fin 2 → Nat) (hk : ∀ a, row a + S1x128.size a ≤ S200x128.size a) (hq : (Rect.unit (s := S200x128) row S1x128.size hk).shape.Squeezes S128) x,
      (View.read (Elt F) (((sV).slice (Rect.unit (s := S200x128) row S1x128.size hk) (fun _ => rfl)).squeeze S128 hq).view fS x).toNat < 1000000 := by
  intro row hk hq x
  exact lt_of_eq_of_lt (congrArg BitVec.toNat ((View.read_apply _ _).trans (cast_eq _ _))) (hS _)

omit [FloatOps F] in
/-- The value facts of the trips, at the landed copy and the lookup. -/
theorem valueFacts (g : Buf (Elt F) ((sV).view.loc (VT d L))) (hfi : ∀ j : S32x200x128.Idx, (fi j).toNat < 1000000)
    (hG : ∀ (r : Fin 200) (l h : Fin 128), G (ix4 (n0 := 32) (n1 := 200) (n2 := 128) (n3 := 128) (wid L) r l h)
      = fx (ix2 (n0 := 1000000) (n1 := 128) (Cert.Spec.row (fi (ix3 (n0 := 32) (n1 := 200) (n2 := 128) (wid L) r l))) h)) :
    ValueFacts d L fx (fSof d L fi g) G (rows_in_range d L _ (fS_lt d L fi hfi g)) where
  back0 := read_back d L
  back1 := read_back1 d L
  chunk := fun j fo' P hP => chunk_written d L j fo' G P hP
  gather := fun off hh r e => by
    subst e
    funext y
    obtain ⟨l, h, rfl⟩ : ∃ l h : Fin 128, y = ix2 l h := ⟨y 0, y 1, eq_ix2 y⟩
    exact gather_apply d L fx (fSof d L fi g) r rfl _ l h
  look := fun r l h => (hG r l h).trans
    (congrArg (fun n : BitVec 32 => fx (ix2 (n0 := 1000000) (n1 := 128) (Cert.Spec.row n) h)) (slab_copied d L fi g r l).symm)

omit [FloatOps F] in
/-- The copy held whole is its 200 rows. -/
theorem rows_split (fS : Buf (Elt F) ((sV).view.loc (VT d L))) :
    ((sV).view.loc (VT d L) ↦[(sV).view.set]{fullShare} fS : sProp 𝕄) = bigSep Finset.univ (rowP d L fS) := by
  rw [show (sV).view.set = Finset.univ from View.set_whole _,
    Ring.pointsTo_blocks (ℓ := (sV).view.loc (VT d L)) rowSet rowSet_disjoint rowSet_cover]
  exact bigSep_congr fun r _ => by rw [← set_winR]; rfl

omit [FloatOps F] in
theorem chunks_zero : bigSep Finset.univ (chK d L G fo 0) = (bigSep Finset.univ (fun j => chP d L j fo) : sProp 𝕄) :=
  bigSep_congr fun j _ => by
    show chP d L j (if j.val < 2 * 0 then G else fo) = chP d L j fo
    rw [if_neg (by omega)]
omit [FloatOps F] in
theorem chunks_done : bigSep Finset.univ (chK d L G fo 100) = (bigSep Finset.univ (fun j => chP d L j G) : sProp 𝕄) :=
  bigSep_congr fun j _ => by
    show chP d L j (if j.val < 2 * 100 then G else fo) = chP d L j G
    rw [if_pos (by have := j.isLt; omega)]

/-- After the last trip: nothing in flight, every row home, every chunk at the lookup. -/
theorem inv_exit (fS : Buf (Elt F) ((sV).view.loc (VT d L))) (n : ℕ) (hn : n = 100) (acc : BitVec 32) :
    inv d L O W qA qB fx fS G fo n acc
      = iprop(Transfers.MayWaits (VT d L) (default : HIx 1) O
          ∗ ((xV).view.loc (VT d L) ↦{qB} fx)
          ∗ bigSep Finset.univ (fun j => chP d L j G)
          ∗ (∃ t1, (r1V).view.loc (VT d L) ↦[(r1V).view.set]{fullShare} t1)
          ∗ semVal (cellOf d L cc0_scratch4) 0 ∗ semVal (cellOf d L cc0_scoped1) 0 ∗ semVal (cellOf d L cc0_scoped2) 0
          ∗ (∃ W', ⌜∀ p ∈ W', p ∈ W ∨ p.2 = none⌝ ∗ owes (VT d L) O W')
          ∗ ((xV).view.loc (VT d L) ↦{qA} fx) ∗ bigSep Finset.univ (rowP d L fS)
          ∗ (∃ t, (r0V).view.loc (VT d L) ↦[(r0V).view.set]{fullShare} t) ∗ semVal (cellOf d L cc0_scratch3) 0) := by
  subst hn
  unfold inv invHead
  rw [if_neg (by decide : ¬ (100 : ℕ) < 100), chunks_done]

omit [FloatOps F] in
/-- The first fetch, as the run states it, is the invariant's flight at row 0. -/
theorem flight_at1 (fS : Buf (Elt F) ((sV).view.loc (VT d L))) {off : Fin 2 → Nat} {r : Fin 200} (e : off = rowOff r) (hh)
    (t : Buf (Elt F) ((r0V).view.loc (VT d L))) (pay : S128x128.Idx → Elt F .f32) :
    (Transfers.Flight countersEmb (VT d L) (SemLoc.dma cc0_scratch3.sem) (default : HIx 1) 524288
      iprop((((r0V).view.loc (VT d L) ↦[(r0V).view.set]{fullShare} (r0V).view.writes (Elt F) t [⟨Rect.whole S128x128, pay⟩])
          ∗ ((winAt off hh).view.loc (VT d L) ↦[(winAt off hh).view.set]{fullShare} fS)) ∗ ((xV).view.loc (VT d L) ↦[(xAll).view.set]{qA} fx)) : sProp 𝕄)
      = flight0 d L qA fx fS r t pay := by
  subst e; rfl

set_option maxHeartbeats 4000000 in
/-- A worker's run. -/
theorem tile_run (d : Dev nD) (L : grid0.Coords) (O : CellTallies nD τ sig (HIx 1)) (W : Waits sig (HIx 1)) (qA qB : PosShare TreeShare)
    (fi : Buf (Elt F) ((iV).view.loc (VT d L))) (fx : Buf (Elt F) ((xV).view.loc (VT d L))) (G fo : Buf (Elt F) ((oV).view.loc (VT d L)))
    (g0 : Buf (Elt F) ((sV).view.loc (VT d L))) (t0 : Buf (Elt F) ((r0V).view.loc (VT d L))) (t1 : Buf (Elt F) ((r1V).view.loc (VT d L)))
    (hfi : ∀ j : S32x200x128.Idx, (fi j).toNat < 1000000)
    (hG : ∀ (r : Fin 200) (l h : Fin 128), G (ix4 (n0 := 32) (n1 := 200) (n2 := 128) (n3 := 128) (wid L) r l h)
      = fx (ix2 (n0 := 1000000) (n1 := 128) (Cert.Spec.row (fi (ix3 (n0 := 32) (n1 := 200) (n2 := 128) (wid L) r l))) h)) :
    (iprop(Transfers.MayWaits (VT d L) (default : HIx 1) O
        ∗ ((iSlab L).view.loc (VT d L) ↦[(iSlab L).view.set]{fullShare} fi)
        ∗ ((xV).view.loc (VT d L) ↦{qA} fx)
        ∗ ((xV).view.loc (VT d L) ↦{qB} fx)
        ∗ bigSep Finset.univ (fun j => chP d L j fo)
        ∗ ((sV).view.loc (VT d L) ↦[(sV).view.set]{fullShare} g0)
        ∗ ((r0V).view.loc (VT d L) ↦[(r0V).view.set]{fullShare} t0)
        ∗ ((r1V).view.loc (VT d L) ↦[(r1V).view.set]{fullShare} t1)
        ∗ semVal (cellOf d L cc0_scratch3) 0 ∗ semVal (cellOf d L cc0_scratch4) 0
        ∗ semVal (cellOf d L cc0_scoped0) 0 ∗ semVal (cellOf d L cc0_scoped1) 0 ∗ semVal (cellOf d L cc0_scoped2) 0
        ∗ owes (VT d L) O W) : sProp 𝕄)
      ⊢ wp frame (wpE (defs₀ (F := F)) 𝒱₀ (VT d L) none) Set.univ
          (cc0__gather_kernel L iV (Memref.isWhole_whole _) xV (Memref.isWhole_whole _) oV (Memref.isWhole_whole _)
            sV (Memref.isWhole_whole _) r0V (Memref.isWhole_whole _) r1V (Memref.isWhole_whole _) cc0_scratch3 cc0_scratch4 cc0_scoped0 cc0_scoped1 cc0_scoped2)
          fun _ => iprop(((iSlab L).view.loc (VT d L) ↦[(iSlab L).view.set]{fullShare} fi)
            ∗ ((xV).view.loc (VT d L) ↦{qA} fx) ∗ ((xV).view.loc (VT d L) ↦{qB} fx)
            ∗ bigSep Finset.univ (fun j => chP d L j G)
            ∗ (∃ g, (sV).view.loc (VT d L) ↦[(sV).view.set]{fullShare} g)
            ∗ (∃ t, (r0V).view.loc (VT d L) ↦[(r0V).view.set]{fullShare} t)
            ∗ (∃ t, (r1V).view.loc (VT d L) ↦[(r1V).view.set]{fullShare} t)
            ∗ semVal (cellOf d L cc0_scratch3) 0 ∗ semVal (cellOf d L cc0_scratch4) 0
            ∗ semVal (cellOf d L cc0_scoped0) 0 ∗ semVal (cellOf d L cc0_scoped1) 0 ∗ semVal (cellOf d L cc0_scoped2) 0
            ∗ ∃ W', ⌜∀ p ∈ W', p ∈ W ∨ p.2 = none⌝ ∗ owes (VT d L) O W') := by
  rw [cc0__gather_kernel_eq_skeleton]; unfold cc0__gather_kernel_skel
  iintro ⟨#Hmw, HI, HXA, HXB, Hch, HS, HR0, HR1, Hc3, Hc4, Hs0, Hs1, Hs2, HW⟩
  -- the slab copy and its wait
  sl_exec
  -- the landed copy, row by row; row 0 in the body's spelling
  sl_unfold_run_names
  ihave Hrows := (Entails.of_eq (rows_split d L (fSof d L fi (sV).view.junk))) $$ HS
  ihave Hr := (Entails.of_eq (SparseCore.bigSep_erase' (Finset.mem_univ (ev 0)) (Φ := rowP d L (fSof d L fi (sV).view.junk)))) $$ Hrows
  icases Hr with ⟨HRE, Hrows⟩
  ihave HRE := (Entails.of_eq (rowP_at d L (fSof d L fi (sV).view.junk) lit0_row inb_S200x128_S1x128_0_0)) $$ HRE
  -- the first fetch: every word of the copy names a row of the table
  have hS := fS_lt d L fi hfi (sV).view.junk
  have hin := rows_in_range d L (fSof d L fi (sV).view.junk) hS
  have hV := valueFacts d L fi fx G (sV).view.junk hfi hG
  sl_exec
  sl_for (inv d L O W qA qB fx (fSof d L fi (sV).view.junk) G fo) $$ [HXB Hch HR1 Hc4 Hs1 Hs2 HW HXA Hrows Hc3]
  case region =>
    intro k acc
    by_cases hc : k0_cond1 k = 1#1
    · exact trip_more d L O W qA qB fx _ G fo hin hV k acc hc
    · exact trip_last d L O W qA qB fx _ G fo hin hV k acc hc
  · unfold inv invHead
    rw [if_pos (by decide : (0 : ℕ) < 100), chunks_zero]
    isplitr; · iexact Hmw
    isplitl [HXB]; · iexact HXB
    isplitl [Hch]; · iexact Hch
    isplitl [HR1]; · iexists _; iexact HR1
    isplitl [Hc4]; · iexact Hc4
    isplitl [Hs1]; · iexact Hs1
    isplitl [Hs2]; · iexact Hs2
    isplitl [HW]
    · iexists _; isplitr
      swap; · iexact HW
      ipureintro; intro p hp
      rcases Finset.mem_insert.mp hp with hp | hp; · exact .inr (hp ▸ rfl)
      exact .inl hp
    isplitl [HXA]; · iexact HXA
    isplitl [Hrows]; · iexact Hrows
    iexists t0, gPay d L fx (fSof d L fi (sV).view.junk) hin ![0, 0] inb_S200x128_S1x128_0_0
    isplitr
    · ipureintro; exact hV.gather _ _ (ev 0) lit0_row
    · iapply (Entails.of_eq (flight_at1 d L qA fx (fSof d L fi (sV).view.junk) lit0_row inb_S200x128_S1x128_0_0 t0 _))
      iexact Hc3
  iintro %acc HL
  ihave HL := (Entails.of_eq (inv_exit d L O W qA qB fx G fo (fSof d L fi (sV).view.junk) _ trips_eq acc)) $$ HL
  icases HL with ⟨-, HXB, Hch, ⟨%t1', HR1⟩, Hc4, Hs1, Hs2, ⟨%W', %hW', HW⟩, HXA, Hrows, ⟨%t0', HR0⟩, Hc3⟩
  ihave HS := (Entails.of_eq (rows_split d L (fSof d L fi (sV).view.junk)).symm) $$ Hrows
  sl_exec
  sl_step
  isplitl [HI]; · iexact HI
  isplitl [HXA]; · iexact HXA
  isplitl [HXB]; · iexact HXB
  isplitl [Hch]; · iexact Hch
  isplitl [HS]; · iexists _; iexact HS
  isplitl [HR0]; · iexists _; iexact HR0
  isplitl [HR1]; · iexists _; iexact HR1
  isplitl [Hc3]; · iexact Hc3
  isplitl [Hc4]; · iexact Hc4
  isplitl [Hs0]; · iexact Hs0
  isplitl [Hs1]; · iexact Hs1
  isplitl [Hs2]; · iexact Hs2
  iexists _; isplitr
  swap; · iexact HW
  ipureintro; exact hW'

end Run

end Cert.Proof.SideIdeal

end
-- ==== Proof.SideIdeal.Body.lean ====
/-
  The worker's task as the launch asks for it.

  The launch hands worker w = 2·subcore + core its slab of the index array, two read shares of the table and its slab
  of the result, beside the subcore's own buffers and semaphores. The body is proved in its own spelling: the index
  slab as the body slices it, the result slab chunk by chunk, the three scratch buffers and the five semaphores by
  name. Here the two spellings are identified: the slab the body slices is the worker's part of the index array, the
  200 chunks are exactly the worker's part of the result, and the named buffers and semaphores are among the
  subcore's own. With these the body's run is the obligation.
-/
import proofs.«203453_g50448685858838_cont_8to1c4_102_16_alg».proof.Proof.SideIdeal.Pay
import proofs.«203453_g50448685858838_cont_8to1c4_102_16_alg».proof.Proof.SideIdeal.Loop
import proofs.«203453_g50448685858838_cont_8to1c4_102_16_alg».proof.Proof.SideIdeal.Run

noncomputable section

namespace Cert.Proof.SideIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ)

section Tile

variable (d : Dev nD) (L : grid0.Coords)

/-! ## The worker's slabs: the body's rectangles are the launch's parts -/

omit [FloatOps F] in
/-- The slab of the index array the body slices is worker `wid L`'s part of it along the first axis. -/
theorem iSlabRect_eq :
    Rect.unit (s := S32x200x128) (k0_off1 L) S1x200x128.size (k0_off1_inb L) = Rect.part (s := S32x200x128) (a₀ := 0) idiv (wid L) := by
  unfold Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
/-- The worker's slab of the result is worker `wid L`'s part of it along the first axis. -/
theorem oSlabRect_eq : oSlabRect L = Rect.part (s := S32x200x128x128) (a₀ := 0) odiv (wid L) := by
  unfold oSlabRect Rect.part Rect.block
  congr 1 <;> funext a
  · match a with
    | 0 => simp [Shape.partIx, Shape.partSize, oSlabOff]
    | 1 => simp [Shape.partIx, Shape.partSize, oSlabOff]
    | 2 => simp [Shape.partIx, Shape.partSize, oSlabOff]
    | 3 => simp [Shape.partIx, Shape.partSize, oSlabOff]
  · match a with
    | 0 => simp [Shape.partSize]
    | 1 => simp [Shape.partSize]
    | 2 => simp [Shape.partSize]
    | 3 => simp [Shape.partSize]

omit [FloatOps F] in
theorem set_iSlab : (iSlab L).view.set = iPart (wid L) := by
  show (((iV).view.slice (Rect.unit (s := S32x200x128) (k0_off1 L) S1x200x128.size (k0_off1_inb L))).reshape S200x128
      squeezes_S1x200x128_S200x128.numel_eq).set = ((iV).view.slice (Rect.part (s := S32x200x128) (a₀ := 0) idiv (wid L))).set
  rw [View.set_reshape]
  exact iSlabRect_eq L ▸ rfl

omit [FloatOps F] in
theorem slabSet_eq : slabSet L = oPart (wid L) := by
  show (oSlabRect L).set = ((View.whole (main_v1_scv : Ref sig .scVector)).slice (Rect.part (s := S32x200x128x128) (a₀ := 0) odiv (wid L))).set
  rw [View.set_slice, oSlabRect_eq]; exact Finset.map_refl.symm

omit [FloatOps F] in
theorem pts_iSlab (f : Buf (Elt F) (iLoc d)) :
    ((iSlab L).view.loc (VT d L) ↦[(iSlab L).view.set]{fullShare} f : sProp 𝕄) = iLoc d ↦[iPart (wid L)]{fullShare} f := by
  rw [set_iSlab]

omit [FloatOps F] in
/-- The worker's 200 chunks, each held by exactly its elements at one function, are its slab of the result at it. -/
theorem pts_chunks (f : Buf (Elt F) (oLoc d)) :
    (bigSep Finset.univ (fun j : Fin 200 => chP d L j f) : sProp 𝕄) = oLoc d ↦[oPart (wid L)]{fullShare} f := by
  rw [← slabSet_eq, ← chSet_cover L]
  refine Eq.trans ?_ (pointsTo_biUnion (ℓ := oLoc d) (q := fullShare) (f := f) Finset.univ (chSet L) (chSet_disjoint L)).symm
  refine bigSep_congr fun j _ => ?_
  show ((oCh L j).view.loc (VT d L) ↦[(oCh L j).view.set]{fullShare} f : sProp 𝕄) = _
  rw [set_oCh]
  rfl

omit [FloatOps F] in
theorem pts_xV (q : PosShare TreeShare) (f : Buf (Elt F) (xLoc d)) :
    ((xV).view.loc (VT d L) ↦{q} f : sProp 𝕄) = xLoc d ↦{q} f := rfl
omit [FloatOps F] in
theorem pts_sV (f : Buf (Elt F) ((VT d L).loc cc0_scratch0)) :
    ((sV).view.loc (VT d L) ↦[(sV).view.set]{fullShare} f : sProp 𝕄) = (VT d L).loc cc0_scratch0 ↦{fullShare} f := by
  rw [show (sV).view.set = Finset.univ from View.set_whole _]
omit [FloatOps F] in
theorem pts_r0V (f : Buf (Elt F) ((VT d L).loc cc0_scratch1)) :
    ((r0V).view.loc (VT d L) ↦[(r0V).view.set]{fullShare} f : sProp 𝕄) = (VT d L).loc cc0_scratch1 ↦{fullShare} f := by
  rw [show (r0V).view.set = Finset.univ from View.set_whole _]
omit [FloatOps F] in
theorem pts_r1V (f : Buf (Elt F) ((VT d L).loc cc0_scratch2)) :
    ((r1V).view.loc (VT d L) ↦[(r1V).view.set]{fullShare} f : sProp 𝕄) = (VT d L).loc cc0_scratch2 ↦{fullShare} f := by
  rw [show (r1V).view.set = Finset.univ from View.set_whole _]

/-! ## The subcore's own semaphores and buffers, by name -/

omit [FloatOps F] in
private theorem cell_mem {s : DmaSems sig S_} (h : (SemLoc.dma s.sem : SemLoc sig).isScoped .scVector = true) :
    cellOf d L s ∈ ownCells (VT d L) := (mem_ownCells (g := cellOf d L s)).mpr ⟨rfl, h⟩
omit [FloatOps F] in
private theorem cell_ne {s s' : DmaSems sig S_} (h : (SemLoc.dma s.sem : SemLoc sig) ≠ SemLoc.dma s'.sem) :
    cellOf d L s ≠ cellOf d L s' := fun e => h (congrArg Prod.snd e)

omit [FloatOps F] in
/-- The five DMA semaphores the body names are among the subcore's own: they are them, at zero, and the rest. -/
theorem ownSems0_V :
    (ownSems0 (VT d L) : sProp 𝕄)
      = iprop(semVal (cellOf d L cc0_scratch3) 0 ∗ semVal (cellOf d L cc0_scratch4) 0 ∗ semVal (cellOf d L cc0_scoped0) 0
          ∗ semVal (cellOf d L cc0_scoped1) 0 ∗ semVal (cellOf d L cc0_scoped2) 0
          ∗ bigSep (((((ownCells (VT d L)).erase (cellOf d L cc0_scratch3)).erase (cellOf d L cc0_scratch4)).erase
              (cellOf d L cc0_scoped0)).erase (cellOf d L cc0_scoped1) |>.erase (cellOf d L cc0_scoped2)) fun g => semVal g 0) := by
  unfold SparseCore.Cfg.ownSems0
  rw [SparseCore.bigSep_erase' (cell_mem d L (s := cc0_scratch3) (by decide)),
    SparseCore.bigSep_erase' (Finset.mem_erase.mpr ⟨cell_ne d L (s := cc0_scratch4) (s' := cc0_scratch3) (by decide),
      cell_mem d L (s := cc0_scratch4) (by decide)⟩),
    SparseCore.bigSep_erase' (Finset.mem_erase.mpr ⟨cell_ne d L (s := cc0_scoped0) (s' := cc0_scratch4) (by decide),
      Finset.mem_erase.mpr ⟨cell_ne d L (s := cc0_scoped0) (s' := cc0_scratch3) (by decide), cell_mem d L (s := cc0_scoped0) (by decide)⟩⟩),
    SparseCore.bigSep_erase' (Finset.mem_erase.mpr ⟨cell_ne d L (s := cc0_scoped1) (s' := cc0_scoped0) (by decide),
      Finset.mem_erase.mpr ⟨cell_ne d L (s := cc0_scoped1) (s' := cc0_scratch4) (by decide),
        Finset.mem_erase.mpr ⟨cell_ne d L (s := cc0_scoped1) (s' := cc0_scratch3) (by decide), cell_mem d L (s := cc0_scoped1) (by decide)⟩⟩⟩),
    SparseCore.bigSep_erase' (Finset.mem_erase.mpr ⟨cell_ne d L (s := cc0_scoped2) (s' := cc0_scoped1) (by decide),
      Finset.mem_erase.mpr ⟨cell_ne d L (s := cc0_scoped2) (s' := cc0_scoped0) (by decide),
        Finset.mem_erase.mpr ⟨cell_ne d L (s := cc0_scoped2) (s' := cc0_scratch4) (by decide),
          Finset.mem_erase.mpr ⟨cell_ne d L (s := cc0_scoped2) (s' := cc0_scratch3) (by decide), cell_mem d L (s := cc0_scoped2) (by decide)⟩⟩⟩⟩)]

omit [FloatOps F] in
private theorem buf_mem (b : Ref sig .scVector) (h : ((Proc.scVector (cV L) (jV L)).devRef b : DevRef τ sig).owner = .proc (Proc.scVector (cV L) (jV L))) :
    (Proc.scVector (cV L) (jV L)).devRef b ∈ ownRefs (τ := τ) (sig := sig) (.scVector (cV L) (jV L)) :=
  SparseCore.Cfg.mem_ownRefs_of_owner (p := Proc.scVector (cV L) (jV L)) h
omit [FloatOps F] in
private theorem buf_ne {b b' : Ref sig .scVector} (h : b ≠ b') :
    ((Proc.scVector (cV L) (jV L)).devRef b : DevRef τ sig) ≠ (Proc.scVector (cV L) (jV L)).devRef b' :=
  fun e => h (Proc.devRef_injective _ e)

omit [FloatOps F] in
/-- The three scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (buf_mem L cc0_scratch0 rfl)).trans ?_
  rw [SparseCore.bigSep_erase' (Finset.mem_erase.mpr ⟨buf_ne L (b := cc0_scratch1) (b' := cc0_scratch0) (by decide), buf_mem L cc0_scratch1 rfl⟩),
    SparseCore.bigSep_erase' (Finset.mem_erase.mpr ⟨buf_ne L (b := cc0_scratch2) (b' := cc0_scratch1) (by decide),
      Finset.mem_erase.mpr ⟨buf_ne L (b := cc0_scratch2) (b' := cc0_scratch0) (by decide), buf_mem L cc0_scratch2 rfl⟩⟩)]

/-! ## The body's run, as a statement -/

/-- The worker's run in the body's own spelling: from the index slab as the body slices it (every word naming a row),
    two read shares of the table, the worker's 200 chunks of the result at any contents, the three scratch buffers, the
    five semaphores at zero and what the thread owes, the kernel function runs and leaves the same with the chunks at
    the array `G`, for any `G` whose worker-`wid L` entries are the looked-up rows. -/
def TileRun : Prop :=
  ∀ (d : Dev nD) (L : grid0.Coords) (O : CellTallies nD τ sig (HIx 1)) (W : Waits sig (HIx 1)) (qA qB : PosShare TreeShare)
    (fi : Buf (Elt F) ((iV).view.loc (VT d L))) (fx : Buf (Elt F) ((xV).view.loc (VT d L))) (G fo : Buf (Elt F) ((oV).view.loc (VT d L)))
    (g0 : Buf (Elt F) ((sV).view.loc (VT d L))) (t0 : Buf (Elt F) ((r0V).view.loc (VT d L))) (t1 : Buf (Elt F) ((r1V).view.loc (VT d L)))
    (hfi : ∀ j : S32x200x128.Idx, (fi j).toNat < 1000000)
    (hG : ∀ (r : Fin 200) (l h : Fin 128), G (ix4 (n0 := 32) (n1 := 200) (n2 := 128) (n3 := 128) (wid L) r l h)
      = fx (ix2 (n0 := 1000000) (n1 := 128) (Cert.Spec.row (fi (ix3 (n0 := 32) (n1 := 200) (n2 := 128) (wid L) r l))) h)),
    (iprop(Transfers.MayWaits (VT d L) (default : HIx 1) O
        ∗ ((iSlab L).view.loc (VT d L) ↦[(iSlab L).view.set]{fullShare} fi)
        ∗ ((xV).view.loc (VT d L) ↦{qA} fx)
        ∗ ((xV).view.loc (VT d L) ↦{qB} fx)
        ∗ bigSep Finset.univ (fun j => chP d L j fo)
        ∗ ((sV).view.loc (VT d L) ↦[(sV).view.set]{fullShare} g0)
        ∗ ((r0V).view.loc (VT d L) ↦[(r0V).view.set]{fullShare} t0)
        ∗ ((r1V).view.loc (VT d L) ↦[(r1V).view.set]{fullShare} t1)
        ∗ semVal (cellOf d L cc0_scratch3) 0 ∗ semVal (cellOf d L cc0_scratch4) 0
        ∗ semVal (cellOf d L cc0_scoped0) 0 ∗ semVal (cellOf d L cc0_scoped1) 0 ∗ semVal (cellOf d L cc0_scoped2) 0
        ∗ owes (VT d L) O W) : sProp 𝕄)
      ⊢ wp frame (wpE (defs₀ (F := F)) 𝒱₀ (VT d L) none) Set.univ
          (cc0__gather_kernel L iV (Memref.isWhole_whole _) xV (Memref.isWhole_whole _) oV (Memref.isWhole_whole _)
            sV (Memref.isWhole_whole _) r0V (Memref.isWhole_whole _) r1V (Memref.isWhole_whole _) cc0_scratch3 cc0_scratch4 cc0_scoped0 cc0_scoped1 cc0_scoped2)
          fun _ => iprop(((iSlab L).view.loc (VT d L) ↦[(iSlab L).view.set]{fullShare} fi)
            ∗ ((xV).view.loc (VT d L) ↦{qA} fx) ∗ ((xV).view.loc (VT d L) ↦{qB} fx)
            ∗ bigSep Finset.univ (fun j => chP d L j G)
            ∗ (∃ g, (sV).view.loc (VT d L) ↦[(sV).view.set]{fullShare} g)
            ∗ (∃ t, (r0V).view.loc (VT d L) ↦[(r0V).view.set]{fullShare} t)
            ∗ (∃ t, (r1V).view.loc (VT d L) ↦[(r1V).view.set]{fullShare} t)
            ∗ semVal (cellOf d L cc0_scratch3) 0 ∗ semVal (cellOf d L cc0_scratch4) 0
            ∗ semVal (cellOf d L cc0_scoped0) 0 ∗ semVal (cellOf d L cc0_scoped1) 0 ∗ semVal (cellOf d L cc0_scoped2) 0
            ∗ ∃ W', ⌜∀ p ∈ W', p ∈ W ∨ p.2 = none⌝ ∗ owes (VT d L) O W')

/-! ## The launch memory's facts the body's run asks for -/

omit [FloatOps F] in
/-- Every word of the index array as the workers read it names a row: the array is the launch's under a reshape. -/
theorem hfi_of_pre (hpre : PreOK m) (j : S32x200x128.Idx) : (I3 m d j).toNat < 1000000 := hpre d _

omit [FloatOps F] in
/-- The rows every worker writes, read at (w, r, l, h): entry h of the table's row the word at (w, r, l) names. -/
theorem hG_of (w : Fin 32) (r : Fin 200) (l h : Fin 128) :
    G4m m d (ix4 (n0 := 32) (n1 := 200) (n2 := 128) (n3 := 128) w r l h)
      = m (xLoc d) (ix2 (n0 := 1000000) (n1 := 128) (Cert.Spec.row (I3 m d (ix3 (n0 := 32) (n1 := 200) (n2 := 128) w r l))) h) := rfl

/-! ## The task, in the launch's spelling -/

/-- The task on the vector subcore of worker `L`: what the launch hands it is what the body's run asks for, and what
    the run leaves is what the launch takes back. -/
theorem tile_body (hrun : TileRun (F := F)) (hF : (K (F := F)).Facts) (hpre : PreOK m) (O : CellTallies nD τ sig (HIx 1)) (W : Waits sig (HIx 1)) (hO : ∀ g, O g none = 0) :
    iprop(levAts (K (F := F)).L (K (F := F)).lev ∗ emp
        ∗ GO m d (wid L)
        ∗ scopedBufs (VT d L) ∗ scopedSems0 (VT d L) ∗ owes (VT d L) O W)
      ⊢ wp frame (wpE (defs₀ (F := F)) 𝒱₀ (VT d L) none) Set.univ
          (cc0__gather_kernel L iV (Memref.isWhole_whole _) xV (Memref.isWhole_whole _) oV (Memref.isWhole_whole _)
            sV (Memref.isWhole_whole _) r0V (Memref.isWhole_whole _) r1V (Memref.isWhole_whole _) cc0_scratch3 cc0_scratch4 cc0_scoped0 cc0_scoped1 cc0_scoped2)
          fun _ => iprop(TD m d (wid L)
            ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  unfold GO TD
  iintro ⟨#Hlv, -, ⟨Hi, HxA, HxB, %fo, Ho⟩, ⟨⟨%fs, Hs⟩, ⟨%f0, Hr0⟩, ⟨%f1, Hr1⟩, Hbufs⟩, ⟨H3, H4, Hc0, Hc1, Hc2, Hsems⟩, HO⟩
  ihave Hmw := (show levAts (K (F := F)).L (K (F := F)).lev ⊢ Transfers.MayWaits (VT d L) (default : HIx 1) O from
    (K (F := F)).mayWaits_none (thr := VT d L) hO) $$ Hlv
  ihave Hi' := (Entails.of_eq (pts_iSlab (F := F) d L _).symm) $$ Hi
  ihave Ho' := (Entails.of_eq (pts_chunks (F := F) d L fo).symm) $$ Ho
  ihave Hs' := (Entails.of_eq (pts_sV (F := F) d L _).symm) $$ Hs
  ihave Hr0' := (Entails.of_eq (pts_r0V (F := F) d L _).symm) $$ Hr0
  ihave Hr1' := (Entails.of_eq (pts_r1V (F := F) d L _).symm) $$ Hr1
  ihave Hwp := (hrun d L O W (xTok (2 * (wid L).val)) (xTok (2 * (wid L).val + 1)) (I3 m d) (m (xLoc d)) (G4m m d) fo fs f0 f1
      (hfi_of_pre m d hpre) (hG_of m d (wid L))) $$ [Hmw Hi' HxA HxB Ho' Hs' Hr0' Hr1' H3 H4 Hc0 Hc1 Hc2 HO]
  · isplitl [Hmw]; · iexact Hmw
    isplitl [Hi']; · iexact Hi'
    isplitl [HxA]; · iexact HxA
    isplitl [HxB]; · iexact HxB
    isplitl [Ho']; · iexact Ho'
    isplitl [Hs']; · iexact Hs'
    isplitl [Hr0']; · iexact Hr0'
    isplitl [Hr1']; · iexact Hr1'
    isplitl [H3]; · iexact H3
    isplitl [H4]; · iexact H4
    isplitl [Hc0]; · iexact Hc0
    isplitl [Hc1]; · iexact Hc1
    isplitl [Hc2]; · iexact Hc2
    iexact HO
  iapply (wp_wand frame _ _) $$ Hwp
  iintro %_ ⟨Hi, HxA, HxB, Ho, ⟨%g, Hs⟩, ⟨%t0, Hr0⟩, ⟨%t1, Hr1⟩, H3, H4, Hc0, Hc1, Hc2, HW⟩
  isplitl [Hi HxA HxB Ho]
  · isplitl [Hi]; · iapply (Entails.of_eq (pts_iSlab (F := F) d L _)); iexact Hi
    isplitl [HxA]; · iexact HxA
    isplitl [HxB]; · iexact HxB
    iapply (Entails.of_eq (pts_chunks (F := F) d L _)); iexact Ho
  isplitl [Hs Hr0 Hr1 Hbufs]
  · isplitl [Hs]; · iexists _; iapply (Entails.of_eq (pts_sV (F := F) d L _)); iexact Hs
    isplitl [Hr0]; · iexists _; iapply (Entails.of_eq (pts_r0V (F := F) d L _)); iexact Hr0
    isplitl [Hr1]; · iexists _; iapply (Entails.of_eq (pts_r1V (F := F) d L _)); iexact Hr1
    iexact Hbufs
  isplitl [H3 H4 Hc0 Hc1 Hc2 Hsems]
  · isplitl [H3]; · iexact H3
    isplitl [H4]; · iexact H4
    isplitl [Hc0]; · iexact Hc0
    isplitl [Hc1]; · iexact Hc1
    isplitl [Hc2]; · iexact Hc2
    iexact Hsems
  iexact HW

/-! ## The obligation -/

theorem defs₀_vector (c : Fin τ.nSC) (s : Fin τ.nSub) :
    defs₀ (F := F) (.scVector c s) 0 ()
      = SparseCore.onTile hcore0 hsub0 (fun c s => cc0__gather_kernel (coordsV c s)
          iV (Memref.isWhole_whole _) xV (Memref.isWhole_whole _) oV (Memref.isWhole_whole _)
          sV (Memref.isWhole_whole _) r0V (Memref.isWhole_whole _) r1V (Memref.isWhole_whole _)
          cc0_scratch3 cc0_scratch4 cc0_scoped0 cc0_scoped1 cc0_scoped2) ⟨⟩ c s := rfl

omit [FloatOps F] in
/-- A wait the task leaves pending that is the launch's own or carries no round is in particular one the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The vector-subcore kernel's obligation from the body's run: on every device, SparseCore and subcore, the task of
    the worker there. -/
theorem tileObl_of (hrun : TileRun (F := F)) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hrun facts hpre O W hO).trans (wp_mono frame _ _ fun _ => obl_post)

/-- The vector-subcore kernel's obligation: the body's run is proved, so the obligation holds. -/
theorem tileObl (hpre : PreOK m) : (K (F := F)).TileObl (D (F := F)) 𝒱 (P m) v₀ 0 :=
  tileObl_of m tile_run hpre

end Tile

end Cert.Proof.SideIdeal

end
-- ==== Proof.SideBits.Common.lean ====
/-
  The embedding lookup's SparseCore program as its launch sees it, and the buffers in the body's own spelling.

  Thirty-two workers (two SparseCores of sixteen vector subcores; worker number 2·subcore + core) each copy their
  [200, 128] slab of the index array into their own memory and then fetch, chunk by chunk, the 128 table rows a chunk's
  words name, writing each fetched [128, 128] block to the worker's place in the result. This module fixes the names:
  the threads' configuration, the ghost state (the handshakes' rounds beside the local transfers' counters), the arrays
  as each thread addresses them, and the closed forms of the worker's slab and chunk rectangles.
-/
import proofs.«203453_g50448685858838_cont_8to1c4_102_16_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203453_g50448685858838_cont_8to1c4_102_16_alg».proof.Proof.Gen.Kernel
import proofs.«203453_g50448685858838_cont_8to1c4_102_16_alg».proof.Proof.Gen.Kernel.Skeleton
import proofs.«203453_g50448685858838_cont_8to1c4_102_16_alg».proof.Proof.Spec

noncomputable section

namespace Cert.Proof.SideBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the local transfers' counters -/

abbrev UH : Type := URounds (GSem nD τ sig) ℕ
abbrev UU : Type := UH × Counters

abbrev 𝕄T (F : FTy → Type) : Type := MT nD τ sig (HIx 1) (Elt F) ℕ UU ℕ

abbrev EH : Emb UH (MT nD τ sig (HIx 1) (Elt F) ℕ UU ℕ) := embL

/-! ## The arrays, as the TensorCore and as a vector subcore name them -/

abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The index array as the workers read it, whole. -/
abbrev iV : Memref sig .scVector .hbm S32x200x128 .i32 := Memref.whole main_v0_scv
/-- The table, whole. -/
abbrev xV : Memref sig .scVector .hbm S1000000x128 .f32 := Memref.whole main_arg1_scv
/-- The result as the workers write it, whole. -/
abbrev oV : Memref sig .scVector .hbm S32x200x128x128 .f32 := Memref.whole main_v1_scv
/-- A worker's copy of its index slab. -/
abbrev sV : Memref sig .scVector .vmem S200x128 .i32 := Memref.whole cc0_scratch0
/-- The two row buffers. -/
abbrev r0V : Memref sig .scVector .vmem S128x128 .f32 := Memref.whole cc0_scratch1
abbrev r1V : Memref sig .scVector .vmem S128x128 .f32 := Memref.whole cc0_scratch2

/-! ## A worker's coordinates -/

abbrev cV (L : grid0.Coords) : Fin τ.nSC := (L 0).castLE hcore0
abbrev jV (L : grid0.Coords) : Fin τ.nSub := (L 1).castLE hsub0
/-- The vector subcore that runs worker `L`. -/
abbrev VT (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

/-- Worker `L`'s number: twice the subcore plus the core. -/
def wid (L : grid0.Coords) : Fin 32 := ⟨2 * (L 1).val + (L 0).val, by have h1 : (L 1).val < 16 := (L 1).isLt; have h0 : (L 0).val < 2 := (L 0).isLt; omega⟩

/-! ## The worker's slab of the index array and its chunks of the result, in the body's spelling -/

/-- Worker `L`'s slab of the index array, as the body slices it. -/
abbrev iSlab (L : grid0.Coords) : Memref sig .scVector .hbm S200x128 .i32 :=
  ((iV).slice (Rect.unit (s := S32x200x128) (k0_off1 L) S1x200x128.size (k0_off1_inb L)) (fun _ => rfl)).squeeze S200x128 squeezes_S1x200x128_S200x128
/-- The table, as the body slices it (the whole of it). -/
abbrev xAll : Memref sig .scVector .hbm S1000000x128 .f32 :=
  (xV).slice (Rect.unit (s := S1000000x128) ![0, 0] S1000000x128.size inb_S1000000x128_S1000000x128_0_0) (fun _ => rfl)
/-- Worker `L`'s even chunk of trip `k` in the result. -/
abbrev oEven (L : grid0.Coords) (k : Fin k0_t1_loop.trips) : Memref sig .scVector .hbm S128x128 .f32 :=
  ((oV).slice (Rect.unit (s := S32x200x128x128) (k0_off4 L k) S1x1x128x128.size (k0_off4_inb L k)) (fun _ => rfl)).squeeze S128x128 squeezes_S1x1x128x128_S128x128
/-- Worker `L`'s odd chunk of trip `k` in the result. -/
abbrev oOdd (L : grid0.Coords) (k : Fin k0_t1_loop.trips) : Memref sig .scVector .hbm S128x128 .f32 :=
  ((oV).slice (Rect.unit (s := S32x200x128x128) (k0_off6 L k) S1x1x128x128.size (k0_off6_inb L k)) (fun _ => rfl)).squeeze S128x128 squeezes_S1x1x128x128_S128x128

/-- The worker's whole slab of the result: its 200 chunks. -/
def oSlabOff (L : grid0.Coords) : Fin 4 → Nat := ![(wid L).val, 0, 0, 0]
abbrev S1x200x128x128 : Shape := ⟨4, ![1, 200, 128, 128]⟩
theorem oSlabOff_inb (L : grid0.Coords) : ∀ a, oSlabOff L a + S1x200x128x128.size a ≤ S32x200x128x128.size a := by
  have := (wid L).isLt
  intro a; match a with
  | 0 => show (wid L).val + 1 ≤ 32; omega
  | 1 => show 0 + 200 ≤ 200; omega
  | 2 => show 0 + 128 ≤ 128; omega
  | 3 => show 0 + 128 ≤ 128; omega
abbrev oSlabRect (L : grid0.Coords) : Rect S32x200x128x128 := Rect.unit (s := S32x200x128x128) (oSlabOff L) S1x200x128x128.size (oSlabOff_inb L)
/-- The elements of the worker's slab of the result. -/
abbrev oSlabSet (L : grid0.Coords) : Finset S32x200x128x128.Idx := ((oV).view.slice (oSlabRect L)).set

end Cert.Proof.SideBits

end
-- ==== Proof.SideBits.Pay.lean ====
/-
  What the one SparseCore call carries, and the values the certificate names.

  `I3 m d` is the index array as the workers read it (the first reshape's result), `G4m m d` the rows every worker
  will have written (the lookup laid out worker, chunk, lane, entry), `RES m d` the result after the second reshape.
  Worker w (w = 2·subcore + core) is handed its slab of the index array, two read shares of the table (one per row
  buffer's semaphore), and its slab of the result at whatever it holds; it hands the same back with its slab of the
  result at the lookup. A SparseCore's operands are already its sixteen workers' side by side, so the split among the
  workers is the identity.
-/
import proofs.«203453_g50448685858838_cont_8to1c4_102_16_alg».proof.Proof.SideBits.Common

noncomputable section

namespace Cert.Proof.SideBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The values -/

/-- The index array as the workers read it: the launch's index array under the first reshape. -/
def I3 (d : Dev nD) : Buf (Elt F) (iLoc d) :=
  fun i => shapeCast S32x200x128 (m (aLoc d)) shapeCasts_S4096x200_S32x200x128 i
/-- The rows the workers write: the lookup, laid out worker, chunk, lane, entry. -/
def G4m (d : Dev nD) : Buf (Elt F) (oLoc d) := Cert.Spec.G4 (I3 m d) (m (xLoc d))
/-- The program's result: those rows under the second reshape. -/
def RES (d : Dev nD) : Buf (Elt F) (rLoc d) :=
  fun i => shapeCast S4096x200x128 (G4m m d) shapeCasts_S32x200x128x128_S4096x200x128 i

/-- What the proof asks of the launch memory: every index word names a row of the table. -/
def PreOK : Prop := ∀ d : Dev nD, Cert.Spec.InRange (m (aLoc d))

/-! ## The workers' slabs and shares -/

theorem idiv : 32 ∣ S32x200x128.size 0 := ⟨1, rfl⟩
theorem odiv : 32 ∣ S32x200x128x128.size 0 := ⟨1, rfl⟩
/-- Worker `w`'s slab of the index array, and of the result. -/
abbrev iPart (w : Fin 32) : Finset S32x200x128.Idx := ((iV).view.slice (Rect.part (s := S32x200x128) (a₀ := 0) idiv w)).set
abbrev oPart (w : Fin 32) : Finset S32x200x128x128.Idx := ((oV).view.slice (Rect.part (s := S32x200x128x128) (a₀ := 0) odiv w)).set
/-- The table's read shares: two per worker. -/
abbrev xTok (n : ℕ) : PosShare TreeShare := Transfers.shareTokN fullShare n

/-- The worker on subcore `s` of SparseCore `c`. -/
def wOf (c : Fin 2) (s : Fin 16) : Fin 32 := ⟨2 * s.val + c.val, by omega⟩

/-- What worker `w` is handed: its index slab, its two shares of the table, its slab of the result at some contents. -/
def GO (d : Dev nD) (w : Fin 32) : sProp 𝕄 :=
  iprop((iLoc d ↦[iPart w]{fullShare} I3 m d) ∗ (xLoc d ↦{xTok (2 * w.val)} m (xLoc d)) ∗ (xLoc d ↦{xTok (2 * w.val + 1)} m (xLoc d))
    ∗ ∃ f, oLoc d ↦[oPart w]{fullShare} f)
/-- What worker `w` hands back: the same, its slab of the result at the lookup. -/
def TD (d : Dev nD) (w : Fin 32) : sProp 𝕄 :=
  iprop((iLoc d ↦[iPart w]{fullShare} I3 m d) ∗ (xLoc d ↦{xTok (2 * w.val)} m (xLoc d)) ∗ (xLoc d ↦{xTok (2 * w.val + 1)} m (xLoc d))
    ∗ oLoc d ↦[oPart w]{fullShare} G4m m d)

/-- The one call: a SparseCore is handed its sixteen workers' pieces side by side and hands them back so. -/
def P : (K (F := F)).Pay (nD := nD) (Val := Elt F) (Name := ℕ) (U := UU) where
  st := fun q d c => match q with | 0 => bigSep Finset.univ fun s : Fin 16 => GO m d (wOf (Fin.cast nCore_zero c) s)
  dn := fun q d c => match q with | 0 => bigSep Finset.univ fun s : Fin 16 => TD m d (wOf (Fin.cast nCore_zero c) s)
  go := fun q d c i => match q with | 0 => GO m d (wOf (Fin.cast nCore_zero c) (Fin.cast nSub_zero i))
  td := fun q d c i => match q with | 0 => TD m d (wOf (Fin.cast nCore_zero c) (Fin.cast nSub_zero i))
  x := fun _ _ => iprop(emp)

end Cert.Proof.SideBits

end
-- ==== Proof.SideBits.Launch.lean ====
/-
  The launch of the lookup's SparseCore program: from one vector subcore's task (a hypothesis here) to the run of the
  whole program, at any float arithmetic.

  @main on a device's TensorCore reshapes the index array [4096, 200] to [32, 200, 128], calls the two SparseCores,
  and reshapes the rows [32, 200, 128, 128] to the result [4096, 200, 128]. Around the call the three arrays the
  vector subcores touch are dealt out and collected again:

  * the reshaped index array and the rows are each the disjoint union of thirty-two slabs along their first axis, so a
    points-to of the whole array is the separating conjunction of the slabs' (the rows' slabs before the call at
    whatever they hold, after it all at the one lookup function, so they join to the whole array at the lookup);
  * the table, which every vector subcore reads whole, goes out as sixty-four read shares, two per vector subcore
    (shares 2w and 2w + 1 to number w), a remainder staying with the TensorCore; sixty-four in a row are thirty-two
    pairs because (w, b) ↦ 2w + b is a bijection from [0, 32) × [0, 2) onto [0, 64);
  * the thirty-two vector subcores are the sixteen of SparseCore 0 and the sixteen of SparseCore 1, number 2s + c for
    subcore s of SparseCore c: (s, c) ↦ 2s + c is a bijection from [0, 16) × [0, 2) onto [0, 32), so a separating
    conjunction over the numbers is one over the SparseCores of one over their subcores. A SparseCore's operands are
    already its sixteen tasks' side by side, so its own split among its tasks is the identity.

  The two reshapes are host operations over the TensorCore's five arrays held whole; each leaves every array but its
  result as it was. At the end the two arguments are at their launch contents and the result holds the lookup laid out
  [32, 200, 128, 128] and reshaped; the final memory agrees with these points-tos.
-/
import proofs.«203453_g50448685858838_cont_8to1c4_102_16_alg».proof.Proof.SideBits.Pay

noncomputable section

namespace Cert.Proof.SideBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The payload is storable -/

omit [FloatOps F] in
instance GO_storable (d : Dev nD) (w : Fin 32) : BI.Storable (upEmb : UEmb _ 𝕄) (GO m d w) := by
  unfold GO; infer_instance
omit [FloatOps F] in
instance TD_storable (d : Dev nD) (w : Fin 32) : BI.Storable (upEmb : UEmb _ 𝕄) (TD m d w) := by
  unfold TD; infer_instance

omit [FloatOps F] in
instance P_storable : (P (F := F) m).IsStorable where
  st q d c := match q with
    | 0 => (inferInstance : BI.Storable (upEmb : UEmb _ 𝕄) (bigSep Finset.univ fun s : Fin 16 => GO m d (wOf (Fin.cast nCore_zero c) s)))
  dn q d c := match q with
    | 0 => (inferInstance : BI.Storable (upEmb : UEmb _ 𝕄) (bigSep Finset.univ fun s : Fin 16 => TD m d (wOf (Fin.cast nCore_zero c) s)))
  go q d c i := match q with
    | 0 => (inferInstance : BI.Storable (upEmb : UEmb _ 𝕄) (GO m d (wOf (Fin.cast nCore_zero c) (Fin.cast nSub_zero i))))
  td q d c i := match q with
    | 0 => (inferInstance : BI.Storable (upEmb : UEmb _ 𝕄) (TD m d (wOf (Fin.cast nCore_zero c) (Fin.cast nSub_zero i))))

/-! ## A SparseCore's operands are its sixteen tasks' side by side -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem vecSplit : (K (F := F)).VecSplit' (P m) 0 := by
  intro d c
  show (bigSep Finset.univ fun s : Fin 16 => GO m d (wOf (Fin.cast nCore_zero c) s)) ⊢ |={Set.univ}=> iprop(
      (bigSep Finset.univ fun i : Fin ((K (F := F)).nSub 0) => GO m d (wOf (Fin.cast nCore_zero c) (Fin.cast nSub_zero i)))
      ∗ ((bigSep Finset.univ fun i : Fin ((K (F := F)).nSub 0) => TD m d (wOf (Fin.cast nCore_zero c) (Fin.cast nSub_zero i)))
          -∗ (bigSep Finset.univ fun s : Fin 16 => TD m d (wOf (Fin.cast nCore_zero c) s))))
  rw [bigSep_tasks (F := F) (fun s => GO m d (wOf (Fin.cast nCore_zero c) s)),
    bigSep_tasks (F := F) (fun s => TD m d (wOf (Fin.cast nCore_zero c) s))]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The slabs split and join; the table's read shares; the vector subcores regrouped by SparseCore -/

omit [FloatOps F] in
theorem iPart_eq (w : Fin 32) : iPart w = (Rect.part (s := S32x200x128) (a₀ := 0) idiv w).set := by
  show ((View.whole (main_v0_scv : Ref sig .scVector)).slice (Rect.part (s := S32x200x128) (a₀ := 0) idiv w)).set = _
  rw [View.set_slice]; exact Finset.map_refl
omit [FloatOps F] in
theorem oPart_eq (w : Fin 32) : oPart w = (Rect.part (s := S32x200x128x128) (a₀ := 0) odiv w).set := by
  show ((View.whole (main_v1_scv : Ref sig .scVector)).slice (Rect.part (s := S32x200x128x128) (a₀ := 0) odiv w)).set = _
  rw [View.set_slice]; exact Finset.map_refl
omit [FloatOps F] in
theorem iParts_disjoint : ∀ i ∈ (Finset.univ : Finset (Fin 32)), ∀ j ∈ (Finset.univ : Finset (Fin 32)), i ≠ j → Disjoint (iPart i) (iPart j) :=
  fun i _ j _ h => by rw [iPart_eq, iPart_eq]; exact Rect.part_disjoint idiv h
omit [FloatOps F] in
theorem oParts_disjoint : ∀ i ∈ (Finset.univ : Finset (Fin 32)), ∀ j ∈ (Finset.univ : Finset (Fin 32)), i ≠ j → Disjoint (oPart i) (oPart j) :=
  fun i _ j _ h => by rw [oPart_eq, oPart_eq]; exact Rect.part_disjoint odiv h
omit [FloatOps F] in
theorem iParts_cover : (Finset.univ : Finset (Fin 32)).biUnion iPart = Finset.univ :=
  (Finset.biUnion_congr rfl fun i _ => iPart_eq i).trans (Rect.biUnion_part idiv)
omit [FloatOps F] in
theorem oParts_cover : (Finset.univ : Finset (Fin 32)).biUnion oPart = Finset.univ :=
  (Finset.biUnion_congr rfl fun i _ => oPart_eq i).trans (Rect.biUnion_part odiv)

omit [FloatOps F] in
/-- The index array whole is its thirty-two slabs. -/
theorem iPts_parts (d : Dev nD) (f : Buf (Elt F) (iLoc d)) :
    (iLoc d ↦{fullShare} f : sProp 𝕄) = bigSep Finset.univ fun w : Fin 32 => iLoc d ↦[iPart w]{fullShare} f := by
  rw [← pointsTo_biUnion Finset.univ (ℓ := iLoc d) iPart iParts_disjoint, iParts_cover]; try rfl
omit [FloatOps F] in
/-- The result whole is its thirty-two slabs. -/
theorem oPts_parts (d : Dev nD) (f : Buf (Elt F) (oLoc d)) :
    (oLoc d ↦{fullShare} f : sProp 𝕄) = bigSep Finset.univ fun w : Fin 32 => oLoc d ↦[oPart w]{fullShare} f := by
  rw [← pointsTo_biUnion Finset.univ (ℓ := oLoc d) oPart oParts_disjoint, oParts_cover]; try rfl

omit [FloatOps F] in
/-- Sixty-four things in a row are thirty-two pairs. -/
theorem bigSep_pairs (Ψ : ℕ → sProp 𝕄) :
    (bigSep Finset.univ fun i : Fin 64 => Ψ i.val)
      = iprop((bigSep Finset.univ fun w : Fin 32 => Ψ (2 * w.val)) ∗ bigSep Finset.univ fun w : Fin 32 => Ψ (2 * w.val + 1)) := by
  rw [← bigSep_sep', bigSep_univ_equiv (finProdFinEquiv : Fin 32 × Fin 2 ≃ Fin 64) (fun i => Ψ i.val), bigSep_univ_prod]
  refine bigSep_congr fun w _ => ?_
  rw [bigSep_univ_two]
  congr 1 <;> congr 1 <;> simp [finProdFinEquiv] <;> omega

omit [FloatOps F] in
/-- The thirty-two vector subcores, by SparseCore and subcore. -/
theorem bigSep_byCore (Φ : Fin 32 → sProp 𝕄) :
    (bigSep Finset.univ fun c : Fin 2 => bigSep Finset.univ fun s : Fin 16 => Φ (wOf c s)) = bigSep Finset.univ Φ := by
  rw [bigSep_univ_comm, bigSep_univ_equiv (finProdFinEquiv : Fin 16 × Fin 2 ≃ Fin 32) Φ, bigSep_univ_prod]
  refine bigSep_congr fun s _ => bigSep_congr fun c _ => congrArg Φ (Fin.ext ?_)
  simp [wOf, finProdFinEquiv]; omega

omit [FloatOps F] in
/-- What the call hands the two SparseCores is what the thirty-two vector subcores are handed. -/
theorem st_all (d : Dev nD) :
    (bigSep Finset.univ fun c : Fin ((K (F := F)).nCore 0) => (P m).st 0 d c) = bigSep Finset.univ fun w : Fin 32 => GO m d w := by
  show (bigSep Finset.univ fun c : Fin ((K (F := F)).nCore 0) => bigSep Finset.univ fun s : Fin 16 => GO m d (wOf (Fin.cast nCore_zero c) s)) = _
  rw [bigSep_cores (F := F) (fun c => bigSep Finset.univ fun s : Fin 16 => GO m d (wOf c s)), bigSep_byCore (fun w => GO m d w)]
omit [FloatOps F] in
/-- What the two SparseCores hand back is what the thirty-two vector subcores hand back. -/
theorem dn_all (d : Dev nD) :
    (bigSep Finset.univ fun c : Fin ((K (F := F)).nCore 0) => (P m).dn 0 d c) = bigSep Finset.univ fun w : Fin 32 => TD m d w := by
  show (bigSep Finset.univ fun c : Fin ((K (F := F)).nCore 0) => bigSep Finset.univ fun s : Fin 16 => TD m d (wOf (Fin.cast nCore_zero c) s)) = _
  rw [bigSep_cores (F := F) (fun c => bigSep Finset.univ fun s : Fin 16 => TD m d (wOf c s)), bigSep_byCore (fun w => TD m d w)]

/-- The table's share that stays with the TensorCore while the sixty-four read shares are out. -/
abbrev xRest : PosShare TreeShare := Transfers.shareDrop fullShare 64

omit [FloatOps F] in
/-- The table whole is the share that stays and two read shares per vector subcore. -/
theorem xPts_toks (d : Dev nD) (f : Buf (Elt F) (xLoc d)) :
    (xLoc d ↦{fullShare} f : sProp 𝕄) ⊣⊢ iprop((xLoc d ↦{xRest} f) ∗ (bigSep Finset.univ fun w : Fin 32 => xLoc d ↦{xTok (2 * w.val)} f)
      ∗ bigSep Finset.univ fun w : Fin 32 => xLoc d ↦{xTok (2 * w.val + 1)} f) := by
  rw [← bigSep_pairs (fun n => (xLoc d ↦{xTok n} f : sProp 𝕄))]
  exact Transfers.pointsTo_toks fullShare 64

omit [FloatOps F] in
/-- The vector subcores' pieces, family by family. -/
theorem GO_all (d : Dev nD) :
    (bigSep Finset.univ fun w : Fin 32 => GO m d w)
      = iprop((iLoc d ↦{fullShare} I3 m d) ∗ (bigSep Finset.univ fun w : Fin 32 => xLoc d ↦{xTok (2 * w.val)} m (xLoc d))
        ∗ (bigSep Finset.univ fun w : Fin 32 => xLoc d ↦{xTok (2 * w.val + 1)} m (xLoc d))
        ∗ bigSep Finset.univ fun w : Fin 32 => iprop(∃ f, oLoc d ↦[oPart w]{fullShare} f)) := by
  unfold GO
  rw [bigSep_sep', bigSep_sep', bigSep_sep', ← iPts_parts]
omit [FloatOps F] in
theorem TD_all (d : Dev nD) :
    (bigSep Finset.univ fun w : Fin 32 => TD m d w)
      = iprop((iLoc d ↦{fullShare} I3 m d) ∗ (bigSep Finset.univ fun w : Fin 32 => xLoc d ↦{xTok (2 * w.val)} m (xLoc d))
        ∗ (bigSep Finset.univ fun w : Fin 32 => xLoc d ↦{xTok (2 * w.val + 1)} m (xLoc d))
        ∗ (oLoc d ↦{fullShare} G4m m d)) := by
  unfold TD
  rw [bigSep_sep', bigSep_sep', bigSep_sep', ← iPts_parts, ← oPts_parts]

omit [FloatOps F] in
/-- Before the call: the three arrays whole, the result at anything, are the share of the table that stays and the
    vector subcores' pieces. -/
theorem deal (d : Dev nD) :
    iprop((iLoc d ↦{fullShare} I3 m d) ∗ (xLoc d ↦{fullShare} m (xLoc d)) ∗ ∃ f, oLoc d ↦{fullShare} f)
      ⊢ (iprop((xLoc d ↦{xRest} m (xLoc d)) ∗ bigSep Finset.univ fun w : Fin 32 => GO m d w) : sProp 𝕄) := by
  rw [GO_all]
  iintro ⟨Hi, Hx, ⟨%f, Ho⟩⟩
  ihave Hx' := (xPts_toks (F := F) d (m (xLoc d))).1 $$ Hx
  icases Hx' with ⟨Hr, H0, H1⟩
  isplitl [Hr]; · iexact Hr
  isplitl [Hi]; · iexact Hi
  isplitl [H0]; · iexact H0
  isplitl [H1]; · iexact H1
  ihave Ho' := (Entails.of_eq (oPts_parts (F := F) d f)) $$ Ho
  have hone : ∀ w : Fin 32, (oLoc d ↦[oPart w]{fullShare} f : sProp 𝕄) ⊢ iprop(∃ f, oLoc d ↦[oPart w]{fullShare} f) := by
    intro w; iintro H; iexists f; iexact H
  have hmono : (bigSep Finset.univ fun w : Fin 32 => (oLoc d ↦[oPart w]{fullShare} f : sProp 𝕄))
      ⊢ bigSep Finset.univ fun w : Fin 32 => iprop(∃ f, oLoc d ↦[oPart w]{fullShare} f) :=
    bigSep_mono fun w _ => hone w
  iapply hmono; iexact Ho'

omit [FloatOps F] in
/-- After the call: the share that stayed and the vector subcores' pieces are the three arrays whole, the result at the lookup. -/
theorem collect (d : Dev nD) :
    (iprop((xLoc d ↦{xRest} m (xLoc d)) ∗ bigSep Finset.univ fun w : Fin 32 => TD m d w) : sProp 𝕄)
      ⊢ iprop((iLoc d ↦{fullShare} I3 m d) ∗ (xLoc d ↦{fullShare} m (xLoc d)) ∗ oLoc d ↦{fullShare} G4m m d) := by
  rw [TD_all]
  iintro ⟨Hr, Hi, H0, H1, Ho⟩
  isplitl [Hi]; · iexact Hi
  isplitr [Ho]
  · iapply (xPts_toks (F := F) d (m (xLoc d))).2
    isplitl [Hr]; · iexact Hr
    isplitl [H0]; · iexact H0
    iexact H1
  iexact Ho

/-! ## @main on the TensorCore -/

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two reshapes. -/
abbrev opIn : HloOp τ sig (Elt F) := StableHlo.reshape main_arg0 main_v0 rfl shapeCasts_S4096x200_S32x200x128
abbrev opOut : HloOp τ sig (Elt F) := StableHlo.reshape main_v1 main_v2 rfl shapeCasts_S32x200x128x128_S4096x200x128

/-- The TensorCore's arrays, all unscoped. -/
abbrev S5 : Finset (DevRef τ sig) := {a', x', i', o', r'}

omit [FloatOps F] in
theorem held_S5 (d : Dev nD) (W : Valuation τ sig (Elt F)) :
    (held (T d) S5 W : sProp 𝕄)
      = iprop((aLoc d ↦{fullShare} W a') ∗ (xLoc d ↦{fullShare} W x') ∗ (iLoc d ↦{fullShare} W i')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_arg1) ∗ (iLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first reshape; after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (G4m m d)

omit [FloatOps F] in
theorem unscoped_held (d : Dev nD) : (unscopedBufs d (fun b => m ((SparseCore.T d).loc b)) : sProp 𝕄) = held (T d) S5 (V0 m d) := by
  rw [unscopedBufs_eq, held_S5]; rfl

omit [FloatOps F] in
theorem V1_a (d : Dev nD) : V1 m d a' = m (aLoc d) :=
  (opIn (F := F)).result_of_not_mem _ (show a' ∉ ({i'} : Finset (DevRef τ sig)) by decide)
omit [FloatOps F] in
theorem V1_x (d : Dev nD) : V1 m d x' = m (xLoc d) :=
  (opIn (F := F)).result_of_not_mem _ (show x' ∉ ({i'} : Finset (DevRef τ sig)) by decide)
omit [FloatOps F] in
theorem V1_o (d : Dev nD) : V1 m d o' = m (oLoc d) :=
  (opIn (F := F)).result_of_not_mem _ (show o' ∉ ({i'} : Finset (DevRef τ sig)) by decide)
omit [FloatOps F] in
theorem V1_r (d : Dev nD) : V1 m d r' = m (rLoc d) :=
  (opIn (F := F)).result_of_not_mem _ (show r' ∉ ({i'} : Finset (DevRef τ sig)) by decide)
omit [FloatOps F] in
theorem V1_i (d : Dev nD) : V1 m d i' = I3 m d :=
  (StableHlo.reshape_result main_arg0 main_v0 rfl shapeCasts_S4096x200_S32x200x128 ⟨by decide, rfl⟩ ⟨by decide, rfl⟩ (V0 m d)).trans rfl

omit [FloatOps F] in
theorem V2_a (d : Dev nD) : V2 m d a' = m (aLoc d) := (Function.update_of_ne (show a' ≠ o' by decide) _ _).trans (V1_a m d)
omit [FloatOps F] in
theorem V2_x (d : Dev nD) : V2 m d x' = m (xLoc d) := (Function.update_of_ne (show x' ≠ o' by decide) _ _).trans (V1_x m d)
omit [FloatOps F] in
theorem V2_i (d : Dev nD) : V2 m d i' = I3 m d := (Function.update_of_ne (show i' ≠ o' by decide) _ _).trans (V1_i m d)
omit [FloatOps F] in
theorem V2_o (d : Dev nD) : V2 m d o' = G4m m d := Function.update_self _ _ _
omit [FloatOps F] in
theorem V2_r (d : Dev nD) : V2 m d r' = m (rLoc d) := (Function.update_of_ne (show r' ≠ o' by decide) _ _).trans (V1_r m d)

omit [FloatOps F] in
/-- The five arrays after the first reshape: the index array reshaped, the rest at their launch contents. -/
theorem held_V1 (d : Dev nD) :
    (held (T d) S5 ((opIn (F := F)).result (V0 m d)) : sProp 𝕄)
      = iprop((aLoc d ↦{fullShare} m (aLoc d)) ∗ (xLoc d ↦{fullShare} m (xLoc d)) ∗ (iLoc d ↦{fullShare} I3 m d)
          ∗ (oLoc d ↦{fullShare} m (oLoc d)) ∗ rLoc d ↦{fullShare} m (rLoc d)) := by
  show held (SparseCore.T d) S5 (V1 m d) = _
  rw [held_S5, V1_a, V1_x, V1_i, V1_o, V1_r]

omit [FloatOps F] in
theorem V3_a (d : Dev nD) : (opOut (F := F)).result (V2 m d) a' = m (aLoc d) :=
  ((opOut (F := F)).result_of_not_mem _ (show a' ∉ ({r'} : Finset (DevRef τ sig)) by decide)).trans (V2_a m d)
omit [FloatOps F] in
theorem V3_x (d : Dev nD) : (opOut (F := F)).result (V2 m d) x' = m (xLoc d) :=
  ((opOut (F := F)).result_of_not_mem _ (show x' ∉ ({r'} : Finset (DevRef τ sig)) by decide)).trans (V2_x m d)
omit [FloatOps F] in
theorem V3_r (d : Dev nD) : (opOut (F := F)).result (V2 m d) r' = RES m d := by
  refine (StableHlo.reshape_result main_v1 main_v2 rfl shapeCasts_S32x200x128x128_S4096x200x128 ⟨by decide, rfl⟩ ⟨by decide, rfl⟩ (V2 m d)).trans ?_
  show (fun i => shapeCast S4096x200x128 (V2 m d o') shapeCasts_S32x200x128x128_S4096x200x128 i) = RES m d
  rw [V2_o]; rfl

omit [FloatOps F] in
/-- The five arrays after the second reshape. -/
theorem held_V3 (d : Dev nD) :
    (held (T d) S5 ((opOut (F := F)).result (V2 m d)) : sProp 𝕄)
      = iprop((aLoc d ↦{fullShare} m (aLoc d)) ∗ (xLoc d ↦{fullShare} m (xLoc d)) ∗ (iLoc d ↦{fullShare} (opOut (F := F)).result (V2 m d) i')
          ∗ (oLoc d ↦{fullShare} (opOut (F := F)).result (V2 m d) o') ∗ rLoc d ↦{fullShare} RES m d) := by
  rw [held_S5, V3_a, V3_x, V3_r]

omit [FloatOps F] in
theorem hIn : (opIn (F := F)).bufs ⊆ S5 := show ({a', i'} : Finset (DevRef τ sig)) ⊆ S5 by decide
omit [FloatOps F] in
theorem hOut : (opOut (F := F)).bufs ⊆ S5 := show ({o', r'} : Finset (DevRef τ sig)) ⊆ S5 by decide

/-- What @main leaves the claim: the two arguments at their launch contents, the result at the lookup reshaped. -/
abbrev FIN (d : Dev nD) : sProp 𝕄 :=
  iprop((aLoc d ↦{fullShare} m (aLoc d)) ∗ (xLoc d ↦{fullShare} m (xLoc d)) ∗ (rLoc d ↦{fullShare} RES m d))

set_option maxRecDepth 16384 in
/-- @main on device `d`'s TensorCore: the first reshape, the call (the index array's and the result's slabs and the
    table's read shares dealt to the vector subcores and collected again), the second reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hx, Hi, Ho, Hr⟩
  -- the call: the vector subcores' pieces out, and back
  ihave Hd := (deal m d) $$ [Hi Hx Ho]
  · isplitl [Hi]; · iexact Hi
    isplitl [Hx]; · iexact Hx
    iexists _; iexact Ho
  icases Hd with ⟨Hxr, Hgo⟩
  iapply ((K (F := F)).wp_run (D (F := F)) 𝒱 (EH := EH) (P := P m) κ d 0) $$ [Hst Hgo Hb Ha Hxr Hr]
  isplitr; · iexact Hctx
  isplitl [Hst]; · iexact Hst
  isplitl [Hgo]
  · rw [st_all]; iexact Hgo
  iintro ⟨Hst, Hdn⟩
  ihave Hdn' := (Entails.of_eq (dn_all m d)) $$ Hdn
  ihave Hc := (collect m d) $$ [Hxr Hdn']
  · isplitl [Hxr] <;> iassumption
  icases Hc with ⟨Hi, Hx, Ho⟩
  -- the second reshape
  iapply (wp_hlo_within 𝒱 (SparseCore.T d) none Set.univ (op := opOut) (S := S5) hOut (V := V2 m d)) $$ [Hb Ha Hx Hi Ho Hr]
  · isplitl [Hb]; · iexact Hb
    rw [held_S5, V2_a, V2_x, V2_i, V2_o, V2_r]
    isplitl [Ha]; · iexact Ha
    isplitl [Hx]; · iexact Hx
    isplitl [Hi]; · iexact Hi
    isplitl [Ho]; · iexact Ho
    iexact Hr
  iintro ⟨Hb, Hheld⟩
  ihave Hh := (Entails.of_eq (held_V3 (F := F) m d)) $$ Hheld
  icases Hh with ⟨Ha, Hx, -, -, Hr⟩
  rw [wp_ret]; imodintro; imodintro
  isplitl [Hst]; · iexact Hst
  isplitl [Ha]; · iexact Ha
  isplitl [Hx]; · iexact Hx
  iexact Hr

/-! ## The final memory, read -/

def fq (d : Dev nD) (s' : Phys nD τ sig (Elt F)) : Prop :=
  s'.mem.mem (aLoc d) = m (aLoc d) ∧ s'.mem.mem (xLoc d) = m (xLoc d) ∧ s'.mem.mem (rLoc d) = RES m d

set_option maxRecDepth 16384 in
omit [FloatOps F] in
theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (rLoc c) = RES m c ∧ r.2.mem (aLoc c) = m (aLoc c) ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun _ h c => ⟨(h c).2.2, (h c).1, (h c).2.1⟩)

end Cert.Proof.SideBits

end
-- ==== Proof.SideBits.Final.lean ====
/-
  The run of the lookup's SparseCore program with its result named as a term of the arguments, in the claim's own
  spelling of the buffers.

  * The printed precondition is one bit per device; when it is 1 everywhere every index word of every device, read
    unsigned, is below 1 000 000 (the integer half of the conjunction, read back element by element).
  * The program's result is the rows laid out [32, 200, 128, 128] over the index array reshaped to [32, 200, 128],
    reshaped to [4096, 200, 128]. Reshapes keep row-major order, so the two cancel around the lookup: entry (i, j, l)
    of the result is entry l of the table's row named by the index word at (i, j).
  * The launch's run gives the result buffer at the reshaped rows and the arguments kept; rewriting the result by the
    equation above gives the run the claims are read from.
-/
import proofs.«203453_g50448685858838_cont_8to1c4_102_16_alg».proof.Proof.SideBits.Launch
import proofs.«203453_g50448685858838_cont_8to1c4_102_16_alg».proof.Proof.PreRead
import proofs.«203453_g50448685858838_cont_8to1c4_102_16_alg».proof.Proof.Reshape
import proofs.«203453_g50448685858838_cont_8to1c4_102_16_alg».proof.Proof.Gen.Pre_input_domain

noncomputable section

namespace Cert.Proof.SideBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The precondition, read at the launch memory -/

/-- The printed precondition, all ones on every device, puts every index word of every device in range. -/
theorem preOK_of_pre
    (h : ∀ c : Dev nD, Cert.Pre_input_domain.fn (F := F) (m ((c.tc : Thread nD τ).loc main_arg0)) (m ((c.tc : Thread nD τ).loc main_arg1)) = fun _ => 1#1) :
    PreOK m :=
  fun d => Cert.PreRead.inRange_of_pre (F := F) _ _ (h d)

/-! ## The result, as a term of the arguments -/

omit [FloatOps F] in
/-- The rows laid out [32, 200, 128, 128] over the reshaped index array, reshaped to [4096, 200, 128], are the lookup. -/
theorem RES_eq (d : Dev nD) : RES m d = Cert.Spec.G (m (aLoc d)) (m (xLoc d)) := by
  unfold RES G4m I3
  exact Cert.Spec.G4_reshape (m (aLoc d)) (m (xLoc d)) _ _

/-! ## The program's run, in the claim's spelling -/

/-- The run: the result is the lookup of the launch arguments, which are kept. -/
theorem run_value [∀ e, Nonempty (Elt F e)] (hpre : PreOK m) (htile : (K (F := F)).TileObl (D (F := F)) 𝒱 (P m) v₀ 0) :
    θ_run (Cert.Kernel.defs (F := F)) (Cert.Kernel.threads (F := F)) ⟨m, fun _ => 0, ρ⟩
      (fun r => ∀ c : Dev nD,
        r.2.mem ((c.tc : Thread nD τ).loc main_v2) = Cert.Spec.G (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono (fun _ h c => ⟨(h c).1.trans (RES_eq m c), (h c).2.1, (h c).2.2⟩) (run_main m ρ htile)

end Cert.Proof.SideBits

end
-- ==== Proof.SideBits.Pieces.lean ====
/-
  The pieces a worker's loop moves: the 200 rows of its copy of the index slab, and the 200 chunks of its slab of
  the result.

  Row r of the [200, 128] copy is the rectangle at offset (r, 0) of extent (1, 128); chunk j of worker w's slab of the
  [32, 200, 128, 128] result is the rectangle at offset (w, j, 0, 0) of extent (1, 1, 128, 128). An index lies in row r
  exactly when its first coordinate is r, and in chunk j of worker w exactly when its first two coordinates are (w, j);
  so the rows are pairwise disjoint and cover the copy, and a worker's chunks are pairwise disjoint and cover its slab.
  Trip k of the loop names rows 2k (in flight into the first row buffer), 2k + 1 and 2k + 2, and chunks 2k and 2k + 1;
  the program's own offset chains equal these by their closed forms.
-/
import proofs.«203453_g50448685858838_cont_8to1c4_102_16_alg».proof.Proof.SideBits.Common
import Idealize.ShloMosaic.Lib.Ring

noncomputable section

namespace Cert.Proof.SideBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Rows of the index slab's copy -/

def rowOff (r : Fin 200) : Fin 2 → Nat := ![r.val, 0]
theorem rowOff_inb (r : Fin 200) : ∀ a, rowOff r a + S1x128.size a ≤ S200x128.size a := by
  have := r.isLt
  intro a; match a with
  | 0 => show r.val + 1 ≤ 200; omega
  | 1 => show 0 + 128 ≤ 128; omega
/-- Row `r` of the copy, as the body slices it. -/
def winR (r : Fin 200) : Memref sig .scVector .vmem S128 .i32 :=
  ((sV).slice (Rect.unit (s := S200x128) (rowOff r) S1x128.size (rowOff_inb r)) (fun _ => rfl)).squeeze S128 squeezes_S1x128_S128
/-- A slice of the copy at offsets equal to row `r`'s is row `r`. -/
theorem win_congr {off : Fin 2 → Nat} {r : Fin 200} (e : off = rowOff r) (hh hs) :
    ((sV).slice (Rect.unit (s := S200x128) off S1x128.size hh) hs).squeeze S128 squeezes_S1x128_S128 = winR r :=
  congrArg (fun M : Memref sig .scVector .vmem S1x128 .i32 => M.squeeze S128 squeezes_S1x128_S128) (Memref.slice_unit_congr _ e _ _ _ _)

abbrev rowSet (r : Fin 200) : Finset S200x128.Idx := (Rect.unit (s := S200x128) (rowOff r) S1x128.size (rowOff_inb r)).set
theorem set_winR (r : Fin 200) : (winR r).view.set = rowSet r := (View.set_reshape _ _).trans (View.set_slice_whole _ _)

theorem mem_rowSet (r : Fin 200) (y : S200x128.Idx) : y ∈ rowSet r ↔ (y 0).val = r.val := by
  rw [Rect.mem_set_unit]
  have h1 : (y 1).val < 128 := (y 1).isLt
  constructor
  · intro H; have a0 : r.val ≤ (y 0).val ∧ (y 0).val < r.val + 1 := H 0; omega
  · intro H i; fin_cases i
    · show r.val ≤ (y 0).val ∧ (y 0).val < r.val + 1; omega
    · show 0 ≤ (y 1).val ∧ (y 1).val < 0 + 128; omega
theorem rowSet_disjoint : ∀ r r' : Fin 200, r ≠ r' → Disjoint (rowSet r) (rowSet r') := by
  intro r r' hne; rw [Finset.disjoint_left]; intro y hy hy'; rw [mem_rowSet] at hy hy'; exact hne (Fin.ext (hy.symm.trans hy'))
theorem rowSet_cover : (Finset.univ : Finset (Fin 200)).biUnion rowSet = Finset.univ := by
  ext y; simp only [Finset.mem_biUnion, Finset.mem_univ, true_and, iff_true]; exact ⟨(y 0).cast (by decide), by rw [mem_rowSet]; rfl⟩

/-! ## Chunks of a worker's slab of the result -/

def chOff (L : grid0.Coords) (j : Fin 200) : Fin 4 → Nat := ![2 * (L 1).val + (L 0).val, j.val, 0, 0]
theorem chOff_inb (L : grid0.Coords) (j : Fin 200) : ∀ a, chOff L j a + S1x1x128x128.size a ≤ S32x200x128x128.size a := by
  have h1 : (L 1).val < 16 := (L 1).isLt
  have h0 : (L 0).val < 2 := (L 0).isLt
  have := j.isLt
  intro a; match a with
  | 0 => show 2 * (L 1).val + (L 0).val + 1 ≤ 32; omega
  | 1 => show j.val + 1 ≤ 200; omega
  | 2 => show 0 + 128 ≤ 128; omega
  | 3 => show 0 + 128 ≤ 128; omega
/-- Chunk `j` of worker `L`'s slab of the result, as the body slices it. -/
def oCh (L : grid0.Coords) (j : Fin 200) : Memref sig .scVector .hbm S128x128 .f32 :=
  ((oV).slice (Rect.unit (s := S32x200x128x128) (chOff L j) S1x1x128x128.size (chOff_inb L j)) (fun _ => rfl)).squeeze S128x128 squeezes_S1x1x128x128_S128x128
theorem ch_congr {L : grid0.Coords} {off : Fin 4 → Nat} {j : Fin 200} (e : off = chOff L j) (hh hs) :
    ((oV).slice (Rect.unit (s := S32x200x128x128) off S1x1x128x128.size hh) hs).squeeze S128x128 squeezes_S1x1x128x128_S128x128 = oCh L j :=
  congrArg (fun M : Memref sig .scVector .hbm S1x1x128x128 .f32 => M.squeeze S128x128 squeezes_S1x1x128x128_S128x128) (Memref.slice_unit_congr _ e _ _ _ _)

abbrev chSet (L : grid0.Coords) (j : Fin 200) : Finset S32x200x128x128.Idx :=
  (Rect.unit (s := S32x200x128x128) (chOff L j) S1x1x128x128.size (chOff_inb L j)).set
theorem set_oCh (L : grid0.Coords) (j : Fin 200) : (oCh L j).view.set = chSet L j := (View.set_reshape _ _).trans (View.set_slice_whole _ _)

theorem mem_chSet (L : grid0.Coords) (j : Fin 200) (y : S32x200x128x128.Idx) :
    y ∈ chSet L j ↔ (y 0).val = 2 * (L 1).val + (L 0).val ∧ (y 1).val = j.val := by
  rw [Rect.mem_set_unit]
  have h2 : (y 2).val < 128 := (y 2).isLt
  have h3 : (y 3).val < 128 := (y 3).isLt
  constructor
  · intro H
    have a0 : 2 * (L 1).val + (L 0).val ≤ (y 0).val ∧ (y 0).val < 2 * (L 1).val + (L 0).val + 1 := H 0
    have a1 : j.val ≤ (y 1).val ∧ (y 1).val < j.val + 1 := H 1
    omega
  · intro H i; fin_cases i
    · show 2 * (L 1).val + (L 0).val ≤ (y 0).val ∧ (y 0).val < 2 * (L 1).val + (L 0).val + 1; omega
    · show j.val ≤ (y 1).val ∧ (y 1).val < j.val + 1; omega
    · show 0 ≤ (y 2).val ∧ (y 2).val < 0 + 128; omega
    · show 0 ≤ (y 3).val ∧ (y 3).val < 0 + 128; omega

/-- The worker's slab of the result: first coordinate the worker's number. -/
abbrev slabSet (L : grid0.Coords) : Finset S32x200x128x128.Idx := (oSlabRect L).set
theorem mem_slabSet (L : grid0.Coords) (y : S32x200x128x128.Idx) : y ∈ slabSet L ↔ (y 0).val = 2 * (L 1).val + (L 0).val := by
  rw [Rect.mem_set_unit]
  have h1 : (y 1).val < 200 := (y 1).isLt
  have h2 : (y 2).val < 128 := (y 2).isLt
  have h3 : (y 3).val < 128 := (y 3).isLt
  constructor
  · intro H
    have a0 : 2 * (L 1).val + (L 0).val ≤ (y 0).val ∧ (y 0).val < 2 * (L 1).val + (L 0).val + 1 := H 0
    omega
  · intro H i; fin_cases i
    · show 2 * (L 1).val + (L 0).val ≤ (y 0).val ∧ (y 0).val < 2 * (L 1).val + (L 0).val + 1; omega
    · show 0 ≤ (y 1).val ∧ (y 1).val < 0 + 200; omega
    · show 0 ≤ (y 2).val ∧ (y 2).val < 0 + 128; omega
    · show 0 ≤ (y 3).val ∧ (y 3).val < 0 + 128; omega

theorem chSet_disjoint (L : grid0.Coords) : ∀ j ∈ (Finset.univ : Finset (Fin 200)), ∀ j' ∈ (Finset.univ : Finset (Fin 200)), j ≠ j' → Disjoint (chSet L j) (chSet L j') := by
  intro j _ j' _ hne; rw [Finset.disjoint_left]; intro y hy hy'; rw [mem_chSet] at hy hy'; exact hne (Fin.ext (hy.2.symm.trans hy'.2))
theorem chSet_cover (L : grid0.Coords) : (Finset.univ : Finset (Fin 200)).biUnion (chSet L) = slabSet L := by
  ext y; simp only [Finset.mem_biUnion, Finset.mem_univ, true_and]
  constructor
  · rintro ⟨j, hj⟩; rw [mem_chSet] at hj; rw [mem_slabSet]; exact hj.1
  · intro hy; rw [mem_slabSet] at hy; exact ⟨(y 1).cast (by decide), by rw [mem_chSet]; exact ⟨hy, rfl⟩⟩

/-! ## Trip k's rows and chunks -/

/-- The even row `2k`, the odd row `2k + 1` (reduced into range: the identity for the loop's trips). -/
def ev (k : ℕ) : Fin 200 := ⟨(2 * k) % 200, Nat.mod_lt _ (by decide)⟩
def od (k : ℕ) : Fin 200 := ⟨(2 * k + 1) % 200, Nat.mod_lt _ (by decide)⟩

theorem trips_eq : k0_t1_loop.trips = 100 := by decide
theorem trip_lt (k : Fin k0_t1_loop.trips) : k.val < 100 := trips_eq ▸ k.isLt

theorem off2_row (k : Fin k0_t1_loop.trips) : k0_off2 k = rowOff (od k.val) := by
  have := trip_lt k
  rw [k0_off2_eq]; unfold rowOff od
  have e : (2 * k.val + 1) % 200 = 2 * k.val + 1 := Nat.mod_eq_of_lt (by omega)
  simp only [e]
theorem off3_row (k : Fin k0_t1_loop.trips) : k0_off3 k = rowOff (ev k.val) := by
  have := trip_lt k
  rw [k0_off3_eq]; unfold rowOff ev
  have e : (2 * k.val) % 200 = 2 * k.val := Nat.mod_eq_of_lt (by omega)
  simp only [e]
theorem off5_row (k : Fin k0_t1_loop.trips) (h : k.val + 1 < 100) : k0_off5 k = rowOff (ev (k.val + 1)) := by
  rw [k0_off5_eq]; unfold rowOff ev
  have e : (2 * (k.val + 1)) % 200 = 2 * k.val + 2 := by rw [Nat.mod_eq_of_lt (by omega)]; omega
  simp only [e]
theorem lit0_row : (![0, 0] : Fin 2 → Nat) = rowOff (ev 0) := by decide
theorem off4_ch (L : grid0.Coords) (k : Fin k0_t1_loop.trips) : k0_off4 L k = chOff L (ev k.val) := by
  have := trip_lt k
  rw [k0_off4_eq]; unfold chOff ev
  have e : (2 * k.val) % 200 = 2 * k.val := Nat.mod_eq_of_lt (by omega)
  simp only [e]
theorem off6_ch (L : grid0.Coords) (k : Fin k0_t1_loop.trips) : k0_off6 L k = chOff L (od k.val) := by
  have := trip_lt k
  rw [k0_off6_eq]; unfold chOff od
  have e : (2 * k.val + 1) % 200 = 2 * k.val + 1 := Nat.mod_eq_of_lt (by omega)
  simp only [e]

/-- The conditional of the loop: the next even row is fetched exactly when another trip follows. -/
theorem cond_iff (k : Fin k0_t1_loop.trips) : k0_cond1 k = 1#1 ↔ k.val + 1 < 100 := by
  revert k; decide +kernel

theorem ev_ne_od (k k' : ℕ) : ev k ≠ od k' := by
  intro h; have := congrArg Fin.val h; simp only [ev, od] at this; omega
theorem ev_inj {k k' : ℕ} (h : k < 100) (h' : k' < 100) (e : ev k = ev k') : k = k' := by
  have := congrArg Fin.val e; simp only [ev] at this; omega
theorem od_inj {k k' : ℕ} (h : k < 100) (h' : k' < 100) (e : od k = od k') : k = k' := by
  have := congrArg Fin.val e; simp only [od] at this; omega
theorem ev_val {k : ℕ} (h : k < 100) : (ev k).val = 2 * k := Nat.mod_eq_of_lt (by omega)
theorem od_val {k : ℕ} (h : k < 100) : (od k).val = 2 * k + 1 := Nat.mod_eq_of_lt (by omega)

end Cert.Proof.SideBits

end
-- ==== Proof.SideBits.Loop.lean ====
/-
  The worker's loop, by its invariant.

  Before trip k (k < 100) the fetch of row 2k into the first row buffer is in flight on the first semaphore: the row
  of the index copy it reads and the worker's first read share of the table travel with it. Every other row of the
  copy is home; chunks 0 … 2k − 1 of the worker's slab of the result hold the looked-up rows and the others what they
  held; the second row buffer, the second semaphore and the two copy-out semaphores are free. One trip starts the fetch
  of row 2k + 1, waits for row 2k and copies it out to chunk 2k, starts the fetch of row 2k + 2 if another trip
  follows, waits for row 2k + 1 and copies it out to chunk 2k + 1. After the last trip nothing is in flight.
-/
import proofs.«203453_g50448685858838_cont_8to1c4_102_16_alg».proof.Proof.SideBits.Pieces
import proofs.«203453_g50448685858838_cont_8to1c4_102_16_alg».proof.Proof.Spec

noncomputable section

namespace Cert.Proof.SideBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]

local notation "𝕄" => MT nD τ sig (HIx 1) (Elt F) ℕ UU ℕ

section Loop

variable (d : Dev nD) (L : grid0.Coords) (O : CellTallies nD τ sig (HIx 1)) (W : Waits sig (HIx 1))
variable (qA qB : PosShare TreeShare)
variable (fx : Buf (Elt F) ((xV).view.loc (VT d L))) (fS : Buf (Elt F) ((sV).view.loc (VT d L)))
variable (G fo : Buf (Elt F) ((oV).view.loc (VT d L)))

abbrev cellOf (s : DmaSems sig S_) : GSem nD τ sig := (VT d L, .dma s.sem)

/-- Row `r` of the copy, held by exactly its elements. -/
abbrev rowP (r : Fin 200) : sProp 𝕄 := (winR r).view.loc (VT d L) ↦[(winR r).view.set]{fullShare} fS
/-- Chunk `j` of the worker's slab, held by exactly its elements at `f`. -/
abbrev chP (j : Fin 200) (f : Buf (Elt F) ((oV).view.loc (VT d L))) : sProp 𝕄 :=
  (oCh L j).view.loc (VT d L) ↦[(oCh L j).view.set]{fullShare} f
/-- Before trip `k`: chunks below `2k` at the lookup, the others at what they held. -/
abbrev chK (k : ℕ) (j : Fin 200) : sProp 𝕄 := chP d L j (if j.val < 2 * k then G else fo)

/-- The 128 table rows that row `r` of the copy names, as a [128, 128] block. -/
def rowsOf (r : Fin 200) : S128x128.Idx → Elt F .f32 :=
  fun y => fx (ix2 (n0 := 1000000) (n1 := 128) (Cert.Spec.row (fS (ix2 (n0 := 200) (n1 := 128) r (y 0)))) (y 1))

/-- The fetch of row `r` into the first row buffer, in flight: the buffer as it will land, the row of the copy and
    the table's share travel with it. -/
abbrev flight0 (r : Fin 200) (t : Buf (Elt F) ((r0V).view.loc (VT d L))) (pay : S128x128.Idx → Elt F .f32) : sProp 𝕄 :=
  Transfers.Flight countersEmb (VT d L) (SemLoc.dma cc0_scratch3.sem) (default : HIx 1) 524288
    iprop((((r0V).view.loc (VT d L) ↦[(r0V).view.set]{fullShare} (r0V).view.writes (Elt F) t [⟨Rect.whole S128x128, pay⟩])
        ∗ rowP d L fS r) ∗ ((xV).view.loc (VT d L) ↦[(xAll).view.set]{qA} fx))

/-- What is in flight or home before trip `k`. -/
def invHead (k : ℕ) : sProp 𝕄 :=
  if k < 100 then
    iprop(((xV).view.loc (VT d L) ↦[Finset.univ \ (xAll).view.set]{qA} fx)
      ∗ bigSep (Finset.univ.erase (ev k)) (rowP d L fS)
      ∗ ∃ t pay, ⌜pay = rowsOf d L fx fS (ev k)⌝ ∗ flight0 d L qA fx fS (ev k) t pay)
  else
    iprop(((xV).view.loc (VT d L) ↦{qA} fx) ∗ bigSep Finset.univ (rowP d L fS)
      ∗ (∃ t, (r0V).view.loc (VT d L) ↦[(r0V).view.set]{fullShare} t) ∗ semVal (cellOf d L cc0_scratch3) 0)

/-- The loop's invariant before trip `k`. -/
def inv (k : ℕ) (_ : BitVec 32) : sProp 𝕄 :=
  iprop(Transfers.MayWaits (VT d L) (default : HIx 1) O
    ∗ ((xV).view.loc (VT d L) ↦{qB} fx)
    ∗ bigSep Finset.univ (chK d L G fo k)
    ∗ (∃ t1, (r1V).view.loc (VT d L) ↦[(r1V).view.set]{fullShare} t1)
    ∗ semVal (cellOf d L cc0_scratch4) 0 ∗ semVal (cellOf d L cc0_scoped1) 0 ∗ semVal (cellOf d L cc0_scoped2) 0
    ∗ (∃ W', ⌜∀ p ∈ W', p ∈ W ∨ p.2 = none⌝ ∗ owes (VT d L) O W')
    ∗ invHead d L qA fx fS k)

end Loop

end Cert.Proof.SideBits

end
-- ==== Proof.SideBits.Trip.lean ====
/-
  One trip of the worker's loop carries the invariant from k to k + 1.
-/
import proofs.«203453_g50448685858838_cont_8to1c4_102_16_alg».proof.Proof.SideBits.Loop

noncomputable section

namespace Cert.Proof.SideBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]

local notation "𝕄" => MT nD τ sig (HIx 1) (Elt F) ℕ UU ℕ

section Trip

variable (d : Dev nD) (L : grid0.Coords) (O : CellTallies nD τ sig (HIx 1)) (W : Waits sig (HIx 1))
variable (qA qB : PosShare TreeShare)
variable (fx : Buf (Elt F) ((xV).view.loc (VT d L))) (fS : Buf (Elt F) ((sV).view.loc (VT d L)))
variable (G fo : Buf (Elt F) ((oV).view.loc (VT d L)))

/-- A row of the copy at the body's own offsets. -/
abbrev winAt (off : Fin 2 → Nat) (hh : ∀ a, off a + S1x128.size a ≤ S200x128.size a) : Memref sig .scVector .vmem S128 .i32 :=
  ((sV).slice (Rect.unit (s := S200x128) off S1x128.size hh) (fun _ => rfl)).squeeze S128 squeezes_S1x128_S128
/-- A chunk of the result at the body's own offsets. -/
abbrev chAt (off : Fin 4 → Nat) (hh : ∀ a, off a + S1x1x128x128.size a ≤ S32x200x128x128.size a) : Memref sig .scVector .hbm S128x128 .f32 :=
  ((oV).slice (Rect.unit (s := S32x200x128x128) off S1x1x128x128.size hh) (fun _ => rfl)).squeeze S128x128 squeezes_S1x1x128x128_S128x128

omit [FloatOps F] in
theorem rowP_at {off : Fin 2 → Nat} {r : Fin 200} (e : off = rowOff r) (hh) :
    rowP d L fS r = ((winAt off hh).view.loc (VT d L) ↦[(winAt off hh).view.set]{fullShare} fS : sProp 𝕄) := by
  subst e; rfl
omit [FloatOps F] in
theorem chP_at {off : Fin 4 → Nat} {j : Fin 200} (e : off = chOff L j) (hh) (f : Buf (Elt F) ((oV).view.loc (VT d L))) :
    chP d L j f = ((chAt off hh).view.loc (VT d L) ↦[(chAt off hh).view.set]{fullShare} f : sProp 𝕄) := by
  subst e; rfl

variable (hin : ∀ (row : Fin 2 → Nat) (hk : ∀ a, row a + S1x128.size a ≤ S200x128.size a) (hq : (Rect.unit (s := S200x128) row S1x128.size hk).shape.Squeezes S128) x,
    (View.read (Elt F) (((sV).slice (Rect.unit (s := S200x128) row S1x128.size hk) (fun _ => rfl)).squeeze S128 hq).view fS x).toNat < 1000000)

/-- The block a fetch through the row at offsets `off` delivers: the table read at the rows the row's words name. -/
def gPay (off : Fin 2 → Nat) (hh : ∀ a, off a + S1x128.size a ≤ S200x128.size a) : S128x128.Idx → Elt F .f32 :=
  SparseCore.gatherPayload gathers_S1000000x128_S128x128 (View.read (Elt F) (xAll).view fx)
    (SparseCore.rows (View.read (Elt F) (winAt off hh).view fS) rfl (fun x => hin off hh squeezes_S1x128_S128 x))

/-- The value facts the trip uses (each a fact about views and payloads). -/
structure ValueFacts : Prop where
  back0 : ∀ (t : Buf (Elt F) ((r0V).view.loc (VT d L))) (pay : S128x128.Idx → Elt F .f32),
    ReadAs.same.apply (View.read (Elt F) (r0V).view ((r0V).view.writes (Elt F) t [⟨Rect.whole S128x128, pay⟩])) = pay
  back1 : ∀ (t : Buf (Elt F) ((r1V).view.loc (VT d L))) (pay : S128x128.Idx → Elt F .f32),
    ReadAs.same.apply (View.read (Elt F) (r1V).view ((r1V).view.writes (Elt F) t [⟨Rect.whole S128x128, pay⟩])) = pay
  chunk : ∀ (j : Fin 200) (fo' : Buf (Elt F) ((oV).view.loc (VT d L))) (P : S128x128.Idx → Elt F .f32),
    (∀ l h : Fin 128, P (ix2 l h) = G (ix4 (n0 := 32) (n1 := 200) (n2 := 128) (n3 := 128) (wid L) j l h)) →
      ∀ i ∈ (oCh L j).view.set, ((oCh L j).view.writes (Elt F) fo' [⟨Rect.whole S128x128, P⟩]) i = G i
  gather : ∀ (off : Fin 2 → Nat) (hh) (r : Fin 200) (_ : off = rowOff r), gPay d L fx fS hin off hh = rowsOf d L fx fS r
  look : ∀ (r : Fin 200) (l h : Fin 128),
    G (ix4 (n0 := 32) (n1 := 200) (n2 := 128) (n3 := 128) (wid L) r l h) = fx (ix2 (n0 := 1000000) (n1 := 128) (Cert.Spec.row (fS (ix2 (n0 := 200) (n1 := 128) r l))) h)

variable (hV : ValueFacts d L fx fS G hin)
include hV

theorem chunk_at {off : Fin 4 → Nat} {j : Fin 200} (e : off = chOff L j) (hh) (fo' : Buf (Elt F) ((oV).view.loc (VT d L))) (P : S128x128.Idx → Elt F .f32)
    (hP : ∀ l h : Fin 128, P (ix2 l h) = G (ix4 (n0 := 32) (n1 := 200) (n2 := 128) (n3 := 128) (wid L) j l h)) :
    ∀ i ∈ (chAt off hh).view.set, ((chAt off hh).view.writes (Elt F) fo' [⟨Rect.whole S128x128, P⟩]) i = G i := by
  subst e; exact hV.chunk j fo' P hP

/-- A block fetched through row `r` and copied out through the first row buffer lands as the lookup's chunk `r`. -/
theorem settle0 (r : Fin 200) (t : Buf (Elt F) ((r0V).view.loc (VT d L))) (pay : S128x128.Idx → Elt F .f32) (hpay : pay = rowsOf d L fx fS r) (l h : Fin 128) :
    (ReadAs.same.apply (View.read (Elt F) (r0V).view ((r0V).view.writes (Elt F) t [⟨Rect.whole S128x128, pay⟩]))) (ix2 l h)
      = G (ix4 (n0 := 32) (n1 := 200) (n2 := 128) (n3 := 128) (wid L) r l h) := by
  rw [hV.back0, hpay, hV.look]; rfl
theorem settle1 (r : Fin 200) (t : Buf (Elt F) ((r1V).view.loc (VT d L))) (pay : S128x128.Idx → Elt F .f32) (hpay : pay = rowsOf d L fx fS r) (l h : Fin 128) :
    (ReadAs.same.apply (View.read (Elt F) (r1V).view ((r1V).view.writes (Elt F) t [⟨Rect.whole S128x128, pay⟩]))) (ix2 l h)
      = G (ix4 (n0 := 32) (n1 := 200) (n2 := 128) (n3 := 128) (wid L) r l h) := by
  rw [hV.back1, hpay, hV.look]; rfl
omit hV

omit [FloatOps F] in
/-- The flight the trip issues, as the run states it, is the invariant's at the next even row. -/
theorem flight_at {off : Fin 2 → Nat} {r : Fin 200} (e : off = rowOff r) (hh) (t : Buf (Elt F) ((r0V).view.loc (VT d L))) (pay pay' : S128x128.Idx → Elt F .f32) :
    (Transfers.Flight countersEmb (VT d L) (SemLoc.dma cc0_scratch3.sem) (default : HIx 1) 524288
      iprop((((r0V).view.loc (VT d L) ↦[(r0V).view.set]{fullShare} (r0V).view.writes (Elt F) t [⟨Rect.whole S128x128, pay'⟩, ⟨Rect.whole S128x128, pay⟩])
          ∗ ((winAt off hh).view.loc (VT d L) ↦[(winAt off hh).view.set]{fullShare} fS)) ∗ ((xV).view.loc (VT d L) ↦[(xAll).view.set]{qA} fx)) : sProp 𝕄)
      = flight0 d L qA fx fS r ((r0V).view.writes (Elt F) t [⟨Rect.whole S128x128, pay⟩]) pay' := by
  subst e; rfl

omit [FloatOps F] in
/-- The rows home before trip `k + 1`: rows `2k` and `2k + 1` back, row `2k + 2` out. -/
theorem rows_fold (Φ : Fin 200 → sProp 𝕄) (k : ℕ) (hk1 : k + 1 < 100) :
    bigSep (Finset.univ.erase (ev (k + 1))) Φ
      = iprop(Φ (ev k) ∗ Φ (od k) ∗ bigSep (((Finset.univ.erase (ev k)).erase (od k)).erase (ev (k + 1))) Φ) := by
  have hk : k < 100 := by omega
  have h1 : ev k ∈ (Finset.univ.erase (ev (k + 1)) : Finset (Fin 200)) :=
    Finset.mem_erase.mpr ⟨fun e => by have := ev_inj hk hk1 e; omega, Finset.mem_univ _⟩
  have h2 : od k ∈ ((Finset.univ.erase (ev (k + 1))).erase (ev k) : Finset (Fin 200)) :=
    Finset.mem_erase.mpr ⟨(ev_ne_od _ _).symm, Finset.mem_erase.mpr ⟨(ev_ne_od _ _).symm, Finset.mem_univ _⟩⟩
  rw [SparseCore.bigSep_erase' h1, SparseCore.bigSep_erase' h2]
  have e : (((Finset.univ.erase (ev (k + 1))).erase (ev k)).erase (od k) : Finset (Fin 200)) = ((Finset.univ.erase (ev k)).erase (od k)).erase (ev (k + 1)) := by
    ext x; simp only [Finset.mem_erase, Finset.mem_univ, and_true]; tauto
  rw [e]
omit [FloatOps F] in
/-- After the last trip every row is home. -/
theorem rows_all (Φ : Fin 200 → sProp 𝕄) (k : ℕ) :
    bigSep Finset.univ Φ = iprop(Φ (ev k) ∗ Φ (od k) ∗ bigSep ((Finset.univ.erase (ev k)).erase (od k)) Φ) := by
  have h2 : od k ∈ (Finset.univ.erase (ev k) : Finset (Fin 200)) := Finset.mem_erase.mpr ⟨(ev_ne_od _ _).symm, Finset.mem_univ _⟩
  rw [SparseCore.bigSep_erase' (Finset.mem_univ (ev k)), SparseCore.bigSep_erase' h2]

omit [FloatOps F] in
/-- The chunks before trip `k + 1`: chunks `2k` and `2k + 1` at the lookup, the others as before trip `k`. -/
theorem chunks_fold (k : ℕ) (hk : k < 100) :
    bigSep Finset.univ (chK d L G fo (k + 1))
      = iprop(chP d L (ev k) G ∗ chP d L (od k) G ∗ bigSep ((Finset.univ.erase (ev k)).erase (od k)) (chK d L G fo k)) := by
  rw [rows_all (chK d L G fo (k + 1)) k]
  have e1 : chK d L G fo (k + 1) (ev k) = chP d L (ev k) G := by
    show chP d L (ev k) (if (ev k).val < 2 * (k + 1) then G else fo) = _
    rw [if_pos (by rw [ev_val hk]; omega)]
  have e2 : chK d L G fo (k + 1) (od k) = chP d L (od k) G := by
    show chP d L (od k) (if (od k).val < 2 * (k + 1) then G else fo) = _
    rw [if_pos (by rw [od_val hk]; omega)]
  have e3 : bigSep ((Finset.univ.erase (ev k)).erase (od k)) (chK d L G fo (k + 1)) = bigSep ((Finset.univ.erase (ev k)).erase (od k)) (chK d L G fo k) :=
    bigSep_congr fun j hj => by
      have hj' := hj
      simp only [Finset.mem_erase, Finset.mem_univ, and_true] at hj'
      have n1 : j.val ≠ 2 * k + 1 := fun h => hj'.1 (Fin.ext (h.trans (od_val hk).symm))
      have n0 : j.val ≠ 2 * k := fun h => hj'.2 (Fin.ext (h.trans (ev_val hk).symm))
      show chP d L j (if j.val < 2 * (k + 1) then G else fo) = chP d L j (if j.val < 2 * k then G else fo)
      by_cases h : j.val < 2 * k
      · rw [if_pos h, if_pos (by omega)]
      · rw [if_neg h, if_neg (by omega)]
  rw [e1, e2, e3]

omit [FloatOps F] in
theorem waits_grow {p : SemLoc sig × HIx 1} {a b c e : SemLoc sig} {W W' : Waits sig (HIx 1)} (hW' : ∀ p ∈ W', p ∈ W ∨ p.2 = none)
    (hp : p ∈ insert (a, (default : HIx 1)) (insert (b, (default : HIx 1)) (insert (c, (default : HIx 1)) (insert (e, (default : HIx 1)) W')))) : p ∈ W ∨ p.2 = none := by
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

include hin hV in
set_option maxHeartbeats 4000000 in
/-- A trip that is followed by another: the fetch of row 2k + 2 is started. -/
theorem trip_more (k : Fin k0_t1_loop.trips) (acc : BitVec 32) (hc : k0_cond1 k = 1#1) :
    inv d L O W qA qB fx fS G fo k.val acc
      ⊢ wp frame (wpE (defs₀ (F := F)) 𝒱₀ (VT d L) none) Set.univ
          (k0_t1_body L iV (Memref.isWhole_whole _) xV (Memref.isWhole_whole _) oV (Memref.isWhole_whole _)
            sV (Memref.isWhole_whole _) r0V (Memref.isWhole_whole _) r1V (Memref.isWhole_whole _) cc0_scratch3 cc0_scratch4 cc0_scoped0 cc0_scoped1 cc0_scoped2 k acc)
          (inv d L O W qA qB fx fS G fo (k.val + 1)) := by
  have hk : k.val < 100 := trip_lt k
  have hk1 : k.val + 1 < 100 := (cond_iff k).mp hc
  have hb : od k.val ∈ (Finset.univ.erase (ev k.val) : Finset (Fin 200)) := Finset.mem_erase.mpr ⟨(ev_ne_od _ _).symm, Finset.mem_univ _⟩
  have hcm : ev (k.val + 1) ∈ ((Finset.univ.erase (ev k.val)).erase (od k.val) : Finset (Fin 200)) :=
    Finset.mem_erase.mpr ⟨ev_ne_od _ _, Finset.mem_erase.mpr ⟨fun e => by have := ev_inj hk1 hk e; omega, Finset.mem_univ _⟩⟩
  have hfe : (if (ev k.val).val < 2 * k.val then G else fo) = fo := if_neg (by rw [ev_val hk]; omega)
  have hfo : (if (od k.val).val < 2 * k.val then G else fo) = fo := if_neg (by rw [od_val hk]; omega)
  unfold inv invHead
  rw [if_pos hk, if_pos hk1]
  iintro ⟨#Hmw, HXB, Hch, ⟨%t1, HR1⟩, Hc4, Hs1, Hs2, ⟨%W', %hW', HW⟩, HXA, Hrows, %t0, %pay0, %hpay, HF0⟩
  -- the trip's two rows and two chunks, in the body's spelling
  ihave Hr := (Entails.of_eq (SparseCore.bigSep_erase' hb (Φ := rowP d L fS))) $$ Hrows
  icases Hr with ⟨HRO, Hrows⟩
  ihave Hr := (Entails.of_eq (SparseCore.bigSep_erase' hcm (Φ := rowP d L fS))) $$ Hrows
  icases Hr with ⟨HRE, Hrows⟩
  ihave Hc := (Entails.of_eq (SparseCore.bigSep_erase' (Finset.mem_univ (ev k.val)) (Φ := chK d L G fo k.val))) $$ Hch
  icases Hc with ⟨HOE, Hch⟩
  ihave Hc := (Entails.of_eq (SparseCore.bigSep_erase' hb (Φ := chK d L G fo k.val))) $$ Hch
  icases Hc with ⟨HOO, Hch⟩
  ihave HRO := (Entails.of_eq (rowP_at d L fS (off2_row k) (k0_off2_inb k))) $$ HRO
  ihave HRE := (Entails.of_eq (rowP_at d L fS (off5_row k hk1) (k0_off5_inb k hc))) $$ HRE
  ihave HOE := (Entails.of_eq ((congrArg (chP d L (ev k.val)) hfe).trans (chP_at d L (off4_ch L k) (k0_off4_inb L k) fo))) $$ HOE
  ihave HOO := (Entails.of_eq ((congrArg (chP d L (od k.val)) hfo).trans (chP_at d L (off6_ch L k) (k0_off6_inb L k) fo))) $$ HOO
  clear hfe hfo hcm
  sl_unfold [k0_t1_body]
  sl_unfold [k0_part1]
  sl_exec
  sl_step
  rw [chunks_fold d L G fo k.val hk, rows_fold (rowP d L fS) k.val hk1]
  isplitr; · iexact Hmw
  isplitl [HXB]; · iexact HXB
  -- the two chunks written hold the lookup
  ihave HOE := (Entails.of_eq (pointsTo_congr (chunk_at d L fx fS G hin hV (off4_ch L k) (k0_off4_inb L k) fo
      (ReadAs.same.apply (View.read (Elt F) (r0V).view ((r0V).view.writes (Elt F) t0 [⟨Rect.whole S128x128, pay0⟩])))
      (settle0 d L fx fS G hin hV (ev k.val) t0 pay0 hpay)))) $$ HOE
  ihave HOE := (Entails.of_eq (chP_at d L (off4_ch L k) (k0_off4_inb L k) G).symm) $$ HOE
  ihave HOO := (Entails.of_eq (pointsTo_congr (chunk_at d L fx fS G hin hV (off6_ch L k) (k0_off6_inb L k) fo
      (ReadAs.same.apply (View.read (Elt F) (r1V).view ((r1V).view.writes (Elt F) t1 [⟨Rect.whole S128x128, gPay d L fx fS hin (k0_off2 k) (k0_off2_inb k)⟩])))
      (settle1 d L fx fS G hin hV (od k.val) t1 _ (hV.gather (k0_off2 k) (k0_off2_inb k) (od k.val) (off2_row k))))))  $$ HOO
  ihave HOO := (Entails.of_eq (chP_at d L (off6_ch L k) (k0_off6_inb L k) G).symm) $$ HOO
  isplitl [HOE HOO Hch]
  · isplitl [HOE]; · iexact HOE
    isplitl [HOO]; · iexact HOO
    iexact Hch
  isplitl [HR1]; · iexists _; iexact HR1
  isplitl [Hc4]; · iexact Hc4
  isplitl [Hs1]; · iexact Hs1
  isplitl [Hs2]; · iexact Hs2
  isplitl [HW]
  · iexists _; isplitr
    swap; · iexact HW
    ipureintro; exact fun p hp => waits_grow hW' hp
  isplitl [HXA]; · iexact HXA
  ihave HRO := (Entails.of_eq (rowP_at d L fS (off2_row k) (k0_off2_inb k)).symm) $$ HRO
  isplitl [HF0_dst_and HRO Hrows]
  · isplitl [HF0_dst_and]; · iexact HF0_dst_and
    isplitl [HRO]; · iexact HRO
    iexact Hrows
  iexists ((r0V).view.writes (Elt F) t0 [⟨Rect.whole S128x128, pay0⟩]), gPay d L fx fS hin (k0_off5 k) (k0_off5_inb k hc)
  isplitr
  · ipureintro; exact hV.gather (k0_off5 k) (k0_off5_inb k hc) (ev (k.val + 1)) (off5_row k hk1)
  · iapply (Entails.of_eq (flight_at d L qA fx fS (off5_row k hk1) (k0_off5_inb k hc) t0 pay0 (gPay d L fx fS hin (k0_off5 k) (k0_off5_inb k hc))))
    iexact HF0

include hin hV in
set_option maxHeartbeats 4000000 in
/-- The last trip: nothing more is fetched; at its end nothing is in flight. -/
theorem trip_last (k : Fin k0_t1_loop.trips) (acc : BitVec 32) (hc : ¬ k0_cond1 k = 1#1) :
    inv d L O W qA qB fx fS G fo k.val acc
      ⊢ wp frame (wpE (defs₀ (F := F)) 𝒱₀ (VT d L) none) Set.univ
          (k0_t1_body L iV (Memref.isWhole_whole _) xV (Memref.isWhole_whole _) oV (Memref.isWhole_whole _)
            sV (Memref.isWhole_whole _) r0V (Memref.isWhole_whole _) r1V (Memref.isWhole_whole _) cc0_scratch3 cc0_scratch4 cc0_scoped0 cc0_scoped1 cc0_scoped2 k acc)
          (inv d L O W qA qB fx fS G fo (k.val + 1)) := by
  have hk : k.val < 100 := trip_lt k
  have hk1 : ¬ k.val + 1 < 100 := fun h => hc ((cond_iff k).mpr h)
  have hb : od k.val ∈ (Finset.univ.erase (ev k.val) : Finset (Fin 200)) := Finset.mem_erase.mpr ⟨(ev_ne_od _ _).symm, Finset.mem_univ _⟩
  have hfe : (if (ev k.val).val < 2 * k.val then G else fo) = fo := if_neg (by rw [ev_val hk]; omega)
  have hfo : (if (od k.val).val < 2 * k.val then G else fo) = fo := if_neg (by rw [od_val hk]; omega)
  unfold inv invHead
  rw [if_pos hk, if_neg hk1]
  iintro ⟨#Hmw, HXB, Hch, ⟨%t1, HR1⟩, Hc4, Hs1, Hs2, ⟨%W', %hW', HW⟩, HXA, Hrows, %t0, %pay0, %hpay, HF0⟩
  ihave Hr := (Entails.of_eq (SparseCore.bigSep_erase' hb (Φ := rowP d L fS))) $$ Hrows
  icases Hr with ⟨HRO, Hrows⟩
  ihave Hc := (Entails.of_eq (SparseCore.bigSep_erase' (Finset.mem_univ (ev k.val)) (Φ := chK d L G fo k.val))) $$ Hch
  icases Hc with ⟨HOE, Hch⟩
  ihave Hc := (Entails.of_eq (SparseCore.bigSep_erase' hb (Φ := chK d L G fo k.val))) $$ Hch
  icases Hc with ⟨HOO, Hch⟩
  ihave HRO := (Entails.of_eq (rowP_at d L fS (off2_row k) (k0_off2_inb k))) $$ HRO
  ihave HOE := (Entails.of_eq ((congrArg (chP d L (ev k.val)) hfe).trans (chP_at d L (off4_ch L k) (k0_off4_inb L k) fo))) $$ HOE
  ihave HOO := (Entails.of_eq ((congrArg (chP d L (od k.val)) hfo).trans (chP_at d L (off6_ch L k) (k0_off6_inb L k) fo))) $$ HOO
  clear hfe hfo
  sl_unfold [k0_t1_body]
  sl_unfold [k0_part1]
  sl_exec
  sl_step
  rw [chunks_fold d L G fo k.val hk, rows_all (rowP d L fS) k.val]
  isplitr; · iexact Hmw
  isplitl [HXB]; · iexact HXB
  ihave HOE := (Entails.of_eq (pointsTo_congr (chunk_at d L fx fS G hin hV (off4_ch L k) (k0_off4_inb L k) fo
      (ReadAs.same.apply (View.read (Elt F) (r0V).view ((r0V).view.writes (Elt F) t0 [⟨Rect.whole S128x128, pay0⟩])))
      (settle0 d L fx fS G hin hV (ev k.val) t0 pay0 hpay)))) $$ HOE
  ihave HOE := (Entails.of_eq (chP_at d L (off4_ch L k) (k0_off4_inb L k) G).symm) $$ HOE
  ihave HOO := (Entails.of_eq (pointsTo_congr (chunk_at d L fx fS G hin hV (off6_ch L k) (k0_off6_inb L k) fo
      (ReadAs.same.apply (View.read (Elt F) (r1V).view ((r1V).view.writes (Elt F) t1 [⟨Rect.whole S128x128, gPay d L fx fS hin (k0_off2 k) (k0_off2_inb k)⟩])))
      (settle1 d L fx fS G hin hV (od k.val) t1 _ (hV.gather (k0_off2 k) (k0_off2_inb k) (od k.val) (off2_row k))))))  $$ HOO
  ihave HOO := (Entails.of_eq (chP_at d L (off6_ch L k) (k0_off6_inb L k) G).symm) $$ HOO
  isplitl [HOE HOO Hch]
  · isplitl [HOE]; · iexact HOE
    isplitl [HOO]; · iexact HOO
    iexact Hch
  isplitl [HR1]; · iexists _; iexact HR1
  isplitl [Hc4]; · iexact Hc4
  isplitl [Hs1]; · iexact Hs1
  isplitl [Hs2]; · iexact Hs2
  isplitl [HW]
  · iexists _; isplitr
    swap; · iexact HW
    ipureintro; exact fun p hp => waits_grow hW' hp
  isplitl [HXA]; · iexact HXA
  ihave HRO := (Entails.of_eq (rowP_at d L fS (off2_row k) (k0_off2_inb k)).symm) $$ HRO
  isplitl [HF0_dst_and HRO Hrows]
  · isplitl [HF0_dst_and]; · iexact HF0_dst_and
    isplitl [HRO]; · iexact HRO
    iexact Hrows
  isplitl [HF0_dst]; · iexists _; iexact HF0_dst
  iexact HF0

end Trip

end Cert.Proof.SideBits

end
-- ==== Proof.SideBits.Values.lean ====
/-
  The values a worker moves, read at an index.

  Row r of a worker's [200, 128] copy of its index slab places lane l at (r, l); the worker's slab of the
  [32, 200, 128] index array places (r, l) at (w, r, l), w the worker's number; chunk j of its slab of the
  [32, 200, 128, 128] result places (l, h) at (w, j, l, h); the table's slice is the whole table. Each placement is a
  unit-stride rectangle under a dropping of unit axes, and dropping unit axes keeps the row-major position, which
  fixes the coordinates.

  From the placements: a row's word at lane l is the copy's word at (r, l); the copy, once the slab is written over
  it whole, holds at (r, l) the index array's word at (w, r, l); a gather's payload at (l, h) is entry h of the table's
  row named by the copy's word at (r, l) (the word is in range, so reducing it modulo the number of rows changes
  nothing); a row buffer written whole reads back what was written; and a chunk written whole with a payload that is
  a function G of the result's indices, read through the chunk, holds G on the chunk's elements. The last is an
  instance of a fact about any view: one whole-view piece leaves, under the view's element at index y, the payload at y.
-/
import proofs.«203453_g50448685858838_cont_8to1c4_102_16_alg».proof.Proof.SideBits.Pieces
import proofs.«203453_g50448685858838_cont_8to1c4_102_16_alg».proof.Proof.Spec
import Idealize.ShloMosaic.Lib.ValueIdx
import Idealize.ShloMosaic.Lib.Writes
import Idealize.ShloMosaic.Lib.Exec.Geometry
import Idealize.ShloMosaic.Lib.Pipeline.Value
import Idealize.ShloMosaic.Lib.SparseCore.Stream

noncomputable section

namespace Cert.Proof.SideBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## One whole-view piece, under the view's elements -/

/-- What one whole-view piece leaves under the view's element at index `y`: the payload at `y`. -/
theorem writes_whole_emb {sig : RefSig} {κ : Kind} {sp : Space} {s : Shape} {e : EltTy} {Val : EltTy → Type}
    (v : View sig κ sp s e) (g : v.ty.Contents Val) (P : s.Idx → Val e) (y : s.Idx) :
    v.writes Val g [⟨Rect.whole s, P⟩] (v.emb y) = cast (congrArg Val v.elt_eq.symm) (P y) := by
  rw [← View.write_univ_eq_writes_whole v g [] P]
  exact View.write_emb_of_mem _ _ (Finset.mem_univ y)

/-- So a whole-view piece whose payload is a function `G` of the buffer's indices, read through the view, leaves `G`
    on the view's elements, whatever the buffer held. -/
theorem writes_whole_of_mem {sig : RefSig} {κ : Kind} {sp : Space} {s : Shape} {e : EltTy} {Val : EltTy → Type}
    (v : View sig κ sp s e) (g G : v.ty.Contents Val) (P : s.Idx → Val e)
    (hP : ∀ y, cast (congrArg Val v.elt_eq.symm) (P y) = G (v.emb y)) :
    ∀ i ∈ v.set, v.writes Val g [⟨Rect.whole s, P⟩] i = G i := by
  intro i hi
  obtain ⟨y, rfl⟩ := View.exists_emb_of_mem_set v hi
  rw [writes_whole_emb]; exact hP y

/-! ## A row buffer written whole reads back what was written -/

theorem read_back (d : Dev nD) (L : grid0.Coords) (t : Buf (Elt F) ((r0V).view.loc (VT d L))) (pay : S128x128.Idx → Elt F .f32) :
    ReadAs.same.apply (View.read (Elt F) (r0V).view ((r0V).view.writes (Elt F) t [⟨Rect.whole S128x128, pay⟩])) = pay :=
  View.read_writes_whole _ _ _

theorem read_back1 (d : Dev nD) (L : grid0.Coords) (t : Buf (Elt F) ((r1V).view.loc (VT d L))) (pay : S128x128.Idx → Elt F .f32) :
    ReadAs.same.apply (View.read (Elt F) (r1V).view ((r1V).view.writes (Elt F) t [⟨Rect.whole S128x128, pay⟩])) = pay :=
  View.read_writes_whole _ _ _

/-! ## A row of the copy -/

/-- Lane `l` of a [128] list is entry (0, l) of the [1, 128] row it was squeezed from: the same row-major position. -/
theorem squeeze_row (l : Fin 128) :
    Shape.reshapeEquiv (s := S1x128) (s' := S128) squeezes_S1x128_S128.numel_eq (ix1 l) = ix2 (0 : Fin 1) l := by
  apply Shape.reshapeEquiv_eq_of_rowMajor
  rw [Shape.rowMajor_val_two, Shape.rowMajor_val_one]
  show (0 : ℕ) * 128 + l.val = l.val
  omega

/-- Row `r` places lane `l` at (r, l). -/
theorem winR_emb (r : Fin 200) (l : Fin 128) : ((winR r).view.emb (ix1 l) : S200x128.Idx) = ix2 r l := by
  show (Rect.unit (s := S200x128) (rowOff r) S1x128.size (rowOff_inb r)).emb
      (Shape.reshapeEquiv (s := S1x128) (s' := S128) squeezes_S1x128_S128.numel_eq (ix1 l)) = ix2 r l
  rw [squeeze_row]
  funext a
  match a with
  | ⟨0, _⟩ => apply Fin.ext; show r.val + 1 * 0 = r.val; omega
  | ⟨1, _⟩ => apply Fin.ext; show 0 + 1 * l.val = l.val; omega

/-- A row's word at lane `l` is the copy's word at (r, l). -/
theorem row_read_lane (d : Dev nD) (L : grid0.Coords) (fS : Buf (Elt F) ((sV).view.loc (VT d L))) (r : Fin 200) (l : Fin 128) :
    View.read (Elt F) (winR r).view fS (ix1 l) = fS (ix2 r l) :=
  ((View.read_apply _ _).trans (cast_eq _ _)).trans (congrArg fS (winR_emb r l))

theorem row_read (d : Dev nD) (L : grid0.Coords) (fS : Buf (Elt F) ((sV).view.loc (VT d L))) (r : Fin 200) (x : S128.Idx) :
    View.read (Elt F) (winR r).view fS x = fS (ix2 r (x 0)) :=
  (congrArg (View.read (Elt F) (winR r).view fS) (eq_ix1 x)).trans (row_read_lane d L fS r (x 0))

/-! ## A gather's payload -/

/-- The table index a gather reads for the row buffer's entry (l, h): the row its list names at l, entry h. -/
theorem gidx_apply (rw : Fin (S128x128.size gathers_S1000000x128_S128x128.axis') → Fin (S1000000x128.size gathers_S1000000x128_S128x128.axis))
    (l h : Fin 128) :
    gathers_S1000000x128_S128x128.idx rw (ix2 l h) = ix2 (n0 := 1000000) (n1 := 128) (rw l) h := by
  funext b
  match b with
  | ⟨0, _⟩ => exact Shape.Gathers.idx_axis gathers_S1000000x128_S128x128 rw (ix2 l h)
  | ⟨1, hb⟩ => exact Fin.ext (Shape.Gathers.idx_of_ne gathers_S1000000x128_S128x128 rw (ix2 l h) ⟨1, hb⟩ Nat.one_ne_zero)

/-- The index of a [128] list at row-major position l is l. -/
theorem rowMajor_symm_S128 (l : Fin 128) (k : Fin S128.numel) (hk : k.val = l.val) : S128.rowMajor.symm k = ix1 l := by
  rw [Equiv.symm_apply_eq]
  apply Fin.ext
  rw [Shape.rowMajor_val_one]
  exact hk

/-- The table's slice is the whole table: it places (n, h) at (n, h). -/
theorem xAll_emb (n : Fin 1000000) (h : Fin 128) : ((xAll).view.emb (ix2 n h) : S1000000x128.Idx) = ix2 n h := by
  show (Rect.unit (s := S1000000x128) ![0, 0] S1000000x128.size inb_S1000000x128_S1000000x128_0_0).emb (ix2 n h) = ix2 n h
  funext a
  match a with
  | ⟨0, _⟩ => apply Fin.ext; show 0 + 1 * n.val = n.val; omega
  | ⟨1, _⟩ => apply Fin.ext; show 0 + 1 * h.val = h.val; omega

/-- The gather of row `r`'s words: entry (l, h) of its payload is entry h of the table's row named by the copy's word
    at (r, l). The word is below the number of rows (`hin`), so the row it names is the word itself. -/
theorem gather_apply (d : Dev nD) (L : grid0.Coords) (fx : Buf (Elt F) ((xV).view.loc (VT d L))) (fS : Buf (Elt F) ((sV).view.loc (VT d L)))
    (r : Fin 200) (hn : S128.numel = S128x128.size gathers_S1000000x128_S128x128.axis')
    (hin : ∀ x, (View.read (Elt F) (winR r).view fS x).toNat < S1000000x128.size gathers_S1000000x128_S128x128.axis) (l h : Fin 128) :
    SparseCore.gatherPayload gathers_S1000000x128_S128x128 (View.read (Elt F) (xAll).view fx)
        (SparseCore.rows (View.read (Elt F) (winR r).view fS) hn hin) (ix2 l h)
      = fx (ix2 (Cert.Spec.row (fS (ix2 r l))) h) := by
  have hword : View.read (Elt F) (winR r).view fS (S128.rowMajor.symm (Fin.cast hn.symm l)) = fS (ix2 r l) :=
    (congrArg (View.read (Elt F) (winR r).view fS) (rowMajor_symm_S128 l _ rfl)).trans (row_read_lane d L fS r l)
  have hlt : (fS (ix2 r l)).toNat < 1000000 := (congrArg BitVec.toNat (row_read_lane d L fS r l)).symm.trans_lt (hin (ix1 l))
  have hrow : SparseCore.rows (View.read (Elt F) (winR r).view fS) hn hin l = Cert.Spec.row (fS (ix2 r l)) :=
    Fin.ext ((congrArg BitVec.toNat hword).trans (Cert.Spec.row_val_of_lt _ hlt).symm)
  have hidx : gathers_S1000000x128_S128x128.idx (SparseCore.rows (View.read (Elt F) (winR r).view fS) hn hin) (ix2 l h)
      = ix2 (n0 := 1000000) (n1 := 128) (Cert.Spec.row (fS (ix2 r l))) h :=
    (gidx_apply _ l h).trans (congrArg (fun n : Fin 1000000 => ix2 (n0 := 1000000) (n1 := 128) n h) hrow)
  exact (congrArg (View.read (Elt F) (xAll).view fx) hidx).trans
    (((View.read_apply _ _).trans (cast_eq _ _)).trans (congrArg fx (xAll_emb _ h)))

/-! ## A chunk of the result -/

/-- Entry (l, h) of a [128, 128] block is entry (0, 0, l, h) of the [1, 1, 128, 128] chunk it was squeezed from. -/
theorem squeeze_chunk (l h : Fin 128) :
    Shape.reshapeEquiv (s := S1x1x128x128) (s' := S128x128) squeezes_S1x1x128x128_S128x128.numel_eq (ix2 l h)
      = ix4 (0 : Fin 1) (0 : Fin 1) l h := by
  apply Shape.reshapeEquiv_eq_of_rowMajor
  rw [Shape.rowMajor_val_four, Shape.rowMajor_val_two]
  show (((0 : ℕ) * 1 + 0) * 128 + l.val) * 128 + h.val = l.val * 128 + h.val
  omega

/-- Chunk `j` of worker `L`'s slab places (l, h) at (w, j, l, h), w the worker's number. -/
theorem oCh_emb (L : grid0.Coords) (j : Fin 200) (l h : Fin 128) :
    ((oCh L j).view.emb (ix2 l h) : S32x200x128x128.Idx) = ix4 (wid L) j l h := by
  show (Rect.unit (s := S32x200x128x128) (chOff L j) S1x1x128x128.size (chOff_inb L j)).emb
      (Shape.reshapeEquiv (s := S1x1x128x128) (s' := S128x128) squeezes_S1x1x128x128_S128x128.numel_eq (ix2 l h)) = ix4 (wid L) j l h
  rw [squeeze_chunk]
  funext a
  match a with
  | ⟨0, _⟩ => apply Fin.ext; show 2 * (L 1).val + (L 0).val + 1 * 0 = 2 * (L 1).val + (L 0).val; omega
  | ⟨1, _⟩ => apply Fin.ext; show j.val + 1 * 0 = j.val; omega
  | ⟨2, _⟩ => apply Fin.ext; show 0 + 1 * l.val = l.val; omega
  | ⟨3, _⟩ => apply Fin.ext; show 0 + 1 * h.val = h.val; omega

/-- A chunk written whole with a payload that is `G` read through the chunk holds `G` on the chunk's elements. -/
theorem chunk_written (d : Dev nD) (L : grid0.Coords) (j : Fin 200) (fo G : Buf (Elt F) ((oV).view.loc (VT d L)))
    (P : S128x128.Idx → Elt F .f32) (hP : ∀ l h : Fin 128, P (ix2 l h) = G (ix4 (wid L) j l h)) :
    ∀ i ∈ (oCh L j).view.set, ((oCh L j).view.writes (Elt F) fo [⟨Rect.whole S128x128, P⟩]) i = G i := by
  refine writes_whole_of_mem (oCh L j).view fo G P ?_
  intro y
  obtain ⟨l, h, rfl⟩ : ∃ l h : Fin 128, y = ix2 l h := ⟨y 0, y 1, eq_ix2 y⟩
  exact (cast_eq _ _).trans ((hP l h).trans (congrArg G (oCh_emb L j l h).symm))

/-! ## The copy of the index slab -/

/-- Entry (r, l) of a [200, 128] slab is entry (0, r, l) of the [1, 200, 128] slab it was squeezed from. -/
theorem squeeze_slab (r : Fin 200) (l : Fin 128) :
    Shape.reshapeEquiv (s := S1x200x128) (s' := S200x128) squeezes_S1x200x128_S200x128.numel_eq (ix2 r l) = ix3 (0 : Fin 1) r l := by
  apply Shape.reshapeEquiv_eq_of_rowMajor
  rw [Shape.rowMajor_val_three, Shape.rowMajor_val_two]
  show ((0 : ℕ) * 200 + r.val) * 128 + l.val = r.val * 128 + l.val
  omega

/-- Worker `L`'s slab of the index array places (r, l) at (w, r, l), w the worker's number. -/
theorem iSlab_emb (L : grid0.Coords) (r : Fin 200) (l : Fin 128) :
    ((iSlab L).view.emb (ix2 r l) : S32x200x128.Idx) = ix3 (wid L) r l := by
  show (Rect.unit (s := S32x200x128) (k0_off1 L) S1x200x128.size (k0_off1_inb L)).emb
      (Shape.reshapeEquiv (s := S1x200x128) (s' := S200x128) squeezes_S1x200x128_S200x128.numel_eq (ix2 r l)) = ix3 (wid L) r l
  rw [squeeze_slab]
  funext a
  match a with
  | ⟨0, _⟩ => apply Fin.ext; show k0_off1 L 0 + 1 * 0 = 2 * (L 1).val + (L 0).val; rw [k0_off1_eq]; rfl
  | ⟨1, _⟩ => apply Fin.ext; show k0_off1 L 1 + 1 * r.val = r.val; rw [k0_off1_eq]; show 0 + 1 * r.val = r.val; omega
  | ⟨2, _⟩ => apply Fin.ext; show k0_off1 L 2 + 1 * l.val = l.val; rw [k0_off1_eq]; show 0 + 1 * l.val = l.val; omega

/-- The copy, once the slab is written over it whole, holds at (r, l) the index array's word at (w, r, l). -/
theorem slab_copied (d : Dev nD) (L : grid0.Coords) (fi : Buf (Elt F) ((iV).view.loc (VT d L))) (g : Buf (Elt F) ((sV).view.loc (VT d L)))
    (r : Fin 200) (l : Fin 128) :
    ((sV).view.writes (Elt F) g [⟨Rect.whole S200x128, ReadAs.same.apply (View.read (Elt F) (iSlab L).view fi)⟩]) (ix2 r l)
      = fi (ix3 (wid L) r l) := by
  refine (writes_whole_emb (sV).view g _ (ix2 r l)).trans ?_
  refine (cast_eq _ _).trans ?_
  exact ((View.read_apply _ _).trans (cast_eq _ _)).trans (congrArg fi (iSlab_emb L r l))

end Cert.Proof.SideBits

end
-- ==== Proof.SideBits.Run.lean ====
/-
  A worker's whole run.

  The worker copies its slab of the index array into its own memory, splits that copy into its 200 rows, starts the
  fetch of row 0, runs the loop by its invariant, and is left with every row home, every chunk of its slab of the
  result at the looked-up rows, and every buffer and semaphore it was lent back as it found them. The values: the copy
  holds at (r, l) the index array's word at (w, r, l), so the block fetched through row r is the table's rows those
  words name, which is the lookup's chunk r of worker w.
-/
import proofs.«203453_g50448685858838_cont_8to1c4_102_16_alg».proof.Proof.SideBits.Trip
import proofs.«203453_g50448685858838_cont_8to1c4_102_16_alg».proof.Proof.SideBits.Values
import proofs.«203453_g50448685858838_cont_8to1c4_102_16_alg».proof.Proof.SideBits.Pay

noncomputable section

namespace Cert.Proof.SideBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]

local notation "𝕄" => MT nD τ sig (HIx 1) (Elt F) ℕ UU ℕ

section Run

variable (d : Dev nD) (L : grid0.Coords) (O : CellTallies nD τ sig (HIx 1)) (W : Waits sig (HIx 1))
variable (qA qB : PosShare TreeShare)
variable (fi : Buf (Elt F) ((iV).view.loc (VT d L))) (fx : Buf (Elt F) ((xV).view.loc (VT d L)))
variable (G fo : Buf (Elt F) ((oV).view.loc (VT d L)))

/-- The worker's copy of its index slab once the slab has landed in it, over whatever it held. -/
abbrev fSof (g : Buf (Elt F) ((sV).view.loc (VT d L))) : Buf (Elt F) ((sV).view.loc (VT d L)) :=
  (sV).view.writes (Elt F) g [⟨Rect.whole S200x128, ReadAs.same.apply (View.read (Elt F) (iSlab L).view fi)⟩]

omit [FloatOps F] in
theorem fS_lt (hfi : ∀ j : S32x200x128.Idx, (fi j).toNat < 1000000) (g : Buf (Elt F) ((sV).view.loc (VT d L))) (j : S200x128.Idx) :
    (fSof d L fi g j).toNat < 1000000 := by
  rw [eq_ix2 j]
  exact lt_of_eq_of_lt (congrArg BitVec.toNat (slab_copied d L fi g (j 0) (j 1))) (hfi _)

omit [FloatOps F] in
/-- Every row the body slices out of a copy whose words are all in range has its words in range. -/
theorem rows_in_range (fS : Buf (Elt F) ((sV).view.loc (VT d L))) (hS : ∀ j : S200x128.Idx, (fS j).toNat < 1000000) :
    ∀ (row : Fin 2 → Nat) (hk : ∀ a, row a + S1x128.size a ≤ S200x128.size a) (hq : (Rect.unit (s := S200x128) row S1x128.size hk).shape.Squeezes S128) x,
      (View.read (Elt F) (((sV).slice (Rect.unit (s := S200x128) row S1x128.size hk) (fun _ => rfl)).squeeze S128 hq).view fS x).toNat < 1000000 := by
  intro row hk hq x
  exact lt_of_eq_of_lt (congrArg BitVec.toNat ((View.read_apply _ _).trans (cast_eq _ _))) (hS _)

omit [FloatOps F] in
/-- The value facts of the trips, at the landed copy and the lookup. -/
theorem valueFacts (g : Buf (Elt F) ((sV).view.loc (VT d L))) (hfi : ∀ j : S32x200x128.Idx, (fi j).toNat < 1000000)
    (hG : ∀ (r : Fin 200) (l h : Fin 128), G (ix4 (n0 := 32) (n1 := 200) (n2 := 128) (n3 := 128) (wid L) r l h)
      = fx (ix2 (n0 := 1000000) (n1 := 128) (Cert.Spec.row (fi (ix3 (n0 := 32) (n1 := 200) (n2 := 128) (wid L) r l))) h)) :
    ValueFacts d L fx (fSof d L fi g) G (rows_in_range d L _ (fS_lt d L fi hfi g)) where
  back0 := read_back d L
  back1 := read_back1 d L
  chunk := fun j fo' P hP => chunk_written d L j fo' G P hP
  gather := fun off hh r e => by
    subst e
    funext y
    obtain ⟨l, h, rfl⟩ : ∃ l h : Fin 128, y = ix2 l h := ⟨y 0, y 1, eq_ix2 y⟩
    exact gather_apply d L fx (fSof d L fi g) r rfl _ l h
  look := fun r l h => (hG r l h).trans
    (congrArg (fun n : BitVec 32 => fx (ix2 (n0 := 1000000) (n1 := 128) (Cert.Spec.row n) h)) (slab_copied d L fi g r l).symm)

omit [FloatOps F] in
/-- The copy held whole is its 200 rows. -/
theorem rows_split (fS : Buf (Elt F) ((sV).view.loc (VT d L))) :
    ((sV).view.loc (VT d L) ↦[(sV).view.set]{fullShare} fS : sProp 𝕄) = bigSep Finset.univ (rowP d L fS) := by
  rw [show (sV).view.set = Finset.univ from View.set_whole _,
    Ring.pointsTo_blocks (ℓ := (sV).view.loc (VT d L)) rowSet rowSet_disjoint rowSet_cover]
  exact bigSep_congr fun r _ => by rw [← set_winR]; rfl

omit [FloatOps F] in
theorem chunks_zero : bigSep Finset.univ (chK d L G fo 0) = (bigSep Finset.univ (fun j => chP d L j fo) : sProp 𝕄) :=
  bigSep_congr fun j _ => by
    show chP d L j (if j.val < 2 * 0 then G else fo) = chP d L j fo
    rw [if_neg (by omega)]
omit [FloatOps F] in
theorem chunks_done : bigSep Finset.univ (chK d L G fo 100) = (bigSep Finset.univ (fun j => chP d L j G) : sProp 𝕄) :=
  bigSep_congr fun j _ => by
    show chP d L j (if j.val < 2 * 100 then G else fo) = chP d L j G
    rw [if_pos (by have := j.isLt; omega)]

/-- After the last trip: nothing in flight, every row home, every chunk at the lookup. -/
theorem inv_exit (fS : Buf (Elt F) ((sV).view.loc (VT d L))) (n : ℕ) (hn : n = 100) (acc : BitVec 32) :
    inv d L O W qA qB fx fS G fo n acc
      = iprop(Transfers.MayWaits (VT d L) (default : HIx 1) O
          ∗ ((xV).view.loc (VT d L) ↦{qB} fx)
          ∗ bigSep Finset.univ (fun j => chP d L j G)
          ∗ (∃ t1, (r1V).view.loc (VT d L) ↦[(r1V).view.set]{fullShare} t1)
          ∗ semVal (cellOf d L cc0_scratch4) 0 ∗ semVal (cellOf d L cc0_scoped1) 0 ∗ semVal (cellOf d L cc0_scoped2) 0
          ∗ (∃ W', ⌜∀ p ∈ W', p ∈ W ∨ p.2 = none⌝ ∗ owes (VT d L) O W')
          ∗ ((xV).view.loc (VT d L) ↦{qA} fx) ∗ bigSep Finset.univ (rowP d L fS)
          ∗ (∃ t, (r0V).view.loc (VT d L) ↦[(r0V).view.set]{fullShare} t) ∗ semVal (cellOf d L cc0_scratch3) 0) := by
  subst hn
  unfold inv invHead
  rw [if_neg (by decide : ¬ (100 : ℕ) < 100), chunks_done]

omit [FloatOps F] in
/-- The first fetch, as the run states it, is the invariant's flight at row 0. -/
theorem flight_at1 (fS : Buf (Elt F) ((sV).view.loc (VT d L))) {off : Fin 2 → Nat} {r : Fin 200} (e : off = rowOff r) (hh)
    (t : Buf (Elt F) ((r0V).view.loc (VT d L))) (pay : S128x128.Idx → Elt F .f32) :
    (Transfers.Flight countersEmb (VT d L) (SemLoc.dma cc0_scratch3.sem) (default : HIx 1) 524288
      iprop((((r0V).view.loc (VT d L) ↦[(r0V).view.set]{fullShare} (r0V).view.writes (Elt F) t [⟨Rect.whole S128x128, pay⟩])
          ∗ ((winAt off hh).view.loc (VT d L) ↦[(winAt off hh).view.set]{fullShare} fS)) ∗ ((xV).view.loc (VT d L) ↦[(xAll).view.set]{qA} fx)) : sProp 𝕄)
      = flight0 d L qA fx fS r t pay := by
  subst e; rfl

set_option maxHeartbeats 4000000 in
/-- A worker's run. -/
theorem tile_run (d : Dev nD) (L : grid0.Coords) (O : CellTallies nD τ sig (HIx 1)) (W : Waits sig (HIx 1)) (qA qB : PosShare TreeShare)
    (fi : Buf (Elt F) ((iV).view.loc (VT d L))) (fx : Buf (Elt F) ((xV).view.loc (VT d L))) (G fo : Buf (Elt F) ((oV).view.loc (VT d L)))
    (g0 : Buf (Elt F) ((sV).view.loc (VT d L))) (t0 : Buf (Elt F) ((r0V).view.loc (VT d L))) (t1 : Buf (Elt F) ((r1V).view.loc (VT d L)))
    (hfi : ∀ j : S32x200x128.Idx, (fi j).toNat < 1000000)
    (hG : ∀ (r : Fin 200) (l h : Fin 128), G (ix4 (n0 := 32) (n1 := 200) (n2 := 128) (n3 := 128) (wid L) r l h)
      = fx (ix2 (n0 := 1000000) (n1 := 128) (Cert.Spec.row (fi (ix3 (n0 := 32) (n1 := 200) (n2 := 128) (wid L) r l))) h)) :
    (iprop(Transfers.MayWaits (VT d L) (default : HIx 1) O
        ∗ ((iSlab L).view.loc (VT d L) ↦[(iSlab L).view.set]{fullShare} fi)
        ∗ ((xV).view.loc (VT d L) ↦{qA} fx)
        ∗ ((xV).view.loc (VT d L) ↦{qB} fx)
        ∗ bigSep Finset.univ (fun j => chP d L j fo)
        ∗ ((sV).view.loc (VT d L) ↦[(sV).view.set]{fullShare} g0)
        ∗ ((r0V).view.loc (VT d L) ↦[(r0V).view.set]{fullShare} t0)
        ∗ ((r1V).view.loc (VT d L) ↦[(r1V).view.set]{fullShare} t1)
        ∗ semVal (cellOf d L cc0_scratch3) 0 ∗ semVal (cellOf d L cc0_scratch4) 0
        ∗ semVal (cellOf d L cc0_scoped0) 0 ∗ semVal (cellOf d L cc0_scoped1) 0 ∗ semVal (cellOf d L cc0_scoped2) 0
        ∗ owes (VT d L) O W) : sProp 𝕄)
      ⊢ wp frame (wpE (defs₀ (F := F)) 𝒱₀ (VT d L) none) Set.univ
          (cc0__gather_kernel L iV (Memref.isWhole_whole _) xV (Memref.isWhole_whole _) oV (Memref.isWhole_whole _)
            sV (Memref.isWhole_whole _) r0V (Memref.isWhole_whole _) r1V (Memref.isWhole_whole _) cc0_scratch3 cc0_scratch4 cc0_scoped0 cc0_scoped1 cc0_scoped2)
          fun _ => iprop(((iSlab L).view.loc (VT d L) ↦[(iSlab L).view.set]{fullShare} fi)
            ∗ ((xV).view.loc (VT d L) ↦{qA} fx) ∗ ((xV).view.loc (VT d L) ↦{qB} fx)
            ∗ bigSep Finset.univ (fun j => chP d L j G)
            ∗ (∃ g, (sV).view.loc (VT d L) ↦[(sV).view.set]{fullShare} g)
            ∗ (∃ t, (r0V).view.loc (VT d L) ↦[(r0V).view.set]{fullShare} t)
            ∗ (∃ t, (r1V).view.loc (VT d L) ↦[(r1V).view.set]{fullShare} t)
            ∗ semVal (cellOf d L cc0_scratch3) 0 ∗ semVal (cellOf d L cc0_scratch4) 0
            ∗ semVal (cellOf d L cc0_scoped0) 0 ∗ semVal (cellOf d L cc0_scoped1) 0 ∗ semVal (cellOf d L cc0_scoped2) 0
            ∗ ∃ W', ⌜∀ p ∈ W', p ∈ W ∨ p.2 = none⌝ ∗ owes (VT d L) O W') := by
  rw [cc0__gather_kernel_eq_skeleton]; unfold cc0__gather_kernel_skel
  iintro ⟨#Hmw, HI, HXA, HXB, Hch, HS, HR0, HR1, Hc3, Hc4, Hs0, Hs1, Hs2, HW⟩
  -- the slab copy and its wait
  sl_exec
  -- the landed copy, row by row; row 0 in the body's spelling
  sl_unfold_run_names
  ihave Hrows := (Entails.of_eq (rows_split d L (fSof d L fi (sV).view.junk))) $$ HS
  ihave Hr := (Entails.of_eq (SparseCore.bigSep_erase' (Finset.mem_univ (ev 0)) (Φ := rowP d L (fSof d L fi (sV).view.junk)))) $$ Hrows
  icases Hr with ⟨HRE, Hrows⟩
  ihave HRE := (Entails.of_eq (rowP_at d L (fSof d L fi (sV).view.junk) lit0_row inb_S200x128_S1x128_0_0)) $$ HRE
  -- the first fetch: every word of the copy names a row of the table
  have hS := fS_lt d L fi hfi (sV).view.junk
  have hin := rows_in_range d L (fSof d L fi (sV).view.junk) hS
  have hV := valueFacts d L fi fx G (sV).view.junk hfi hG
  sl_exec
  sl_for (inv d L O W qA qB fx (fSof d L fi (sV).view.junk) G fo) $$ [HXB Hch HR1 Hc4 Hs1 Hs2 HW HXA Hrows Hc3]
  case region =>
    intro k acc
    by_cases hc : k0_cond1 k = 1#1
    · exact trip_more d L O W qA qB fx _ G fo hin hV k acc hc
    · exact trip_last d L O W qA qB fx _ G fo hin hV k acc hc
  · unfold inv invHead
    rw [if_pos (by decide : (0 : ℕ) < 100), chunks_zero]
    isplitr; · iexact Hmw
    isplitl [HXB]; · iexact HXB
    isplitl [Hch]; · iexact Hch
    isplitl [HR1]; · iexists _; iexact HR1
    isplitl [Hc4]; · iexact Hc4
    isplitl [Hs1]; · iexact Hs1
    isplitl [Hs2]; · iexact Hs2
    isplitl [HW]
    · iexists _; isplitr
      swap; · iexact HW
      ipureintro; intro p hp
      rcases Finset.mem_insert.mp hp with hp | hp; · exact .inr (hp ▸ rfl)
      exact .inl hp
    isplitl [HXA]; · iexact HXA
    isplitl [Hrows]; · iexact Hrows
    iexists t0, gPay d L fx (fSof d L fi (sV).view.junk) hin ![0, 0] inb_S200x128_S1x128_0_0
    isplitr
    · ipureintro; exact hV.gather _ _ (ev 0) lit0_row
    · iapply (Entails.of_eq (flight_at1 d L qA fx (fSof d L fi (sV).view.junk) lit0_row inb_S200x128_S1x128_0_0 t0 _))
      iexact Hc3
  iintro %acc HL
  ihave HL := (Entails.of_eq (inv_exit d L O W qA qB fx G fo (fSof d L fi (sV).view.junk) _ trips_eq acc)) $$ HL
  icases HL with ⟨-, HXB, Hch, ⟨%t1', HR1⟩, Hc4, Hs1, Hs2, ⟨%W', %hW', HW⟩, HXA, Hrows, ⟨%t0', HR0⟩, Hc3⟩
  ihave HS := (Entails.of_eq (rows_split d L (fSof d L fi (sV).view.junk)).symm) $$ Hrows
  sl_exec
  sl_step
  isplitl [HI]; · iexact HI
  isplitl [HXA]; · iexact HXA
  isplitl [HXB]; · iexact HXB
  isplitl [Hch]; · iexact Hch
  isplitl [HS]; · iexists _; iexact HS
  isplitl [HR0]; · iexists _; iexact HR0
  isplitl [HR1]; · iexists _; iexact HR1
  isplitl [Hc3]; · iexact Hc3
  isplitl [Hc4]; · iexact Hc4
  isplitl [Hs0]; · iexact Hs0
  isplitl [Hs1]; · iexact Hs1
  isplitl [Hs2]; · iexact Hs2
  iexists _; isplitr
  swap; · iexact HW
  ipureintro; exact hW'

end Run

end Cert.Proof.SideBits

end
-- ==== Proof.SideBits.Body.lean ====
/-
  The worker's task as the launch asks for it.

  The launch hands worker w = 2·subcore + core its slab of the index array, two read shares of the table and its slab
  of the result, beside the subcore's own buffers and semaphores. The body is proved in its own spelling: the index
  slab as the body slices it, the result slab chunk by chunk, the three scratch buffers and the five semaphores by
  name. Here the two spellings are identified: the slab the body slices is the worker's part of the index array, the
  200 chunks are exactly the worker's part of the result, and the named buffers and semaphores are among the
  subcore's own. With these the body's run is the obligation.
-/
import proofs.«203453_g50448685858838_cont_8to1c4_102_16_alg».proof.Proof.SideBits.Pay
import proofs.«203453_g50448685858838_cont_8to1c4_102_16_alg».proof.Proof.SideBits.Loop
import proofs.«203453_g50448685858838_cont_8to1c4_102_16_alg».proof.Proof.SideBits.Run

noncomputable section

namespace Cert.Proof.SideBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ)

section Tile

variable (d : Dev nD) (L : grid0.Coords)

/-! ## The worker's slabs: the body's rectangles are the launch's parts -/

omit [FloatOps F] in
/-- The slab of the index array the body slices is worker `wid L`'s part of it along the first axis. -/
theorem iSlabRect_eq :
    Rect.unit (s := S32x200x128) (k0_off1 L) S1x200x128.size (k0_off1_inb L) = Rect.part (s := S32x200x128) (a₀ := 0) idiv (wid L) := by
  unfold Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
/-- The worker's slab of the result is worker `wid L`'s part of it along the first axis. -/
theorem oSlabRect_eq : oSlabRect L = Rect.part (s := S32x200x128x128) (a₀ := 0) odiv (wid L) := by
  unfold oSlabRect Rect.part Rect.block
  congr 1 <;> funext a
  · match a with
    | 0 => simp [Shape.partIx, Shape.partSize, oSlabOff]
    | 1 => simp [Shape.partIx, Shape.partSize, oSlabOff]
    | 2 => simp [Shape.partIx, Shape.partSize, oSlabOff]
    | 3 => simp [Shape.partIx, Shape.partSize, oSlabOff]
  · match a with
    | 0 => simp [Shape.partSize]
    | 1 => simp [Shape.partSize]
    | 2 => simp [Shape.partSize]
    | 3 => simp [Shape.partSize]

omit [FloatOps F] in
theorem set_iSlab : (iSlab L).view.set = iPart (wid L) := by
  show (((iV).view.slice (Rect.unit (s := S32x200x128) (k0_off1 L) S1x200x128.size (k0_off1_inb L))).reshape S200x128
      squeezes_S1x200x128_S200x128.numel_eq).set = ((iV).view.slice (Rect.part (s := S32x200x128) (a₀ := 0) idiv (wid L))).set
  rw [View.set_reshape]
  exact iSlabRect_eq L ▸ rfl

omit [FloatOps F] in
theorem slabSet_eq : slabSet L = oPart (wid L) := by
  show (oSlabRect L).set = ((View.whole (main_v1_scv : Ref sig .scVector)).slice (Rect.part (s := S32x200x128x128) (a₀ := 0) odiv (wid L))).set
  rw [View.set_slice, oSlabRect_eq]; exact Finset.map_refl.symm

omit [FloatOps F] in
theorem pts_iSlab (f : Buf (Elt F) (iLoc d)) :
    ((iSlab L).view.loc (VT d L) ↦[(iSlab L).view.set]{fullShare} f : sProp 𝕄) = iLoc d ↦[iPart (wid L)]{fullShare} f := by
  rw [set_iSlab]

omit [FloatOps F] in
/-- The worker's 200 chunks, each held by exactly its elements at one function, are its slab of the result at it. -/
theorem pts_chunks (f : Buf (Elt F) (oLoc d)) :
    (bigSep Finset.univ (fun j : Fin 200 => chP d L j f) : sProp 𝕄) = oLoc d ↦[oPart (wid L)]{fullShare} f := by
  rw [← slabSet_eq, ← chSet_cover L]
  refine Eq.trans ?_ (pointsTo_biUnion (ℓ := oLoc d) (q := fullShare) (f := f) Finset.univ (chSet L) (chSet_disjoint L)).symm
  refine bigSep_congr fun j _ => ?_
  show ((oCh L j).view.loc (VT d L) ↦[(oCh L j).view.set]{fullShare} f : sProp 𝕄) = _
  rw [set_oCh]
  rfl

omit [FloatOps F] in
theorem pts_xV (q : PosShare TreeShare) (f : Buf (Elt F) (xLoc d)) :
    ((xV).view.loc (VT d L) ↦{q} f : sProp 𝕄) = xLoc d ↦{q} f := rfl
omit [FloatOps F] in
theorem pts_sV (f : Buf (Elt F) ((VT d L).loc cc0_scratch0)) :
    ((sV).view.loc (VT d L) ↦[(sV).view.set]{fullShare} f : sProp 𝕄) = (VT d L).loc cc0_scratch0 ↦{fullShare} f := by
  rw [show (sV).view.set = Finset.univ from View.set_whole _]
omit [FloatOps F] in
theorem pts_r0V (f : Buf (Elt F) ((VT d L).loc cc0_scratch1)) :
    ((r0V).view.loc (VT d L) ↦[(r0V).view.set]{fullShare} f : sProp 𝕄) = (VT d L).loc cc0_scratch1 ↦{fullShare} f := by
  rw [show (r0V).view.set = Finset.univ from View.set_whole _]
omit [FloatOps F] in
theorem pts_r1V (f : Buf (Elt F) ((VT d L).loc cc0_scratch2)) :
    ((r1V).view.loc (VT d L) ↦[(r1V).view.set]{fullShare} f : sProp 𝕄) = (VT d L).loc cc0_scratch2 ↦{fullShare} f := by
  rw [show (r1V).view.set = Finset.univ from View.set_whole _]

/-! ## The subcore's own semaphores and buffers, by name -/

omit [FloatOps F] in
private theorem cell_mem {s : DmaSems sig S_} (h : (SemLoc.dma s.sem : SemLoc sig).isScoped .scVector = true) :
    cellOf d L s ∈ ownCells (VT d L) := (mem_ownCells (g := cellOf d L s)).mpr ⟨rfl, h⟩
omit [FloatOps F] in
private theorem cell_ne {s s' : DmaSems sig S_} (h : (SemLoc.dma s.sem : SemLoc sig) ≠ SemLoc.dma s'.sem) :
    cellOf d L s ≠ cellOf d L s' := fun e => h (congrArg Prod.snd e)

omit [FloatOps F] in
/-- The five DMA semaphores the body names are among the subcore's own: they are them, at zero, and the rest. -/
theorem ownSems0_V :
    (ownSems0 (VT d L) : sProp 𝕄)
      = iprop(semVal (cellOf d L cc0_scratch3) 0 ∗ semVal (cellOf d L cc0_scratch4) 0 ∗ semVal (cellOf d L cc0_scoped0) 0
          ∗ semVal (cellOf d L cc0_scoped1) 0 ∗ semVal (cellOf d L cc0_scoped2) 0
          ∗ bigSep (((((ownCells (VT d L)).erase (cellOf d L cc0_scratch3)).erase (cellOf d L cc0_scratch4)).erase
              (cellOf d L cc0_scoped0)).erase (cellOf d L cc0_scoped1) |>.erase (cellOf d L cc0_scoped2)) fun g => semVal g 0) := by
  unfold SparseCore.Cfg.ownSems0
  rw [SparseCore.bigSep_erase' (cell_mem d L (s := cc0_scratch3) (by decide)),
    SparseCore.bigSep_erase' (Finset.mem_erase.mpr ⟨cell_ne d L (s := cc0_scratch4) (s' := cc0_scratch3) (by decide),
      cell_mem d L (s := cc0_scratch4) (by decide)⟩),
    SparseCore.bigSep_erase' (Finset.mem_erase.mpr ⟨cell_ne d L (s := cc0_scoped0) (s' := cc0_scratch4) (by decide),
      Finset.mem_erase.mpr ⟨cell_ne d L (s := cc0_scoped0) (s' := cc0_scratch3) (by decide), cell_mem d L (s := cc0_scoped0) (by decide)⟩⟩),
    SparseCore.bigSep_erase' (Finset.mem_erase.mpr ⟨cell_ne d L (s := cc0_scoped1) (s' := cc0_scoped0) (by decide),
      Finset.mem_erase.mpr ⟨cell_ne d L (s := cc0_scoped1) (s' := cc0_scratch4) (by decide),
        Finset.mem_erase.mpr ⟨cell_ne d L (s := cc0_scoped1) (s' := cc0_scratch3) (by decide), cell_mem d L (s := cc0_scoped1) (by decide)⟩⟩⟩),
    SparseCore.bigSep_erase' (Finset.mem_erase.mpr ⟨cell_ne d L (s := cc0_scoped2) (s' := cc0_scoped1) (by decide),
      Finset.mem_erase.mpr ⟨cell_ne d L (s := cc0_scoped2) (s' := cc0_scoped0) (by decide),
        Finset.mem_erase.mpr ⟨cell_ne d L (s := cc0_scoped2) (s' := cc0_scratch4) (by decide),
          Finset.mem_erase.mpr ⟨cell_ne d L (s := cc0_scoped2) (s' := cc0_scratch3) (by decide), cell_mem d L (s := cc0_scoped2) (by decide)⟩⟩⟩⟩)]

omit [FloatOps F] in
private theorem buf_mem (b : Ref sig .scVector) (h : ((Proc.scVector (cV L) (jV L)).devRef b : DevRef τ sig).owner = .proc (Proc.scVector (cV L) (jV L))) :
    (Proc.scVector (cV L) (jV L)).devRef b ∈ ownRefs (τ := τ) (sig := sig) (.scVector (cV L) (jV L)) :=
  SparseCore.Cfg.mem_ownRefs_of_owner (p := Proc.scVector (cV L) (jV L)) h
omit [FloatOps F] in
private theorem buf_ne {b b' : Ref sig .scVector} (h : b ≠ b') :
    ((Proc.scVector (cV L) (jV L)).devRef b : DevRef τ sig) ≠ (Proc.scVector (cV L) (jV L)).devRef b' :=
  fun e => h (Proc.devRef_injective _ e)

omit [FloatOps F] in
/-- The three scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (buf_mem L cc0_scratch0 rfl)).trans ?_
  rw [SparseCore.bigSep_erase' (Finset.mem_erase.mpr ⟨buf_ne L (b := cc0_scratch1) (b' := cc0_scratch0) (by decide), buf_mem L cc0_scratch1 rfl⟩),
    SparseCore.bigSep_erase' (Finset.mem_erase.mpr ⟨buf_ne L (b := cc0_scratch2) (b' := cc0_scratch1) (by decide),
      Finset.mem_erase.mpr ⟨buf_ne L (b := cc0_scratch2) (b' := cc0_scratch0) (by decide), buf_mem L cc0_scratch2 rfl⟩⟩)]

/-! ## The body's run, as a statement -/

/-- The worker's run in the body's own spelling: from the index slab as the body slices it (every word naming a row),
    two read shares of the table, the worker's 200 chunks of the result at any contents, the three scratch buffers, the
    five semaphores at zero and what the thread owes, the kernel function runs and leaves the same with the chunks at
    the array `G`, for any `G` whose worker-`wid L` entries are the looked-up rows. -/
def TileRun : Prop :=
  ∀ (d : Dev nD) (L : grid0.Coords) (O : CellTallies nD τ sig (HIx 1)) (W : Waits sig (HIx 1)) (qA qB : PosShare TreeShare)
    (fi : Buf (Elt F) ((iV).view.loc (VT d L))) (fx : Buf (Elt F) ((xV).view.loc (VT d L))) (G fo : Buf (Elt F) ((oV).view.loc (VT d L)))
    (g0 : Buf (Elt F) ((sV).view.loc (VT d L))) (t0 : Buf (Elt F) ((r0V).view.loc (VT d L))) (t1 : Buf (Elt F) ((r1V).view.loc (VT d L)))
    (hfi : ∀ j : S32x200x128.Idx, (fi j).toNat < 1000000)
    (hG : ∀ (r : Fin 200) (l h : Fin 128), G (ix4 (n0 := 32) (n1 := 200) (n2 := 128) (n3 := 128) (wid L) r l h)
      = fx (ix2 (n0 := 1000000) (n1 := 128) (Cert.Spec.row (fi (ix3 (n0 := 32) (n1 := 200) (n2 := 128) (wid L) r l))) h)),
    (iprop(Transfers.MayWaits (VT d L) (default : HIx 1) O
        ∗ ((iSlab L).view.loc (VT d L) ↦[(iSlab L).view.set]{fullShare} fi)
        ∗ ((xV).view.loc (VT d L) ↦{qA} fx)
        ∗ ((xV).view.loc (VT d L) ↦{qB} fx)
        ∗ bigSep Finset.univ (fun j => chP d L j fo)
        ∗ ((sV).view.loc (VT d L) ↦[(sV).view.set]{fullShare} g0)
        ∗ ((r0V).view.loc (VT d L) ↦[(r0V).view.set]{fullShare} t0)
        ∗ ((r1V).view.loc (VT d L) ↦[(r1V).view.set]{fullShare} t1)
        ∗ semVal (cellOf d L cc0_scratch3) 0 ∗ semVal (cellOf d L cc0_scratch4) 0
        ∗ semVal (cellOf d L cc0_scoped0) 0 ∗ semVal (cellOf d L cc0_scoped1) 0 ∗ semVal (cellOf d L cc0_scoped2) 0
        ∗ owes (VT d L) O W) : sProp 𝕄)
      ⊢ wp frame (wpE (defs₀ (F := F)) 𝒱₀ (VT d L) none) Set.univ
          (cc0__gather_kernel L iV (Memref.isWhole_whole _) xV (Memref.isWhole_whole _) oV (Memref.isWhole_whole _)
            sV (Memref.isWhole_whole _) r0V (Memref.isWhole_whole _) r1V (Memref.isWhole_whole _) cc0_scratch3 cc0_scratch4 cc0_scoped0 cc0_scoped1 cc0_scoped2)
          fun _ => iprop(((iSlab L).view.loc (VT d L) ↦[(iSlab L).view.set]{fullShare} fi)
            ∗ ((xV).view.loc (VT d L) ↦{qA} fx) ∗ ((xV).view.loc (VT d L) ↦{qB} fx)
            ∗ bigSep Finset.univ (fun j => chP d L j G)
            ∗ (∃ g, (sV).view.loc (VT d L) ↦[(sV).view.set]{fullShare} g)
            ∗ (∃ t, (r0V).view.loc (VT d L) ↦[(r0V).view.set]{fullShare} t)
            ∗ (∃ t, (r1V).view.loc (VT d L) ↦[(r1V).view.set]{fullShare} t)
            ∗ semVal (cellOf d L cc0_scratch3) 0 ∗ semVal (cellOf d L cc0_scratch4) 0
            ∗ semVal (cellOf d L cc0_scoped0) 0 ∗ semVal (cellOf d L cc0_scoped1) 0 ∗ semVal (cellOf d L cc0_scoped2) 0
            ∗ ∃ W', ⌜∀ p ∈ W', p ∈ W ∨ p.2 = none⌝ ∗ owes (VT d L) O W')

/-! ## The launch memory's facts the body's run asks for -/

omit [FloatOps F] in
/-- Every word of the index array as the workers read it names a row: the array is the launch's under a reshape. -/
theorem hfi_of_pre (hpre : PreOK m) (j : S32x200x128.Idx) : (I3 m d j).toNat < 1000000 := hpre d _

omit [FloatOps F] in
/-- The rows every worker writes, read at (w, r, l, h): entry h of the table's row the word at (w, r, l) names. -/
theorem hG_of (w : Fin 32) (r : Fin 200) (l h : Fin 128) :
    G4m m d (ix4 (n0 := 32) (n1 := 200) (n2 := 128) (n3 := 128) w r l h)
      = m (xLoc d) (ix2 (n0 := 1000000) (n1 := 128) (Cert.Spec.row (I3 m d (ix3 (n0 := 32) (n1 := 200) (n2 := 128) w r l))) h) := rfl

/-! ## The task, in the launch's spelling -/

/-- The task on the vector subcore of worker `L`: what the launch hands it is what the body's run asks for, and what
    the run leaves is what the launch takes back. -/
theorem tile_body (hrun : TileRun (F := F)) (hF : (K (F := F)).Facts) (hpre : PreOK m) (O : CellTallies nD τ sig (HIx 1)) (W : Waits sig (HIx 1)) (hO : ∀ g, O g none = 0) :
    iprop(levAts (K (F := F)).L (K (F := F)).lev ∗ emp
        ∗ GO m d (wid L)
        ∗ scopedBufs (VT d L) ∗ scopedSems0 (VT d L) ∗ owes (VT d L) O W)
      ⊢ wp frame (wpE (defs₀ (F := F)) 𝒱₀ (VT d L) none) Set.univ
          (cc0__gather_kernel L iV (Memref.isWhole_whole _) xV (Memref.isWhole_whole _) oV (Memref.isWhole_whole _)
            sV (Memref.isWhole_whole _) r0V (Memref.isWhole_whole _) r1V (Memref.isWhole_whole _) cc0_scratch3 cc0_scratch4 cc0_scoped0 cc0_scoped1 cc0_scoped2)
          fun _ => iprop(TD m d (wid L)
            ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  unfold GO TD
  iintro ⟨#Hlv, -, ⟨Hi, HxA, HxB, %fo, Ho⟩, ⟨⟨%fs, Hs⟩, ⟨%f0, Hr0⟩, ⟨%f1, Hr1⟩, Hbufs⟩, ⟨H3, H4, Hc0, Hc1, Hc2, Hsems⟩, HO⟩
  ihave Hmw := (show levAts (K (F := F)).L (K (F := F)).lev ⊢ Transfers.MayWaits (VT d L) (default : HIx 1) O from
    (K (F := F)).mayWaits_none (thr := VT d L) hO) $$ Hlv
  ihave Hi' := (Entails.of_eq (pts_iSlab (F := F) d L _).symm) $$ Hi
  ihave Ho' := (Entails.of_eq (pts_chunks (F := F) d L fo).symm) $$ Ho
  ihave Hs' := (Entails.of_eq (pts_sV (F := F) d L _).symm) $$ Hs
  ihave Hr0' := (Entails.of_eq (pts_r0V (F := F) d L _).symm) $$ Hr0
  ihave Hr1' := (Entails.of_eq (pts_r1V (F := F) d L _).symm) $$ Hr1
  ihave Hwp := (hrun d L O W (xTok (2 * (wid L).val)) (xTok (2 * (wid L).val + 1)) (I3 m d) (m (xLoc d)) (G4m m d) fo fs f0 f1
      (hfi_of_pre m d hpre) (hG_of m d (wid L))) $$ [Hmw Hi' HxA HxB Ho' Hs' Hr0' Hr1' H3 H4 Hc0 Hc1 Hc2 HO]
  · isplitl [Hmw]; · iexact Hmw
    isplitl [Hi']; · iexact Hi'
    isplitl [HxA]; · iexact HxA
    isplitl [HxB]; · iexact HxB
    isplitl [Ho']; · iexact Ho'
    isplitl [Hs']; · iexact Hs'
    isplitl [Hr0']; · iexact Hr0'
    isplitl [Hr1']; · iexact Hr1'
    isplitl [H3]; · iexact H3
    isplitl [H4]; · iexact H4
    isplitl [Hc0]; · iexact Hc0
    isplitl [Hc1]; · iexact Hc1
    isplitl [Hc2]; · iexact Hc2
    iexact HO
  iapply (wp_wand frame _ _) $$ Hwp
  iintro %_ ⟨Hi, HxA, HxB, Ho, ⟨%g, Hs⟩, ⟨%t0, Hr0⟩, ⟨%t1, Hr1⟩, H3, H4, Hc0, Hc1, Hc2, HW⟩
  isplitl [Hi HxA HxB Ho]
  · isplitl [Hi]; · iapply (Entails.of_eq (pts_iSlab (F := F) d L _)); iexact Hi
    isplitl [HxA]; · iexact HxA
    isplitl [HxB]; · iexact HxB
    iapply (Entails.of_eq (pts_chunks (F := F) d L _)); iexact Ho
  isplitl [Hs Hr0 Hr1 Hbufs]
  · isplitl [Hs]; · iexists _; iapply (Entails.of_eq (pts_sV (F := F) d L _)); iexact Hs
    isplitl [Hr0]; · iexists _; iapply (Entails.of_eq (pts_r0V (F := F) d L _)); iexact Hr0
    isplitl [Hr1]; · iexists _; iapply (Entails.of_eq (pts_r1V (F := F) d L _)); iexact Hr1
    iexact Hbufs
  isplitl [H3 H4 Hc0 Hc1 Hc2 Hsems]
  · isplitl [H3]; · iexact H3
    isplitl [H4]; · iexact H4
    isplitl [Hc0]; · iexact Hc0
    isplitl [Hc1]; · iexact Hc1
    isplitl [Hc2]; · iexact Hc2
    iexact Hsems
  iexact HW

/-! ## The obligation -/

theorem defs₀_vector (c : Fin τ.nSC) (s : Fin τ.nSub) :
    defs₀ (F := F) (.scVector c s) 0 ()
      = SparseCore.onTile hcore0 hsub0 (fun c s => cc0__gather_kernel (coordsV c s)
          iV (Memref.isWhole_whole _) xV (Memref.isWhole_whole _) oV (Memref.isWhole_whole _)
          sV (Memref.isWhole_whole _) r0V (Memref.isWhole_whole _) r1V (Memref.isWhole_whole _)
          cc0_scratch3 cc0_scratch4 cc0_scoped0 cc0_scoped1 cc0_scoped2) ⟨⟩ c s := rfl

omit [FloatOps F] in
/-- A wait the task leaves pending that is the launch's own or carries no round is in particular one the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The vector-subcore kernel's obligation from the body's run: on every device, SparseCore and subcore, the task of
    the worker there. -/
theorem tileObl_of (hrun : TileRun (F := F)) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hrun facts hpre O W hO).trans (wp_mono frame _ _ fun _ => obl_post)

/-- The vector-subcore kernel's obligation: the body's run is proved, so the obligation holds. -/
theorem tileObl (hpre : PreOK m) : (K (F := F)).TileObl (D (F := F)) 𝒱 (P m) v₀ 0 :=
  tileObl_of m tile_run hpre

end Tile

end Cert.Proof.SideBits

end
-- ==== Proof.RefRun.lean ====
/-
  The reference program's run, read back. Its @main is one call of the lookup function (which itself calls the
  three-way select), so the operations are listed here in order with both calls unfolded at their sites, over the
  buffers the two call records name: twenty-three host operations. The index words are first wrapped (a negative
  word has the number of rows added), then masked (0 ≤ word ≤ 999999, the two comparisons and-ed and folded over the
  unit axis), the table's rows are gathered at the wrapped words, and the mask selects between the gathered row and a
  constant. `refTerm` is that composition as one pure term of the two arguments; `run` says every weakly fair
  execution terminates with the result buffer at that term and the arguments unchanged.
-/
import proofs.«203453_g50448685858838_cont_8to1c4_102_16_alg».proof.Defs
import proofs.«203453_g50448685858838_cont_8to1c4_102_16_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty-three operations, in order, the two calls unfolded: the lookup function's operations over the
    buffers of the record `main_call0`, the select of the function it calls over the buffer of `main_call0.call0`
    (each typed reference of a record is the literal reference of that name). The lookup function's first argument is
    the table (`main_arg1`), its second the index words (`main_arg0`). -/
abbrev ops : List (HloOp τ sig (Elt F)) :=
  [ nullary main_call0_c (constantI S_ 32 0#32),
    unary main_call0_c main_call0_v0 (broadcastInDim S4096x200 ![] bcast_S_S4096x200 : (⟨S_, .i32⟩ : BufTy).Contents (Elt F) → (⟨S4096x200, .i32⟩ : BufTy).Contents (Elt F)),
    binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 1000000#32),
    unary main_call0_c_0 main_call0_v2 (broadcastInDim S4096x200 ![] bcast_S_S4096x200 : (⟨S_, .i32⟩ : BufTy).Contents (Elt F) → (⟨S4096x200, .i32⟩ : BufTy).Contents (Elt F)),
    binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call0_c_1 (constantI S1 32 999999#32),
    nullary main_call0_c_2 (constantI S_ 32 0#32),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1),
    binary main_call0_v11 main_call0_c_3 main_call0_v12 (fun x v => Host.reduce IntOp.andi x v reducesTo_S4096x200x1_S4096x200_d2 h_S_ : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 (fun x i => Host.gather gather_S1000000x128_S4096x200x1_S4096x200x128_2_0_n_n_0_2_1128 x i : (⟨S1000000x128, .f32⟩ : BufTy).Contents (Elt F) → (⟨S4096x200x1, .i32⟩ : BufTy).Contents (Elt F) → (⟨S4096x200x128, .f32⟩ : BufTy).Contents (Elt F)),
    unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)),
    nullary main_call0_cst (constant S_ .f32 0x7FC00000#32),
    unary main_call0_cst main_call0_v15 (broadcastInDim S4096x200x128 ![] bcast_S_S4096x200x128 : (⟨S_, .f32⟩ : BufTy).Contents (Elt F) → (⟨S4096x200x128, .f32⟩ : BufTy).Contents (Elt F)),
    ternary main_call0_v14 main_call0_v13 main_call0_v15 main_v0 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)) ]

/-- The same operations as the two functions' bodies print them, over the typed references of the call records
    `main_call0` and `main_call0.call0`: what @main unfolds to. -/
abbrev opsT : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S1000000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

-- twenty-three binds re-associated
set_option maxRecDepth 1024 in
/-- @main is that straight line: the two functions' definitions unfolded at their calls, both sides are one chain of
    host steps once sequencing is reassociated. -/
theorem main_eqT (c : Dev nD) : main (F := F) c = seq opsT := by
  simp only [main, fn_take.body, fn_where.body, seq, bind_assoc, pure_bind]

private theorem cons_congr {α : Type} {a b : α} {l m : List α} (h : a = b) (t : l = m) : a :: l = b :: m := by
  rw [h, t]

-- the reduction and the gather are kept folded: the equation never looks inside them
attribute [local irreducible] Host.reduce Host.gather in
/-- Operation by operation the two lists are one: a typed reference made from a literal reference carries that
    reference's own type, so moving a value to and from it is the identity. -/
theorem opsT_eq : (opsT : List (HloOp τ sig (Elt F))) = ops := by
  iterate 23 (refine cons_congr rfl ?_)
  rfl

/-- @main is the straight line `ops`. -/
theorem main_eq (c : Dev nD) : main (F := F) c = seq ops :=
  (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The index words with the negative ones wrapped: a word below zero (signed) has the number of rows added. -/
def wrapped (idx : IVec S4096x200 32) : IVec S4096x200 32 :=
  select (cmpi .slt idx (broadcastInDim S4096x200 ![] bcast_S_S4096x200 (constantI S_ 32 0#32)))
    (addi idx (broadcastInDim S4096x200 ![] bcast_S_S4096x200 (constantI S_ 32 1000000#32))) idx

/-- The wrapped words with a trailing unit axis: the gather's start indices. -/
def starts (idx : IVec S4096x200 32) : IVec S4096x200x1 32 :=
  broadcastInDim S4096x200x1 ![0, 1] bcast_S4096x200_S4096x200x1_0_1 (wrapped idx)

/-- The mask: at each (i, j) the conjunction over the unit axis of 0 ≤ word ≤ 999999 (signed) on the wrapped words. -/
def inBounds (idx : IVec S4096x200 32) : IVec S4096x200 1 :=
  Host.reduce IntOp.andi
    (andi (cmpi .sge (starts idx) (broadcastInDim S4096x200x1 ![] bcast_S_S4096x200x1 (constantI S_ 32 0#32)))
      (cmpi .sle (starts idx) (broadcastInDim S4096x200x1 ![0, 1, 2] bcast_S1x1x1_S4096x200x1_0_1_2
        (broadcastInDim S1x1x1 ![2] bcast_S1_S1x1x1_2 (constantI S1 32 999999#32)))))
    (constantI S_ 1 1#1) reducesTo_S4096x200x1_S4096x200_d2 h_S_

/-- The table's rows gathered at the wrapped words. -/
def gathered (idx : IVec S4096x200 32) (w : FVec F S1000000x128 .f32) : FVec F S4096x200x128 .f32 :=
  Host.gather gather_S1000000x128_S4096x200x1_S4096x200x128_2_0_n_n_0_2_1128 w (starts idx)

/-- The operations' composed pure term: where the mask holds the gathered row, elsewhere the constant. -/
def refTerm (idx : IVec S4096x200 32) (w : FVec F S1000000x128 .f32) : FVec F S4096x200x128 .f32 :=
  select (broadcastInDim S4096x200x128 ![0, 1] bcast_S4096x200_S4096x200x128_0_1 (inBounds idx))
    (gathered idx w)
    (broadcastInDim S4096x200x128 ![] bcast_S_S4096x200x128 (constant S_ .f32 0x7FC00000#32))

attribute [local irreducible] Host.reduce Host.gather in
set_option maxRecDepth 8192 in
/-- The fold of the operations at the result buffer is the composed term: each operation's result at its own buffer
    is its function's value, at any other buffer what was there. -/
theorem out_eq (V : Valuation τ sig (Elt F)) :
    after ops V (main_v0 : DevRef τ sig)
      = refTerm (F := F) (V (main_arg0 : DevRef τ sig)) (V (main_arg1 : DevRef τ sig)) := by
  after_results
  unfold refTerm gathered inBounds starts wrapped
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of @main
    terminates with the result at the operations' composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0) = refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's composed term is the lookup. Under the input domain every index word, read unsigned, is below the
  number of rows (1 000 000 < 2³¹), so its signed reading is the same number: no word is negative and the wrap keeps
  every word; both bounds of the mask hold, so the and-reduction over the unit axis is 1 everywhere and the final
  select keeps the gathered row; and the gather's clamp of the start index into [0, 999999] is the identity, so the
  gathered row at (i, j) is the table's row named by the word at (i, j).
-/
import proofs.«203453_g50448685858838_cont_8to1c4_102_16_alg».proof.Proof.RefRun
import proofs.«203453_g50448685858838_cont_8to1c4_102_16_alg».proof.Proof.Spec
import Idealize.ShloMosaic.Lib.ValueIdx
import Idealize.ShloMosaic.Lib.Pipeline.Value
import Idealize.ShloMosaic.Lib.Affine
import Idealize.ShloMosaic.Lib.ReduceAll

noncomputable section

namespace Cert.ReferenceIdeal.RefRun

open Cert.ReferenceIdeal Cert.ReferenceIdeal.Gen Idealize.ShloMosaic Idealize.ShloMosaic.ValueIdx

/-! ## Words below the number of rows -/

/-- A word below 1 000 000 read unsigned is the same number read signed. -/
theorem toInt_of_lt (n : BitVec 32) (h : n.toNat < 1000000) : n.toInt = (n.toNat : Int) :=
  BitVec.toInt_eq_toNat_of_lt (by omega)

/-- Such a word is not negative: the signed comparison with zero fails. -/
theorem slt_zero (n : BitVec 32) (h : n.toNat < 1000000) : IntOp.cmpi .slt n 0#32 = 0#1 := by
  refine eq_zero_of_ne_one fun e => ?_
  have := IntOp.cmpi_slt.mp e
  rw [toInt_of_lt n h] at this
  simp at this
  omega

/-- It is at least zero (signed). -/
theorem sge_zero (n : BitVec 32) (h : n.toNat < 1000000) : IntOp.cmpi .sge n 0#32 = 1#1 := by
  refine IntOp.cmpi_sge.mpr ?_
  rw [toInt_of_lt n h]
  simp

/-- It is at most 999999 (signed). -/
theorem sle_last (n : BitVec 32) (h : n.toNat < 1000000) : IntOp.cmpi .sle n 999999#32 = 1#1 := by
  refine IntOp.cmpi_sle.mpr ?_
  rw [toInt_of_lt n h, toInt_of_lt 999999#32 (by decide)]
  have : (999999#32 : BitVec 32).toNat = 999999 := by decide
  rw [this]
  omega

/-! ## An and-reduction of ones -/

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduce by `and` from the constant 1 of an array that is 1 everywhere is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x _ fun n _ => hx n

/-! ## The gather read at an index -/

/-- The gather of rows read at (a, b, c): entry c of the table's row named by the start word at (a, b, 0), that word
    read signed and clamped into [0, 999999]. The operand's axis 0 is collapsed and is the one the start index names;
    its axis 1 is the result's offset axis 2, whole (slice size 128), so its start is 0 and its offset is c. -/
theorem gather_apply {α : Type} (w : S1000000x128.Idx → α) (st : IVec S4096x200x1 32) (a : Fin 4096) (b : Fin 200) (c : Fin 128) :
    Host.gather gather_S1000000x128_S4096x200x1_S4096x200x128_2_0_n_n_0_2_1128 w st (ix3 a b c)
      = w (ix2 (n0 := 1000000) (n1 := 128) ⟨min (st (ix3 a b (0 : Fin 1))).toInt.toNat 999999, by omega⟩ c) := by
  unfold Host.gather
  refine congrArg w (funext fun ax => Fin.ext ?_)
  match ax with
  | ⟨0, _⟩ =>
    show GatherDims.start _ (ix3 a b c) st 0 + GatherDims.batchCoord _ (ix3 a b c) 0 + GatherDims.offCoord _ (ix3 a b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1000000x128_S4096x200x1_S4096x200x128_2_0_n_n_0_2_1128).startIndexMap from List.mem_singleton.mpr rfl)]
    have hsi : (gather_S1000000x128_S4096x200x1_S4096x200x128_2_0_n_n_0_2_1128).siIdx (ix3 a b c)
        ⟨List.idxOf (0 : Fin 2) (gather_S1000000x128_S4096x200x1_S4096x200x128_2_0_n_n_0_2_1128).startIndexMap,
          List.idxOf_lt_length_iff.2 (List.mem_singleton.mpr rfl)⟩ = ix3 a b (0 : Fin 1) := by
      funext d; refine Fin.ext ?_
      match d with
      | ⟨0, _⟩ => rfl
      | ⟨1, _⟩ => rfl
      | ⟨2, _⟩ => rfl
    rw [hsi]
    rfl
  | ⟨1, _⟩ =>
    show GatherDims.start _ (ix3 a b c) st 1 + GatherDims.batchCoord _ (ix3 a b c) 1 + GatherDims.offCoord _ (ix3 a b c) 1 = c.val
    rw [GatherDims.batchCoord_eq_zero _ _ _ List.not_mem_nil]
    have hs : GatherDims.start gather_S1000000x128_S4096x200x1_S4096x200x128_2_0_n_n_0_2_1128 (ix3 a b c) st 1 = 0 := by
      unfold GatherDims.start
      rw [dif_neg (by decide)]
    rw [hs]
    simp only [Nat.add_zero, Nat.zero_add]
    rfl

/-! ## The stages under the input domain -/

-- from here on the reduction and the gather are read only through the two lemmas above
attribute [local irreducible] Host.reduce Host.gather

/-- No word is negative, so the wrap keeps every word. -/
theorem wrapped_eq (idx : IVec S4096x200 32) (h : Cert.Spec.InRange idx) : wrapped idx = idx := by
  funext j
  show Scalar.select (IntOp.cmpi .slt (idx j) 0#32) (IntOp.addi (idx j) 1000000#32) (idx j) = idx j
  rw [slt_zero _ (h j), select_zero]

/-- The start indices at (a, b, k) are the wrapped word at (a, b). -/
theorem starts_apply (idx : IVec S4096x200 32) (a : Fin 4096) (b : Fin 200) (k : Fin 1) :
    starts idx (ix3 a b k) = wrapped idx (ix2 a b) := by
  unfold starts
  exact broadcastInDim_apply _ _ _ _ (ix2 a b) (fun ax => match ax with | ⟨0, _⟩ => rfl | ⟨1, _⟩ => rfl)

/-- Both bounds hold at every word, so the mask is 1 everywhere. -/
theorem inBounds_eq (idx : IVec S4096x200 32) (h : Cert.Spec.InRange idx) (j : S4096x200.Idx) : inBounds idx j = 1#1 := by
  unfold inBounds
  refine reduce_andi_one _ _ _ _ (fun i => ?_) (fun _ => rfl) j
  obtain ⟨a, b, k, rfl⟩ : ∃ (a : Fin 4096) (b : Fin 200) (k : Fin 1), i = ix3 a b k := ⟨i 0, i 1, i 2, eq_ix3 i⟩
  show IntOp.andi (IntOp.cmpi .sge (starts idx (ix3 a b k)) 0#32) (IntOp.cmpi .sle (starts idx (ix3 a b k)) 999999#32) = 1#1
  rw [starts_apply, wrapped_eq idx h, sge_zero _ (h _), sle_last _ (h _)]
  rfl

/-- The gathered row at (a, b) is the table's row the word at (a, b) names: the clamp is the identity. -/
theorem gathered_apply {F : FTy → Type} [FloatOps F] (idx : IVec S4096x200 32) (w : FVec F S1000000x128 .f32)
    (h : Cert.Spec.InRange idx) (a : Fin 4096) (b : Fin 200) (c : Fin 128) :
    gathered idx w (ix3 a b c) = w (ix2 (n0 := 1000000) (n1 := 128) (Cert.Spec.row (idx (ix2 a b))) c) := by
  unfold gathered
  rw [gather_apply]
  refine congrArg (fun r => w (ix2 (n0 := 1000000) (n1 := 128) r c)) (Fin.ext ?_)
  show min (starts idx (ix3 a b (0 : Fin 1))).toInt.toNat 999999 = (Cert.Spec.row (idx (ix2 a b))).val
  have hlt := h (ix2 a b)
  rw [starts_apply, wrapped_eq idx h, Cert.Spec.row_val_of_lt _ hlt, toInt_of_lt _ hlt, Int.toNat_natCast]
  exact Nat.min_eq_left (by omega)

/-! ## The composed term is the lookup -/

/-- Under the input domain the reference's composed term is the lookup, index by index. -/
theorem refTerm_eq (idx : IVec S4096x200 32) (w : FVec Ideal S1000000x128 .f32) (h : Cert.Spec.InRange idx) :
    refTerm idx w = Cert.Spec.G idx w := by
  funext y
  obtain ⟨a, b, c, rfl⟩ : ∃ (a : Fin 4096) (b : Fin 200) (c : Fin 128), y = ix3 a b c := ⟨y 0, y 1, y 2, eq_ix3 y⟩
  have hm : broadcastInDim S4096x200x128 ![0, 1] bcast_S4096x200_S4096x200x128_0_1 (inBounds idx) (ix3 a b c) = 1#1 :=
    (broadcastInDim_apply _ _ _ _ (ix2 a b) (fun ax => match ax with | ⟨0, _⟩ => rfl | ⟨1, _⟩ => rfl)).trans
      (inBounds_eq idx h _)
  unfold refTerm
  rw [select_apply, hm, select_one, gathered_apply idx w h]
  rfl

end Cert.ReferenceIdeal.RefRun

end
-- ==== Proof.Assemble.lean ====
/-
  The claim, assembled. Each program has one run whose post names the result as a pure term of the launch arguments
  and keeps the arguments; everything claimed is read off these runs.

  * The three frames are the runs with the result's value dropped.
  * The idealization rewrote no operation, so what it preserves is the trivial statement.
  * The algebraic equation: under the precondition every index word names a row of the table, so the SparseCore
    program's result is the lookup G of its arguments, and the reference's composed term (wrap the negative words, mask
    the words out of range, gather, select) is, on words in range, the same lookup; the two memories agree on the
    arguments, so both results are G of the same arrays.
-/
import proofs.«203453_g50448685858838_cont_8to1c4_102_16_alg».proof.Proof.SideIdeal.Final
import proofs.«203453_g50448685858838_cont_8to1c4_102_16_alg».proof.Proof.SideIdeal.Body
import proofs.«203453_g50448685858838_cont_8to1c4_102_16_alg».proof.Proof.SideBits.Final
import proofs.«203453_g50448685858838_cont_8to1c4_102_16_alg».proof.Proof.SideBits.Body
import proofs.«203453_g50448685858838_cont_8to1c4_102_16_alg».proof.Proof.RefRun
import proofs.«203453_g50448685858838_cont_8to1c4_102_16_alg».proof.Proof.RefValue
import proofs.«203453_g50448685858838_cont_8to1c4_102_16_alg».proof.Proof.Gen.Kernel
import proofs.«203453_g50448685858838_cont_8to1c4_102_16_alg».proof.Proof.Gen.KernelIdeal
import proofs.«203453_g50448685858838_cont_8to1c4_102_16_alg».proof.Proof.Gen.ReferenceIdeal
import proofs.«203453_g50448685858838_cont_8to1c4_102_16_alg».proof.Proof.Gen.Pre_input_domain

noncomputable section

namespace Cert.Proof.Assemble

open Idealize.ShloMosaic Idealize.SL.Sem

/-- The program as printed runs and keeps its arguments. -/
theorem frame_k : Cert.frame_Kernel := fun m ρ hpre =>
  (θ_run Cert.Kernel.defs _ _).mono (fun _ h c => (h c).2)
    (Cert.Proof.SideBits.run_value (F := Bits) m ρ (Cert.Proof.SideBits.preOK_of_pre m hpre)
      (Cert.Proof.SideBits.tileObl m (Cert.Proof.SideBits.preOK_of_pre m hpre)))

/-- The idealized program runs and keeps its arguments. -/
theorem frame_ki : Cert.frame_KernelIdeal := fun m ρ hpre =>
  (θ_run Cert.KernelIdeal.defs _ _).mono (fun _ h c => (h c).2)
    (Cert.Proof.SideIdeal.run_value (F := Ideal) m ρ (Cert.Proof.SideIdeal.preOK_of_pre m hpre)
      (Cert.Proof.SideIdeal.tileObl m (Cert.Proof.SideIdeal.preOK_of_pre m hpre)))

/-- The reference runs and keeps its arguments. -/
theorem frame_ri : Cert.frame_ReferenceIdeal := fun m ρ _ =>
  (θ_run Cert.ReferenceIdeal.defs _ _).mono (fun _ h c => (h c).2) (Cert.ReferenceIdeal.RefRun.run (F := Ideal) m ρ)

/-- No operation was rewritten. -/
theorem preserves : Cert.preserves_Kernel_KernelIdeal := trivial

/-- Both programs end with the lookup of the arguments they agree on. -/
theorem algebraic : Cert.algebraic_KernelIdeal_ReferenceIdeal := by
  intro m ρ m' ρ' hpre hagree
  have hok := Cert.Proof.SideIdeal.preOK_of_pre (F := Ideal) m hpre
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.SideIdeal.run_value (F := Ideal) m ρ hok (Cert.Proof.SideIdeal.tileObl m hok), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefRun.refTerm_eq _ _ (hok c)

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof.Assemble

end
-- ==== Proof.lean ====
/-
  An embedding lookup on the SparseCores against `jnp.take`: the certificate's five claims.

  THE MATHEMATICS. The inputs are an index array `inputs : int32[4096, 200]` and a table `weight : float32[1000000, 128]`;
  under the precondition every index word lies in [0, 999999]. Both programs compute
      result[i, j, l] = weight[inputs[i, j], l]                                   (`Cert.Spec.G`, Proof/Spec.lean).
  The reference is `jnp.take` in its fill mode: negative words are wrapped by the number of rows, words outside
  [0, 999999] are masked to a not-a-number constant, the rest gathered; with every word in range the wrap's select keeps
  the word, the mask is all ones and the gather reads the row the word names (Proof/RefRun.lean: the host program's run read
  back; Proof/RefValue.lean: its term is `G`). No float is ever computed with, so finiteness is not used.
  The kernel reshapes the index array to [32, 200, 128], one [200, 128] slab per worker (two SparseCores of sixteen
  vector subcores; worker 2·subcore + core), and each worker copies its slab into its own memory and then, chunk by
  chunk, fetches the 128 table rows a chunk's words name into one of two row buffers and copies the buffer out to its
  place in a [32, 200, 128, 128] result, the fetch of the next chunk overlapping the copy-out of the last; a final
  reshape gives [4096, 200, 128]. A row-major reshape keeps positions, so the two reshapes cancel around the lookup
  (Proof/Reshape.lean), and worker a's chunk b, lane c, holds the row the word at flat position 25600·a + 128·b + c names.

  HOW THE KERNEL'S RUN IS PROVED (Proof/SideIdeal for the idealized program, Proof/SideBits the same text for the program
  as printed: nothing in it depends on the float instance). A worker's loop is run once, at a symbolic trip, under an
  invariant (SideIdeal/Loop.lean): before trip k the fetch of row 2k is in flight on the first semaphore, every other
  row of the copy is home, chunks below 2k hold the looked-up rows; one semaphore carries one transfer at a time, and a
  row buffer is written again only after its copy-out has been waited for, so no transfer's source or destination is
  touched while it is pending (SideIdeal/Trip.lean, Run.lean). The precondition's range makes every fetch's row list
  name rows of the table (Proof/PreRead.lean). The launch deals each worker its slab of the index array, two read shares
  of the table and its slab of the result, and joins the slabs afterwards (SideIdeal/Launch.lean); Proof/Assemble.lean
  states the five claims.
-/
import proofs.«203453_g50448685858838_cont_8to1c4_102_16_alg».proof.Proof.Assemble

namespace Cert.Proof

theorem claim : Cert.Claim := Cert.Proof.Assemble.claim

end Cert.Proof
